-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32x2 .f32) (main_arg11 : FVec F S2 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x2 .f32 := Host.absf main_arg10
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S64x32 .f32) (main_arg9 : FVec F S32 .f32) (main_arg10 : FVec F S32x2 .f32) (main_arg11 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x128 .f32) (main_arg3 : FVec F S128 .f32) (main_arg4 : FVec F S128x128 .f32) (main_arg5 : FVec F S128 .f32) (main_arg6 : FVec F S128x64 .f32) (main_arg7 : FVec F S64 .f32) (main_arg8 : FVec F S64x32 .f32) (main_arg9 : FVec F S32 .f32) (main_arg10 : FVec F S32x2 .f32) (main_arg11 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x64 : Shape := ⟨2, ![5000, 64]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S1x32 : Shape := ⟨2, ![1, 32]⟩
abbrev S1x2 : Shape := ⟨2, ![1, 2]⟩
abbrev S1 : Shape := ⟨1, ![1]⟩
abbrev S1x1 : Shape := ⟨2, ![1, 1]⟩

abbrev nBuf : Space → Nat
  | .hbm => 78
  | .vmem => 34
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x2, .f32⟩
  | .hbm, ⟨11, _⟩ => ⟨S2, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x128, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000x128, .f32⟩
  | .hbm, ⟨40, _⟩ => ⟨S_, .f32⟩
  | .hbm, ⟨41, _⟩ => ⟨S100000x128, .f32⟩
  | .hbm, ⟨42, _⟩ => ⟨S1700000x1, .i32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x64, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S_, .f32⟩
  | .hbm, ⟨71, _⟩ => ⟨S100000x64, .f32⟩
  | .hbm, ⟨72, _⟩ => ⟨S1700000x1, .i32⟩
  | .hbm, ⟨73, _⟩ => ⟨S100000x64, .f32⟩
  | .hbm, ⟨74, _⟩ => ⟨S1x64, .f32⟩
  | .hbm, ⟨75, _⟩ => ⟨S1x32, .f32⟩
  | .hbm, ⟨76, _⟩ => ⟨S1x2, .f32⟩
  | .hbm, ⟨77, _⟩ => ⟨S1x2, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S64x32, .f32⟩
  | .local _ .vmem, ⟨29, _⟩ => ⟨S1x32, .f32⟩
  | .local _ .vmem, ⟨30, _⟩ => ⟨S32x2, .f32⟩
  | .local _ .vmem, ⟨31, _⟩ => ⟨S1x2, .f32⟩
  | .local _ .vmem, ⟨32, _⟩ => ⟨S1x2, .f32⟩
  | .local _ .vmem, ⟨33, _⟩ => ⟨S1x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_7 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v22 : BitVec 1 := Scalar.cmpi .eq arg0 c19_i32
  let v23 : BitVec 32 := Scalar.extui v22
  let c0_i32_11 : BitVec 32 := 0#32
  let v24 : BitVec 1 := Scalar.cmpi .ne v23 c0_i32_11
  v24

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x2 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S32_S1x32 : S32.ShapeCasts S1x32
  shapeCasts_S2_S1x2 : S2.ShapeCasts S1x2
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  reduces_S5000x64_S64 : S5000x64.Reduces [0] S64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  reduces_S1x2_S1 : S1x2.Reduces [1] S1
  shapeCasts_S1_S1x1 : S1.ShapeCasts S1x1
  broadcasts_S1x1_S1x2 : S1x1.Broadcasts S1x2
  scatter_S100000_S1700000x1_S1700000_n_0_0_1_wf : ScatterDims.WF S100000 S1700000x1 S1700000 [] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1x64_S64x32_S1x32_1_0_0_1_n_n_wf : DotDims.WF S1x64 S64x32 S1x32 [1] [0] [0] [1] [] []
  dot_S1x32_S32x2_S1x2_1_0_0_1_n_n_wf : DotDims.WF S1x32 S32x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x2.size a ≤ S32x2.size a
  hwx3_5 : ∀ i : grid3.Coords, EltTy.bits .f32 = 32 ∨ (Rect.block (s := S32x2) S32x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x2.size a ≤ S1x2.size a
  hwx3_7 : ∀ i : grid3.Coords, EltTy.bits .f32 = 32 ∨ (Rect.block (s := S1x2) S1x2.size (cc3_transform_7 i) (hinb3_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v39) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg10) S32x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v52) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v53) S1x2.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩
abbrev S1x32 : Shape := ⟨2, ![1, 32]⟩
abbrev S1x2 : Shape := ⟨2, ![1, 2]⟩
abbrev S1 : Shape := ⟨1, ![1]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x64, .f32⟩
  | 1 => ⟨S2x1600000, .i32⟩
  | 2 => ⟨S64x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x32, .f32⟩
  | 9 => ⟨S32, .f32⟩
  | 10 => ⟨S32x2, .f32⟩
  | 11 => ⟨S2, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x1, .f32⟩
  | 82 => ⟨S1700000x128, .f32⟩
  | 83 => ⟨S1700000x128, .f32⟩
  | 84 => ⟨S_, .f32⟩
  | 85 => ⟨S100000x128, .f32⟩
  | 86 => ⟨S1700000x1, .i32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x1, .f32⟩
  | 105 => ⟨S1700000x64, .f32⟩
  | 106 => ⟨S1700000x64, .f32⟩
  | 107 => ⟨S_, .f32⟩
  | 108 => ⟨S100000x64, .f32⟩
  | 109 => ⟨S1700000x1, .i32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000x64, .f32⟩
  | 116 => ⟨S100000x64, .f32⟩
  | 117 => ⟨S_, .f32⟩
  | 118 => ⟨S64, .f32⟩
  | 119 => ⟨S1x64, .f32⟩
  | 120 => ⟨S_, .f32⟩
  | 121 => ⟨S1x64, .f32⟩
  | 122 => ⟨S1x64, .f32⟩
  | 123 => ⟨S1x32, .f32⟩
  | 124 => ⟨S1x32, .f32⟩
  | 125 => ⟨S1x32, .f32⟩
  | 126 => ⟨S_, .f32⟩
  | 127 => ⟨S1x32, .f32⟩
  | _ => ⟨S100000x64, .f32⟩

abbrev hbmTy0_1 (i : Nat) : BufTy := match i % 128 with
  | 0 => ⟨S1x32, .f32⟩
  | 1 => ⟨S1x2, .f32⟩
  | 2 => ⟨S1x2, .f32⟩
  | 3 => ⟨S1x2, .f32⟩
  | 4 => ⟨S_, .f32⟩
  | 5 => ⟨S1, .f32⟩
  | 6 => ⟨S_, .f32⟩
  | 7 => ⟨S1, .f32⟩
  | 8 => ⟨S1, .f32⟩
  | 9 => ⟨S1x1, .f32⟩
  | 10 => ⟨S1x2, .f32⟩
  | 11 => ⟨S1x2, .f32⟩
  | 12 => ⟨S1x2, .f32⟩
  | 13 => ⟨S_, .f32⟩
  | 14 => ⟨S1, .f32⟩
  | 15 => ⟨S1x1, .f32⟩
  | 16 => ⟨S1x2, .f32⟩
  | 17 => ⟨S1x2, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call0_cst : Ref sig .tc := ⟨.hbm, 68, rfl⟩
abbrev main_call0_v0 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_v48 : Ref sig .tc := ⟨.hbm, 73, rfl⟩
abbrev main_v49 : Ref sig .tc := ⟨.hbm, 74, rfl⟩
abbrev main_c_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_call1_cst : Ref sig .tc := ⟨.hbm, 91, rfl⟩
abbrev main_call1_v0 : Ref sig .tc := ⟨.hbm, 92, rfl⟩
abbrev main_v64 : Ref sig .tc := ⟨.hbm, 93, rfl⟩
abbrev main_v65 : Ref sig .tc := ⟨.hbm, 94, rfl⟩
abbrev main_c_11 : Ref sig .tc := ⟨.hbm, 95, rfl⟩
abbrev main_v66 : Ref sig .tc := ⟨.hbm, 96, rfl⟩
abbrev main_v67 : Ref sig .tc := ⟨.hbm, 97, rfl⟩
abbrev main_c_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_call2_cst : Ref sig .tc := ⟨.hbm, 114, rfl⟩
abbrev main_call2_v0 : Ref sig .tc := ⟨.hbm, 115, rfl⟩
abbrev main_v82 : Ref sig .tc := ⟨.hbm, 116, rfl⟩
abbrev main_cst_14 : Ref sig .tc := ⟨.hbm, 117, rfl⟩
abbrev main_v83 : Ref sig .tc := ⟨.hbm, 118, rfl⟩
abbrev main_v84 : Ref sig .tc := ⟨.hbm, 119, rfl⟩
abbrev main_cst_15 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_16 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_18 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S2_S1x2_1 : S2.BroadcastsInDim S1x2 (![1] : Fin 1 → Fin S1x2.rank)
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1x64_S64x32_S1x32_1_0_0_1_n_n_wf : DotDims.WF S1x64 S64x32 S1x32 [1] [0] [0] [1] [] []
  dot_S1x32_S32x2_S1x2_1_0_0_1_n_n_wf : DotDims.WF S1x32 S32x2 S1x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x2_S1x2_1_0_0_1_n_n : DotDims S1x32 S32x2 S1x2 where
  lhsContracting := [1]
  rhsContracting := [0]
  lhsNonContracting := [0]
  rhsNonContracting := [1]
  lhsBatch := []
  rhsBatch := []
  wf := dot_S1x32_S32x2_S1x2_1_0_0_1_n_n_wf

class Facts : Prop extends Facts₀ where

variable [Facts]
-- ==== Proof.KernelRegion0.lean ====
/- Region 0 of @main, the first linear layer: the row block times the weights, scaled row by row by the degree column. The kernel body loads each input window's whole block, computes one
   value and stores it over the whole output block. Stated at a parameter `V`, the TensorCore's buffer contents when the
   region is entered: each window's block at a grid point, the output block as a function of the input blocks, the body's
   triple, the pipeline's proof data and the body obligation the launch theorems ask for. -/
import proofs.«156777_j82712480186688_2_alg».proof.Proof.KernelLaunch
import proofs.«156777_j82712480186688_2_alg».proof.Proof.Gen.Kernel.Skeleton
import proofs.«156777_j82712480186688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved, so the buffer still holds the block. For any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: where it is not
    fetched its block index has not moved, so the buffer still holds the block. For any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: where it is not
    fetched its block index has not moved, so the buffer still holds the block. For any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer's whole rectangle -/

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

/-! ## What the body leaves in the output window's buffer -/

/-- Window 3's staging buffer after the body, from the input windows' blocks: its one store, of the whole block. -/
def out0_3 (x0 : Vec F S5000x64 .f32) (x1 : Vec F S64x128 .f32) (x2 : Vec F S5000x1 .f32) : Vec F S5000x128 .f32 :=
  View.canon [⟨r0_3, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The body's triple -/

set_option maxHeartbeats 1000000 in
/-- The kernel body on whole staging memrefs, the inputs' at read contents `xW` and the output's at anything, runs to the
    continuation holding the inputs' as they were and the output's at `out0_3` of the inputs'. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x64 .f32) (x1 : Vec F S64x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_dis_kernel i arg1 harg1 arg2 harg2 arg3 harg3 arg4 harg4) K := by
  simp only [cc0__linear_dis_kernel_eq_skeleton]; unfold cc0__linear_dis_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed counts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelRegion1.lean ====
/- Region 1 of @main, the second linear layer: scale, add the bias row, clamp at zero, times the weights, scale again. The kernel body loads each input window's whole block, computes one
   value and stores it over the whole output block. Stated at a parameter `V`, the TensorCore's buffer contents when the
   region is entered: each window's block at a grid point, the output block as a function of the input blocks, the body's
   triple, the pipeline's proof data and the body obligation the launch theorems ask for. -/
import proofs.«156777_j82712480186688_2_alg».proof.Proof.KernelLaunch
import proofs.«156777_j82712480186688_2_alg».proof.Proof.Gen.Kernel.Skeleton
import proofs.«156777_j82712480186688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, so the buffer still holds the block. For any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved, so the buffer still holds the block. For any proof data whose array is `V`'s
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved, so the buffer still holds the block. For any proof data whose array is `V`'s
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved, so the buffer still holds the block. For any proof data whose array is `V`'s
    and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer's whole rectangle -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in the output window's buffer -/

/-- Window 4's staging buffer after the body, from the input windows' blocks: its one store, of the whole block. -/
def out1_4 (x0 : Vec F S5000x128 .f32) (x1 : Vec F S5000x1 .f32) (x2 : Vec F S1x128 .f32) (x3 : Vec F S128x128 .f32) : Vec F S5000x128 .f32 :=
  View.canon [⟨r1_0, k1_pay1 (View.ld x1 r1_1) (View.ld x0 r1_0) (View.ld x2 r1_2) (View.ld x3 r1_3) (View.ld x1 r1_1)⟩]

/-- The one store covers the buffer. -/
theorem cover1_4 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to the
    continuation holding the inputs' as they were and the output's at `out1_4` of the inputs'. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fused_bias_relu_linear_dis_kernel i arg1 harg1 arg2 harg2 arg3 harg3 arg4 harg4 arg5 harg5) K := by
  simp only [cc1__fused_bias_relu_linear_dis_kernel_eq_skeleton]; unfold cc1__fused_bias_relu_linear_dis_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's owed counts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch theorems, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KernelRegion2.lean ====
/- Region 2 of @main, the third linear layer: scale, add the bias row, clamp at zero, times the weights, scale again. The kernel body loads each input window's whole block, computes one
   value and stores it over the whole output block. Stated at a parameter `V`, the TensorCore's buffer contents when the
   region is entered: each window's block at a grid point, the output block as a function of the input blocks, the body's
   triple, the pipeline's proof data and the body obligation the launch theorems ask for. -/
import proofs.«156777_j82712480186688_2_alg».proof.Proof.KernelLaunch
import proofs.«156777_j82712480186688_2_alg».proof.Proof.Gen.Kernel.Skeleton
import proofs.«156777_j82712480186688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved, so the buffer still holds the block. For any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not: where it is not
    fetched its block index has not moved, so the buffer still holds the block. For any proof data whose array is `V`'s
    and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not: where it is not
    fetched its block index has not moved, so the buffer still holds the block. For any proof data whose array is `V`'s
    and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not: where it is not
    fetched its block index has not moved, so the buffer still holds the block. For any proof data whose array is `V`'s
    and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer's whole rectangle -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S1x128 := Rect.unit (s := S1x128) ![0, 0] S1x128.size inb_S1x128_S1x128_0_0
abbrev r2_3 : Rect S128x64 := Rect.unit (s := S128x64) ![0, 0] S128x64.size inb_S128x64_S128x64_0_0
abbrev r2_4 : Rect S5000x64 := Rect.unit (s := S5000x64) ![0, 0] S5000x64.size inb_S5000x64_S5000x64_0_0

/-! ## What the body leaves in the output window's buffer -/

/-- Window 4's staging buffer after the body, from the input windows' blocks: its one store, of the whole block. -/
def out2_4 (x0 : Vec F S5000x128 .f32) (x1 : Vec F S5000x1 .f32) (x2 : Vec F S1x128 .f32) (x3 : Vec F S128x64 .f32) : Vec F S5000x64 .f32 :=
  View.canon [⟨r2_4, k2_pay1 (View.ld x1 r2_1) (View.ld x0 r2_0) (View.ld x2 r2_2) (View.ld x3 r2_3) (View.ld x1 r2_1)⟩]

/-- The one store covers the buffer. -/
theorem cover2_4 (p0 : Vec F S5000x64 .f32) (y : S5000x64.Idx) :
    ∃ pc ∈ ([⟨r2_4, p0⟩] : List (View.Piece (Elt F) S5000x64 .f32)), y ∈ pc.1.set :=
  View.cover_of_tiled [⟨r2_4, p0⟩] S5000x64.size (by rfl) y

/-! ## The body's triple -/

set_option maxHeartbeats 1000000 in
/-- The kernel body on whole staging memrefs, the inputs' at read contents `xW` and the output's at anything, runs to the
    continuation holding the inputs' as they were and the output's at `out2_4` of the inputs'. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole)
    (x0 : Vec F S5000x128 .f32) (x1 : Vec F S5000x1 .f32) (x2 : Vec F S1x128 .f32) (x3 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__fused_bias_relu_linear_dis_kernel i arg1 harg1 arg2 harg2 arg3 harg3 arg4 harg4 arg5 harg5) K := by
  simp only [cc2__fused_bias_relu_linear_dis_kernel_eq_skeleton]; unfold cc2__fused_bias_relu_linear_dis_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at point `t`
    each input's buffer at its block and the output's at `out2_4` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's owed counts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch theorems, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KernelRunBounds.lean ====
/- The buffer contents at every boundary of @main's segments up to region 3's entry: the launch memory, then each host
   stretch's fold and each region's write-backs in turn; what each segment leaves unchanged; and every argument array
   read back through the fold to its launch contents. -/
import proofs.«156777_j82712480186688_2_alg».proof.Proof.KernelRegion0
import proofs.«156777_j82712480186688_2_alg».proof.Proof.KernelRegion1
import proofs.«156777_j82712480186688_2_alg».proof.Proof.KernelRegion2

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The buffer contents at each boundary of @main's eight segments: a fold from the launch memory

A host stretch rewrites the buffers its operations write (`StableHlo.after`); a region leaves each of its windows'
arrays at what its write-backs leave (`Dat.arrAt … N`: an input's array as entered, the output's folded) and every
other buffer as entered (`Pipeline.withArrays`). -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After the host stretch `hostOps0`: region 0's entry. -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Region 0 changes its output's array `main_v15` and nothing else. -/
theorem W2_of_ne_out (c : Dev nD) (b : Ref sig .tc) (hb : b ≠ main_v15) :
    W2 m ρ c (Proc.devRef .tc b) = W1 m ρ c (Proc.devRef .tc b) := by
  by_cases h : ∃ w, Pipeline.arrRef spec0 w = b
  · obtain ⟨w, rfl⟩ := h
    exact W2_in m ρ c w ((show ∀ w : Fin cfg0.W, Pipeline.arrRef spec0 w ≠ main_v15 → (cfg0.win w).isOut = false from by decide) w hb)
  · exact W2_of_ne m ρ c b fun w e => h ⟨w, e⟩
/-- The output's array at region 0's exit: its write-backs folded. -/
theorem W2_main_v15 (c : Dev nD) : W2 m ρ c (Proc.devRef .tc main_v15) = (dat0 (V1 m ρ) c).arrAt 3 cfg0.N :=
  W2_arr m ρ c 3
/-- The same read at the TensorCore's references: region 0's exit contents. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: region 1's entry. -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- Region 1 changes its output's array `main_v27` and nothing else. -/
theorem W4_of_ne_out (c : Dev nD) (b : Ref sig .tc) (hb : b ≠ main_v27) :
    W4 m ρ c (Proc.devRef .tc b) = W3 m ρ c (Proc.devRef .tc b) := by
  by_cases h : ∃ w, Pipeline.arrRef spec1 w = b
  · obtain ⟨w, rfl⟩ := h
    exact W4_in m ρ c w ((show ∀ w : Fin cfg1.W, Pipeline.arrRef spec1 w ≠ main_v27 → (cfg1.win w).isOut = false from by decide) w hb)
  · exact W4_of_ne m ρ c b fun w e => h ⟨w, e⟩
/-- The output's array at region 1's exit: its write-backs folded. -/
theorem W4_main_v27 (c : Dev nD) : W4 m ρ c (Proc.devRef .tc main_v27) = (dat1 (V3 m ρ) c).arrAt 4 cfg1.N :=
  W4_arr m ρ c 4
/-- The same read at the TensorCore's references: region 1's exit contents. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: region 2's entry. -/
abbrev W5 : Dev nD → Valuation τ sig (Elt F) := fun c => StableHlo.after hostOps2 (W4 m ρ c)
/-- The same read at the TensorCore's references: what region 2's proof data take. -/
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- Region 2 changes its output's array `main_v39` and nothing else. -/
theorem W6_of_ne_out (c : Dev nD) (b : Ref sig .tc) (hb : b ≠ main_v39) :
    W6 m ρ c (Proc.devRef .tc b) = W5 m ρ c (Proc.devRef .tc b) := by
  by_cases h : ∃ w, Pipeline.arrRef spec2 w = b
  · obtain ⟨w, rfl⟩ := h
    exact W6_in m ρ c w ((show ∀ w : Fin cfg2.W, Pipeline.arrRef spec2 w ≠ main_v39 → (cfg2.win w).isOut = false from by decide) w hb)
  · exact W6_of_ne m ρ c b fun w e => h ⟨w, e⟩
/-- The output's array at region 2's exit: its write-backs folded. -/
theorem W6_main_v39 (c : Dev nD) : W6 m ρ c (Proc.devRef .tc main_v39) = (dat2 (V5 m ρ) c).arrAt 4 cfg2.N :=
  W6_arr m ρ c 4
/-- The same read at the TensorCore's references: region 2's exit contents. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: region 3's entry. -/
abbrev W7 : Dev nD → Valuation τ sig (Elt F) := fun c => StableHlo.after hostOps3 (W6 m ρ c)
/-- The same read at the TensorCore's references: what region 3's proof data take. -/
abbrev V7 : (c : Dev nD) → (b : Ref sig .tc) → Buf (Elt F) ((c : Thread nD τ).loc b) := fun c b => W7 m ρ c b

/-! ## What each host stretch writes, and that it leaves every other buffer alone -/

/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_v14]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps0` does not write holds after the stretch what it held before. -/
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
/-- No operation of `hostOps0` allocates a buffer. -/
theorem hostOps0_fresh : (hostOps0 : List (HloOp τ sig (Elt F))).Forall fun op => op.fresh = ∅ := by
  simp only [List.Forall]; repeat' constructor

/-- The references `hostOps1`'s operations write. -/
abbrev hostOps1_W : List (Ref sig .tc) := [main_c, main_v16, main_v17, main_c_2, main_v18, main_v19, main_v20, main_v21, main_v22, main_cst_3, main_v23, main_v24, main_v25, main_v26]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps1` does not write holds after the stretch what it held before. -/
theorem W3_of (c : Dev nD) (b : Ref sig .tc) (h : b ∉ hostOps1_W) :
    W3 m ρ c (Proc.devRef .tc b) = W2 m ρ c (Proc.devRef .tc b) :=
  StableHlo.after_of_writes_sub hostOps1 _ hostOps1_writes h
/-- No operation of `hostOps1` allocates a buffer. -/
theorem hostOps1_fresh : (hostOps1 : List (HloOp τ sig (Elt F))).Forall fun op => op.fresh = ∅ := by
  simp only [List.Forall]; repeat' constructor

/-- The references `hostOps2`'s operations write. -/
abbrev hostOps2_W : List (Ref sig .tc) := [main_c_4, main_v28, main_v29, main_c_5, main_v30, main_v31, main_v32, main_v33, main_v34, main_cst_6, main_v35, main_v36, main_v37, main_v38]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps2` does not write holds after the stretch what it held before. -/
theorem W5_of (c : Dev nD) (b : Ref sig .tc) (h : b ∉ hostOps2_W) :
    W5 m ρ c (Proc.devRef .tc b) = W4 m ρ c (Proc.devRef .tc b) :=
  StableHlo.after_of_writes_sub hostOps2 _ hostOps2_writes h
/-- No operation of `hostOps2` allocates a buffer. -/
theorem hostOps2_fresh : (hostOps2 : List (HloOp τ sig (Elt F))).Forall fun op => op.fresh = ∅ := by
  simp only [List.Forall]; repeat' constructor

/-- The references `hostOps3`'s operations write. -/
abbrev hostOps3_W : List (Ref sig .tc) := [main_c_7, main_v40, main_v41, main_c_8, main_v42, main_v43, main_v44, main_v45, main_v46, main_cst_9, main_v47, main_v48, main_v49, main_v50, main_v51, main_v52]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps3` does not write holds after the stretch what it held before. -/
theorem W7_of (c : Dev nD) (b : Ref sig .tc) (h : b ∉ hostOps3_W) :
    W7 m ρ c (Proc.devRef .tc b) = W6 m ρ c (Proc.devRef .tc b) :=
  StableHlo.after_of_writes_sub hostOps3 _ hostOps3_writes h
/-- No operation of `hostOps3` allocates a buffer. -/
theorem hostOps3_fresh : (hostOps3 : List (HloOp τ sig (Elt F))).Forall fun op => op.fresh = ∅ := by
  simp only [List.Forall]; repeat' constructor

/-! ## The arguments reach region 3's entry as launched: no host stretch writes one, no region changes one -/

theorem W7_main_arg0 (c : Dev nD) : W7 m ρ c (Proc.devRef .tc main_arg0) = m ((c : Thread nD τ).loc main_arg0) :=
  (W7_of m ρ c main_arg0 (by decide)).trans <| (W6_of_ne_out m ρ c main_arg0 (by decide)).trans <| (W5_of m ρ c main_arg0 (by decide)).trans <|
    (W4_of_ne_out m ρ c main_arg0 (by decide)).trans <| (W3_of m ρ c main_arg0 (by decide)).trans <| (W2_of_ne_out m ρ c main_arg0 (by decide)).trans <|
    (W1_of m ρ c main_arg0 (by decide)).trans rfl
theorem W7_main_arg1 (c : Dev nD) : W7 m ρ c (Proc.devRef .tc main_arg1) = m ((c : Thread nD τ).loc main_arg1) :=
  (W7_of m ρ c main_arg1 (by decide)).trans <| (W6_of_ne_out m ρ c main_arg1 (by decide)).trans <| (W5_of m ρ c main_arg1 (by decide)).trans <|
    (W4_of_ne_out m ρ c main_arg1 (by decide)).trans <| (W3_of m ρ c main_arg1 (by decide)).trans <| (W2_of_ne_out m ρ c main_arg1 (by decide)).trans <|
    (W1_of m ρ c main_arg1 (by decide)).trans rfl
theorem W7_main_arg2 (c : Dev nD) : W7 m ρ c (Proc.devRef .tc main_arg2) = m ((c : Thread nD τ).loc main_arg2) :=
  (W7_of m ρ c main_arg2 (by decide)).trans <| (W6_of_ne_out m ρ c main_arg2 (by decide)).trans <| (W5_of m ρ c main_arg2 (by decide)).trans <|
    (W4_of_ne_out m ρ c main_arg2 (by decide)).trans <| (W3_of m ρ c main_arg2 (by decide)).trans <| (W2_of_ne_out m ρ c main_arg2 (by decide)).trans <|
    (W1_of m ρ c main_arg2 (by decide)).trans rfl
theorem W7_main_arg3 (c : Dev nD) : W7 m ρ c (Proc.devRef .tc main_arg3) = m ((c : Thread nD τ).loc main_arg3) :=
  (W7_of m ρ c main_arg3 (by decide)).trans <| (W6_of_ne_out m ρ c main_arg3 (by decide)).trans <| (W5_of m ρ c main_arg3 (by decide)).trans <|
    (W4_of_ne_out m ρ c main_arg3 (by decide)).trans <| (W3_of m ρ c main_arg3 (by decide)).trans <| (W2_of_ne_out m ρ c main_arg3 (by decide)).trans <|
    (W1_of m ρ c main_arg3 (by decide)).trans rfl
theorem W7_main_arg4 (c : Dev nD) : W7 m ρ c (Proc.devRef .tc main_arg4) = m ((c : Thread nD τ).loc main_arg4) :=
  (W7_of m ρ c main_arg4 (by decide)).trans <| (W6_of_ne_out m ρ c main_arg4 (by decide)).trans <| (W5_of m ρ c main_arg4 (by decide)).trans <|
    (W4_of_ne_out m ρ c main_arg4 (by decide)).trans <| (W3_of m ρ c main_arg4 (by decide)).trans <| (W2_of_ne_out m ρ c main_arg4 (by decide)).trans <|
    (W1_of m ρ c main_arg4 (by decide)).trans rfl
theorem W7_main_arg5 (c : Dev nD) : W7 m ρ c (Proc.devRef .tc main_arg5) = m ((c : Thread nD τ).loc main_arg5) :=
  (W7_of m ρ c main_arg5 (by decide)).trans <| (W6_of_ne_out m ρ c main_arg5 (by decide)).trans <| (W5_of m ρ c main_arg5 (by decide)).trans <|
    (W4_of_ne_out m ρ c main_arg5 (by decide)).trans <| (W3_of m ρ c main_arg5 (by decide)).trans <| (W2_of_ne_out m ρ c main_arg5 (by decide)).trans <|
    (W1_of m ρ c main_arg5 (by decide)).trans rfl
theorem W7_main_arg6 (c : Dev nD) : W7 m ρ c (Proc.devRef .tc main_arg6) = m ((c : Thread nD τ).loc main_arg6) :=
  (W7_of m ρ c main_arg6 (by decide)).trans <| (W6_of_ne_out m ρ c main_arg6 (by decide)).trans <| (W5_of m ρ c main_arg6 (by decide)).trans <|
    (W4_of_ne_out m ρ c main_arg6 (by decide)).trans <| (W3_of m ρ c main_arg6 (by decide)).trans <| (W2_of_ne_out m ρ c main_arg6 (by decide)).trans <|
    (W1_of m ρ c main_arg6 (by decide)).trans rfl
theorem W7_main_arg7 (c : Dev nD) : W7 m ρ c (Proc.devRef .tc main_arg7) = m ((c : Thread nD τ).loc main_arg7) :=
  (W7_of m ρ c main_arg7 (by decide)).trans <| (W6_of_ne_out m ρ c main_arg7 (by decide)).trans <| (W5_of m ρ c main_arg7 (by decide)).trans <|
    (W4_of_ne_out m ρ c main_arg7 (by decide)).trans <| (W3_of m ρ c main_arg7 (by decide)).trans <| (W2_of_ne_out m ρ c main_arg7 (by decide)).trans <|
    (W1_of m ρ c main_arg7 (by decide)).trans rfl
theorem W7_main_arg8 (c : Dev nD) : W7 m ρ c (Proc.devRef .tc main_arg8) = m ((c : Thread nD τ).loc main_arg8) :=
  (W7_of m ρ c main_arg8 (by decide)).trans <| (W6_of_ne_out m ρ c main_arg8 (by decide)).trans <| (W5_of m ρ c main_arg8 (by decide)).trans <|
    (W4_of_ne_out m ρ c main_arg8 (by decide)).trans <| (W3_of m ρ c main_arg8 (by decide)).trans <| (W2_of_ne_out m ρ c main_arg8 (by decide)).trans <|
    (W1_of m ρ c main_arg8 (by decide)).trans rfl
theorem W7_main_arg9 (c : Dev nD) : W7 m ρ c (Proc.devRef .tc main_arg9) = m ((c : Thread nD τ).loc main_arg9) :=
  (W7_of m ρ c main_arg9 (by decide)).trans <| (W6_of_ne_out m ρ c main_arg9 (by decide)).trans <| (W5_of m ρ c main_arg9 (by decide)).trans <|
    (W4_of_ne_out m ρ c main_arg9 (by decide)).trans <| (W3_of m ρ c main_arg9 (by decide)).trans <| (W2_of_ne_out m ρ c main_arg9 (by decide)).trans <|
    (W1_of m ρ c main_arg9 (by decide)).trans rfl
theorem W7_main_arg10 (c : Dev nD) : W7 m ρ c (Proc.devRef .tc main_arg10) = m ((c : Thread nD τ).loc main_arg10) :=
  (W7_of m ρ c main_arg10 (by decide)).trans <| (W6_of_ne_out m ρ c main_arg10 (by decide)).trans <| (W5_of m ρ c main_arg10 (by decide)).trans <|
    (W4_of_ne_out m ρ c main_arg10 (by decide)).trans <| (W3_of m ρ c main_arg10 (by decide)).trans <| (W2_of_ne_out m ρ c main_arg10 (by decide)).trans <|
    (W1_of m ρ c main_arg10 (by decide)).trans rfl
theorem W7_main_arg11 (c : Dev nD) : W7 m ρ c (Proc.devRef .tc main_arg11) = m ((c : Thread nD τ).loc main_arg11) :=
  (W7_of m ρ c main_arg11 (by decide)).trans <| (W6_of_ne_out m ρ c main_arg11 (by decide)).trans <| (W5_of m ρ c main_arg11 (by decide)).trans <|
    (W4_of_ne_out m ρ c main_arg11 (by decide)).trans <| (W3_of m ρ c main_arg11 (by decide)).trans <| (W2_of_ne_out m ρ c main_arg11 (by decide)).trans <|
    (W1_of m ρ c main_arg11 (by decide)).trans rfl

end Cert.Kernel.Hand

end
-- ==== Proof.KernelRegion3Runs.lean ====
import proofs.«156777_j82712480186688_2_alg».proof.Proof.KernelLaunch
import proofs.«156777_j82712480186688_2_alg».proof.Proof.Gen.Kernel.Skeleton
import proofs.«156777_j82712480186688_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen Cert.Kernel.GenP

variable {F : FTy → Type} [FloatOps F]

local notation "𝕄" => MT nD τ sig Unit (Elt F) ℕ (UR sig nD τ) ℕ

/-! ## The body's two branch conditions, decided over the grid -/

/-- The condition of the body's first conditional: the grid coordinate is zero. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the body's second conditional: the grid coordinate is the last one. -/
abbrev cond3_1 (i : grid3.Coords) : Prop := k3_cond2 i = 1#1
/-- It holds at the last point only. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
/-- Away from the last point the output window is idle, -/
theorem idleAt3_7 : ∀ t : Fin cfg3.N, ¬cond3_1 (grid3.coords t) → cfg3.idle 7 (grid3.coords t) = true := by decide +kernel
/-- and its block is not written back there. -/
theorem noFlush3_7 : ∀ t : Fin cfg3.N, ¬cond3_1 (grid3.coords t) → (cfg3.win 7).flush t = false := by decide +kernel
/-- At the last point the output window is live. -/
theorem liveAt3_7 : ∀ t : Fin cfg3.N, cond3_1 (grid3.coords t) → cfg3.idle 7 (grid3.coords t) = false := by decide +kernel

/-! ## The staging memrefs and the scratch -/

abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x32 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x32 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S32x2 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x2 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x2 .f32 := win3_7.stage (cfg3.slots t 7)
abbrev hs3_7 (t : Fin cfg3.N) : (ms3_7 t).IsWhole := hstage3_7 ((cfg3.slots t 7).cast nbuf3_7)
/-- The scratch row the kernel carries from point to point. -/
abbrev scM3 : Memref sig .tc .vmem S1x64 .f32 := Memref.whole cc3_scratch0
abbrev VS3 : View sig .tc .vmem S1x64 .f32 := scM3.view
/-- One staging buffer of the output window, through which its contents are stated. -/
abbrev VO3_7 : View sig .tc .vmem S1x2 .f32 := (Memref.whole cc3_stg7_0 : Memref sig .tc .vmem S1x2 .f32).view

/-- The core's other scoped buffers (the other calls' staging buffers), at some contents each. -/
def rest3 (c : Dev nD) : sProp 𝕄 :=
  Pipeline.scopedRestBut (Ix := Unit) (Name := ℕ) (U := UR sig nD τ) (Lvl := ℕ) (Val := Elt F) spec3 c [cc3_scratch0]

/-- The region's invariant with the scratch row split off as a memref owned at some contents. -/
theorem PhiA3_eq (c : Dev nD) :
    (Pipeline.ΦA spec3 c : sProp 𝕄)
      = iprop(iprop((∃ d, owns (c : Thread nD τ) scM3 fullShare d) ∗ rest3 (F := F) c) ∗ (∃ r, prngReg c r)) := by
  unfold Pipeline.ΦA rest3
  rw [Pipeline.scopedRest_split_of_list spec3 c [cc3_scratch0] (by decide) (by decide)]
  simp only [scM3, owns_whole, Idealize.SL.BI.bigSepL_singleton]
  rfl

end Cert.Kernel.Hand

end
-- ==== Proof.KernelRegion3RunA.lean ====
import proofs.«156777_j82712480186688_2_alg».proof.Proof.KernelRegion3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen Cert.Kernel.GenP

variable {F : FTy → Type} [FloatOps F]

local notation "𝕄" => MT nD τ sig Unit (Elt F) ℕ (UR sig nD τ) ℕ

set_option maxHeartbeats 1000000 in
/-- The body at the first point (first conditional taken, second not): on whole staging memrefs, the inputs' at
    their contents, the output's at contents handed back untouched, the scratch at anything, the body runs to the
    continuation holding the inputs' as they were and the scratch with the pieces its two stores wrote. -/
noncomputable def kernelRun3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) :
    { LS0 : List (View.Piece (Elt F) S1x64 .f32) //
      ∀ (xi7 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, fun xi7 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.Kernel.Hand

end
-- ==== Proof.KernelRegion3RunB.lean ====
import proofs.«156777_j82712480186688_2_alg».proof.Proof.KernelRegion3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen Cert.Kernel.GenP

variable {F : FTy → Type} [FloatOps F]

local notation "𝕄" => MT nD τ sig Unit (Elt F) ℕ (UR sig nD τ) ℕ

set_option maxHeartbeats 1000000 in
/-- The body at a middle point (neither conditional taken): on whole staging memrefs, the inputs' at their
    contents, the output's at contents handed back untouched, the scratch at what the point before left, the body
    runs to the continuation holding the inputs' as they were and the scratch with the piece its store wrote. -/
noncomputable def kernelRun3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) :
    { LS0 : List (View.Piece (Elt F) S1x64 .f32) //
      ∀ (xi7 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, fun xi7 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.Kernel.Hand

end
-- ==== Proof.KernelRegion3RunC.lean ====
import proofs.«156777_j82712480186688_2_alg».proof.Proof.KernelRegion3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen Cert.Kernel.GenP

variable {F : FTy → Type} [FloatOps F]

local notation "𝕄" => MT nD τ sig Unit (Elt F) ℕ (UR sig nD τ) ℕ

set_option maxHeartbeats 1000000 in
/-- The body at the last point (first conditional not taken, second taken): on whole staging memrefs, the inputs'
    at their contents, the output's at anything, the scratch at what the point before left, the body runs to the
    continuation holding the inputs' as they were, the scratch with the piece its store wrote and the output's
    buffer with the piece the closing store wrote. -/
noncomputable def kernelRun3_C (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) :
    Σ' (L7 : List (View.Piece (Elt F) S1x2 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.Kernel.Hand

end
-- ==== Proof.KernelRegion3.lean ====
import proofs.«156777_j82712480186688_2_alg».proof.Proof.KernelRegion3RunA
import proofs.«156777_j82712480186688_2_alg».proof.Proof.KernelRegion3RunB
import proofs.«156777_j82712480186688_2_alg».proof.Proof.KernelRegion3RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel Cert.Kernel.Gen Cert.Kernel.GenP

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: unfetched, the
    block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not: unfetched, the
    block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not: unfetched, the
    block index has not moved and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not: unfetched, the
    block index has not moved and the body left the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not: unfetched, the
    block index has not moved and the body left the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not: unfetched, the
    block index has not moved and the body left the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not: unfetched, the
    block index has not moved and the body left the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the scratch row and in the output block -/

/-- At the first point the two stores into the scratch row cover it. -/
theorem scover3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (y : S1x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5 x6).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5 x6).1 S1x64.size (by sl_kernel_rfl) y

/-- What the first point leaves in the scratch row: its pieces read back. -/
def sout3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) : Vec F S1x64 .f32 :=
  VS3.read (Elt F) (VS3.writes (Elt F) VS3.junk (kernelRun3_A c i arg1 harg1 arg2 harg2 arg3 harg3 arg4 harg4 arg5 harg5 arg6 harg6 arg7 harg7 arg8 harg8 arg9 harg9 hc0 hc1 x0 x1 x2 x3 x4 x5 x6).1)

/-- At a middle point the store into the scratch row covers it. -/
theorem scover3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) (y : S1x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 x6 xs0).1 S1x64.size (by sl_kernel_rfl) y

/-- What a middle point leaves in the scratch row, over what the point before left. -/
def sout3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) : Vec F S1x64 .f32 :=
  VS3.read (Elt F) (VS3.writes (Elt F) VS3.junk (kernelRun3_B c i arg1 harg1 arg2 harg2 arg3 harg3 arg4 harg4 arg5 harg5 arg6 harg6 arg7 harg7 arg8 harg8 arg9 harg9 hc0 hc1 x0 x1 x2 x3 x4 x5 x6 xs0).1)

/-- At the last point the store into the scratch row covers it, -/
theorem scover3_C (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) (y : S1x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 x6 xs0).2.1 S1x64.size (by sl_kernel_rfl) y

/-- and the closing store covers the output block. -/
theorem cover3_C_7 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) (y : S1x2.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 x6 xs0).1 S1x2.size (by sl_kernel_rfl) y

/-- What the last point leaves in the scratch row, over what the point before left. -/
def sout3_C (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) : Vec F S1x64 .f32 :=
  VS3.read (Elt F) (VS3.writes (Elt F) VS3.junk (kernelRun3_C c i arg1 harg1 arg2 harg2 arg3 harg3 arg4 harg4 arg5 harg5 arg6 harg6 arg7 harg7 arg8 harg8 arg9 harg9 hc0 hc1 x0 x1 x2 x3 x4 x5 x6 xs0).2.1)

/-- What the last point leaves in the output's staging buffer. -/
def out3_C_7 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) : Vec F S1x2 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 hc0 hc1 x0 x1 x2 x3 x4 x5 x6 xs0).1)

/-! ## The scratch row point by point -/

/-- THE ACCUMULATION: the scratch row after the body at position `n`. The first point's case at point 0; afterwards
    the last point's case at position 19 and the middle case elsewhere, each over what position `n - 1` left. -/
def acc3 (c : Dev nD) : (n : ℕ) → n < cfg3.N → Vec F S1x64 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩)
  | n + 1, hn =>
    if h1 : n + 1 = 19 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3 (Memref.isWhole_whole _) (fun h => (fun h => by (try dsimp only at h); omega) ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (acc3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3 (Memref.isWhole_whole _) (fun h => (fun h => by (try dsimp only at h); omega) ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (acc3 c n (Nat.lt_of_succ_lt hn))

/-- `acc3` at the first point. -/
theorem acc3_A (c : Dev nD) (t : Fin cfg3.N) (h0 : t.val = 0) (h1 : ¬t.val = 19) :
    acc3 V c t.val t.isLt = sout3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) := by
  obtain ⟨n, hn⟩ := t
  cases n with
  | zero => exact rfl
  | succ n => exact absurd h0 (Nat.succ_ne_zero n)

/-- `acc3` at a middle point: that case's contents, over what the point before left. -/
theorem acc3_B (c : Dev nD) (t : Fin cfg3.N) (h0 : ¬t.val = 0) (h1 : ¬t.val = 19) :
    acc3 V c t.val t.isLt = sout3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)) := by
  obtain ⟨n, hn⟩ := t
  cases n with
  | zero => exact absurd rfl h0
  | succ n => exact (dif_neg h1).trans rfl

/-- `acc3` at the last point: that case's contents, over what the point before left. -/
theorem acc3_C (c : Dev nD) (t : Fin cfg3.N) (h0 : ¬t.val = 0) (h1 : t.val = 19) :
    acc3 V c t.val t.isLt = sout3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)) := by
  obtain ⟨n, hn⟩ := t
  cases n with
  | zero => exact absurd rfl h0
  | succ n => exact (dif_pos h1).trans rfl

/-- The grid's last point. -/
abbrev t19 : Fin cfg3.N := ⟨19, by decide⟩

/-- What the last point stores in the output block: the closing case run at the last point's blocks over the scratch
    row as position 18 left it. -/
def out3_7 (c : Dev nD) : Vec F S1x2 .f32 :=
  out3_C_7 c (grid3.coords t19) (ms3_0 t19) (hs3_0 t19) (ms3_1 t19) (hs3_1 t19) (ms3_2 t19) (hs3_2 t19) (ms3_3 t19) (hs3_3 t19) (ms3_4 t19) (hs3_4 t19) (ms3_5 t19) (hs3_5 t19) (ms3_6 t19) (hs3_6 t19) (ms3_7 t19) (hs3_7 t19) scM3 (Memref.isWhole_whole _) (fun h => absurd ((hcond3_0 t19).mp h) (by decide)) ((hcond3_1 t19).mpr rfl) (iblk3 V c 0 t19) (iblk3 V c 1 t19) (iblk3 V c 2 t19) (iblk3 V c 3 t19) (iblk3 V c 4 t19) (iblk3 V c 5 t19) (iblk3 V c 6 t19) (acc3 V c 18 (by decide))

/-! ## The invariant and the proof data -/

/-- The region invariant before position `n`: before the first point the class's; afterwards the scratch row at
    what the point before left in it, the core's other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ rest3 (F := F) c) ∗ (∃ r, prngReg c r)) := by
  cases n with
  | zero => exact absurd rfl hz
  | succ n => rfl

/-- The proof data of the region on core `c`: the arrays as the region finds them; after the body each input's buffer
    at its block and the output's at what the last point stores; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 V c := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  by_cases h0 : t.val = 0
  · have h1 : ¬t.val = 19 := by omega
    rw [Dat.leavesExact_idle (dat3 V c) 7 t (idleAt3_7 t (fun h => h1 ((hcond3_1 t).mp h))) (noFlush3_7 t (fun h => h1 ((hcond3_1 t).mp h)))]
    rw [acc3_A V c t h0 h1]
    unfold sout3_A; (try dsimp only)
    rw [PhiS3_castSucc V c t, PhiS3_zero V c _ _ h0, PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A c _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val = 19
    · rw [show (dat3 V c).leavesExact 7 t = owns (c : Thread nD τ) (ms3_7 t) fullShare ((dat3 V c).after 7 t) from by
        unfold Dat.leavesExact; rw [liveAt3_7 t ((hcond3_1 t).mpr h1)], after3_7]
      rw [acc3_C V c t h0 h1]
      obtain rfl : t = t19 := Fin.ext h1
      unfold out3_7 out3_C_7 sout3_C; (try dsimp only)
      rw [PhiS3_castSucc V c t19, PhiS3_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_C c (grid3.coords t19) _ _ _ _ _ _ _ _ _ _ _ _ _ _ _ _ _ _ (fun h => h0 ((hcond3_0 t19).mp h)) ((hcond3_1 t19).mpr h1) (iblk3 V c 0 t19) (iblk3 V c 1 t19) (iblk3 V c 2 t19) (iblk3 V c 3 t19) (iblk3 V c 4 t19) (iblk3 V c 5 t19) (iblk3 V c 6 t19) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover3_C_7 c _ _ _ _ _ _ _ _ _ _ _ _ _ _ _ _ _ _ _ _ _ _ _ _ _ _ _ _ _)
    · rw [Dat.leavesExact_idle (dat3 V c) 7 t (idleAt3_7 t (fun h => h1 ((hcond3_1 t).mp h))) (noFlush3_7 t (fun h => h1 ((hcond3_1 t).mp h)))]
      rw [acc3_B V c t h0 h1]
      unfold sout3_B; (try dsimp only)
      rw [PhiS3_castSucc V c t, PhiS3_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The exact body obligation, at every point. -/
theorem body_obligation3_exact (c : Dev nD) : BodyObligation (dat3 (F := F) V c) (defs₀ (F := F)) Variants.none () Set.univ := fun t => by
  rw [bigSep_W3, bigSep_W3]
  exact sound_body3 V c t

/-- The body obligation as the region's loop takes it. -/
theorem body_obligation3 (c : Dev nD) : BodyObligationLoose (dat3 (F := F) V c) (defs₀ (F := F)) Variants.none () Set.univ :=
  (body_obligation3_exact V c).loose

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch row's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Cert.Kernel.Hand

end
-- ==== Proof.KernelRunBounds3.lean ====
/- The buffer contents when @main returns: region 3's write-backs over its entry contents; what the region leaves
   unchanged; every argument array read back through the whole fold to its launch contents. -/
import proofs.«156777_j82712480186688_2_alg».proof.Proof.KernelRunBounds
import proofs.«156777_j82712480186688_2_alg».proof.Proof.KernelRegion3

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At region 3's exit: each of its windows' arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves region 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- Region 3 changes its output's array `main_v53` and nothing else. -/
theorem W8_of_ne_out (c : Dev nD) (b : Ref sig .tc) (hb : b ≠ main_v53) :
    W8 m ρ c (Proc.devRef .tc b) = W7 m ρ c (Proc.devRef .tc b) := by
  by_cases h : ∃ w, Pipeline.arrRef spec3 w = b
  · obtain ⟨w, rfl⟩ := h
    exact W8_in m ρ c w ((show ∀ w : Fin cfg3.W, Pipeline.arrRef spec3 w ≠ main_v53 → (cfg3.win w).isOut = false from by decide) w hb)
  · exact W8_of_ne m ρ c b fun w e => h ⟨w, e⟩
/-- The output's array at region 3's exit: its write-backs folded. -/
theorem W8_main_v53 (c : Dev nD) : W8 m ρ c (Proc.devRef .tc main_v53) = (dat3 (V7 m ρ) c).arrAt 7 cfg3.N :=
  W8_arr m ρ c 7
/-- The same read at the TensorCore's references: region 3's exit contents. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched -/

theorem W8_main_arg0 (c : Dev nD) : W8 m ρ c (Proc.devRef .tc main_arg0) = m ((c : Thread nD τ).loc main_arg0) :=
  (W8_of_ne_out m ρ c main_arg0 (by decide)).trans (W7_main_arg0 m ρ c)
theorem W8_main_arg1 (c : Dev nD) : W8 m ρ c (Proc.devRef .tc main_arg1) = m ((c : Thread nD τ).loc main_arg1) :=
  (W8_of_ne_out m ρ c main_arg1 (by decide)).trans (W7_main_arg1 m ρ c)
theorem W8_main_arg2 (c : Dev nD) : W8 m ρ c (Proc.devRef .tc main_arg2) = m ((c : Thread nD τ).loc main_arg2) :=
  (W8_of_ne_out m ρ c main_arg2 (by decide)).trans (W7_main_arg2 m ρ c)
theorem W8_main_arg3 (c : Dev nD) : W8 m ρ c (Proc.devRef .tc main_arg3) = m ((c : Thread nD τ).loc main_arg3) :=
  (W8_of_ne_out m ρ c main_arg3 (by decide)).trans (W7_main_arg3 m ρ c)
theorem W8_main_arg4 (c : Dev nD) : W8 m ρ c (Proc.devRef .tc main_arg4) = m ((c : Thread nD τ).loc main_arg4) :=
  (W8_of_ne_out m ρ c main_arg4 (by decide)).trans (W7_main_arg4 m ρ c)
theorem W8_main_arg5 (c : Dev nD) : W8 m ρ c (Proc.devRef .tc main_arg5) = m ((c : Thread nD τ).loc main_arg5) :=
  (W8_of_ne_out m ρ c main_arg5 (by decide)).trans (W7_main_arg5 m ρ c)
theorem W8_main_arg6 (c : Dev nD) : W8 m ρ c (Proc.devRef .tc main_arg6) = m ((c : Thread nD τ).loc main_arg6) :=
  (W8_of_ne_out m ρ c main_arg6 (by decide)).trans (W7_main_arg6 m ρ c)
theorem W8_main_arg7 (c : Dev nD) : W8 m ρ c (Proc.devRef .tc main_arg7) = m ((c : Thread nD τ).loc main_arg7) :=
  (W8_of_ne_out m ρ c main_arg7 (by decide)).trans (W7_main_arg7 m ρ c)
theorem W8_main_arg8 (c : Dev nD) : W8 m ρ c (Proc.devRef .tc main_arg8) = m ((c : Thread nD τ).loc main_arg8) :=
  (W8_of_ne_out m ρ c main_arg8 (by decide)).trans (W7_main_arg8 m ρ c)
theorem W8_main_arg9 (c : Dev nD) : W8 m ρ c (Proc.devRef .tc main_arg9) = m ((c : Thread nD τ).loc main_arg9) :=
  (W8_of_ne_out m ρ c main_arg9 (by decide)).trans (W7_main_arg9 m ρ c)
theorem W8_main_arg10 (c : Dev nD) : W8 m ρ c (Proc.devRef .tc main_arg10) = m ((c : Thread nD τ).loc main_arg10) :=
  (W8_of_ne_out m ρ c main_arg10 (by decide)).trans (W7_main_arg10 m ρ c)
theorem W8_main_arg11 (c : Dev nD) : W8 m ρ c (Proc.devRef .tc main_arg11) = m ((c : Thread nD τ).loc main_arg11) :=
  (W8_of_ne_out m ρ c main_arg11 (by decide)).trans (W7_main_arg11 m ρ c)

end Cert.Kernel.Hand

end
-- ==== Proof.KernelRun.lean ====
/- THE RUN of @main: its eight segments — a host stretch, then a kernel region, four times over — assembled over the
   library's launch theorem for a program of several regions. Each region is a segment record over the thread state
   "every unscoped buffer at the boundary's contents, the generator register at some state, nothing owed"; the first
   three regions carry the class invariant, the last its own (a scratch carried across grid points), reached from and
   returned to the class invariant. The run ends with every unscoped buffer at the last boundary's contents, whence the
   frame: every argument array ends as launched. -/
import proofs.«156777_j82712480186688_2_alg».proof.Proof.KernelRunBounds3

set_option maxRecDepth 16384

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents: a literal match, so that the pinned configuration
    at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
/-- No core owes another anything: no level is assigned. -/
abbrev noLvl : GSem nD τ sig → Finset Unit := fun _ => ∅
abbrev lvl0 : GSem nD τ sig → Unit → ℕ := fun _ _ => 0
/-- What rides beside the buffers through every segment: the core's generator register at some state and its
    `owes`, at nothing. -/
abbrev Rside (c : Dev nD) : sProp 𝕄 := iprop((∃ r, prngReg c r) ∗ ∃ W, owes (c : Thread nD τ) (0 : CellTallies nD τ sig Unit) W)
/-- A host stretch as a segment over the unscoped references from the contents `W`, `Rside` riding along: it leaves
    those references at `StableHlo.after ops (W c)`, the next boundary's contents by name. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLvl lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tlast (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its windows' arrays
    are split out of the unscoped buffers and put back at the exit contents; the generator register goes into the
    region's invariant and comes out; nothing is owed; the kernel has no semaphore of its own. -/
def reg0 : Pipeline.RegionSeg (pcfgs (F := F)) adm (pdats m ρ) () defs₀ Variants.none noLvl lvl0 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noLvl lvl0 0 fun _ _ => rfl
  pre c := iprop(StableHlo.held (c : Thread nD τ) (Pipeline.ucRefs τ sig) (W1 m ρ c) ∗ Rside c)
  post c := iprop(StableHlo.held (c : Thread nD τ) (Pipeline.ucRefs τ sig) (W2 m ρ c) ∗ Rside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. Its windows' arrays
    are split out of the unscoped buffers and put back at the exit contents; the generator register goes into the
    region's invariant and comes out; nothing is owed; the kernel has no semaphore of its own. -/
def reg1 : Pipeline.RegionSeg (pcfgs (F := F)) adm (pdats m ρ) () defs₀ Variants.none noLvl lvl0 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noLvl lvl0 1 fun _ _ => rfl
  pre c := iprop(StableHlo.held (c : Thread nD τ) (Pipeline.ucRefs τ sig) (W3 m ρ c) ∗ Rside c)
  post c := iprop(StableHlo.held (c : Thread nD τ) (Pipeline.ucRefs τ sig) (W4 m ρ c) ∗ Rside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. Its windows' arrays
    are split out of the unscoped buffers and put back at the exit contents; the generator register goes into the
    region's invariant and comes out; nothing is owed; the kernel has no semaphore of its own. -/
def reg2 : Pipeline.RegionSeg (pcfgs (F := F)) adm (pdats m ρ) () defs₀ Variants.none noLvl lvl0 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ noLvl lvl0 2 fun _ _ => rfl
  pre c := iprop(StableHlo.held (c : Thread nD τ) (Pipeline.ucRefs τ sig) (W5 m ρ c) ∗ Rside c)
  post c := iprop(StableHlo.held (c : Thread nD τ) (Pipeline.ucRefs τ sig) (W6 m ρ c) ∗ Rside c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. Its windows' arrays
    are split out of the unscoped buffers and put back at the exit contents; the generator register goes into the
    region's invariant and comes out; nothing is owed; the kernel has no semaphore of its own. -/
def reg3 : Pipeline.RegionSeg (pcfgs (F := F)) adm (pdats m ρ) () defs₀ Variants.none noLvl lvl0 3 where
  win := launch3.win.to₀
  block_pos := launch3.block_pos
  stage_whole := launch3.stage_whole
  K := PEmpty
  osem k := k.elim
  ho := Pipeline.OwnSemFacts.none _
  hbody c := body_obligation3 (V7 m ρ) c
  hwaits := Pipeline.hwaits_of_owed_zero _ _ _ _ noLvl lvl0 3 fun _ _ => rfl
  pre c := iprop(StableHlo.held (c : Thread nD τ) (Pipeline.ucRefs τ sig) (W7 m ρ c) ∗ Rside c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    refine BIBase.Entails.trans ?_ (hin3 (V7 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V7 m ρ) c).Φ (Fin.last cfg3.N) from rfl]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per kernel call. -/
abbrev segs : List (Pipeline.Seg (pcfgs (F := F)) adm (pdats m ρ) () defs₀ Variants.none noLvl lvl0) :=
  [ .host (hostSeg hostOps0 hostOps0_sub hostOps0_fresh (W0 m ρ)),
    .region (reg0 m ρ),
    .host (hostSeg hostOps1 hostOps1_sub hostOps1_fresh (W2 m ρ)),
    .region (reg1 m ρ),
    .host (hostSeg hostOps2 hostOps2_sub hostOps2_fresh (W4 m ρ)),
    .region (reg2 m ρ),
    .host (hostSeg hostOps3 hostOps3_sub hostOps3_fresh (W6 m ρ)),
    .region (reg3 m ρ) ]
/-- @main IS the run of the segments. -/
theorem main_run (c : Dev nD) : main (F := F) c = Pipeline.Seg.run (segs m ρ) :=
  main_segs adm (pdats m ρ) () Variants.none noLvl lvl0 _ _ _ _ (reg0 m ρ) (reg1 m ρ) (reg2 m ρ) (reg3 m ρ) rfl rfl rfl rfl c

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and every final state holds each unscoped buffer at the last boundary's contents `W8`. -/
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ Variants.none noLvl lvl0 m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rside c)) (Tₙ := Tlast m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noLvl lvl0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- THE FRAME at any `F`: every weakly fair execution of @main terminates, nothing faulting, and every final state has
    the argument arrays as launched: each argument's buffer is unscoped, and the last boundary's contents at it walk
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c)⟩) (run m ρ)

end Cert.Kernel.Hand

end
-- ==== Proof.KernelIdealRegion0.lean ====
/- Region 0 of @main, the first linear layer: the row block times the weights, scaled row by row by the degree column. The kernel body loads each input window's whole block, computes one
   value and stores it over the whole output block. Stated at a parameter `V`, the TensorCore's buffer contents when the
   region is entered: each window's block at a grid point, the output block as a function of the input blocks, the body's
   triple, the pipeline's proof data and the body obligation the launch theorems ask for. -/
import proofs.«156777_j82712480186688_2_alg».proof.Proof.KernelIdealLaunch
import proofs.«156777_j82712480186688_2_alg».proof.Proof.Gen.KernelIdeal.Skeleton
import proofs.«156777_j82712480186688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it is not
    fetched its block index has not moved, so the buffer still holds the block. For any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: where it is not
    fetched its block index has not moved, so the buffer still holds the block. For any proof data whose array is `V`'s
    and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: where it is not
    fetched its block index has not moved, so the buffer still holds the block. For any proof data whose array is `V`'s
    and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer's whole rectangle -/

abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x1 := Rect.unit (s := S5000x1) ![0, 0] S5000x1.size inb_S5000x1_S5000x1_0_0
abbrev r0_3 : Rect S5000x128 := Rect.unit (s := S5000x128) ![0, 0] S5000x128.size inb_S5000x128_S5000x128_0_0

/-! ## What the body leaves in the output window's buffer -/

/-- Window 3's staging buffer after the body, from the input windows' blocks: its one store, of the whole block. -/
def out0_3 (x0 : Vec F S5000x64 .f32) (x1 : Vec F S64x128 .f32) (x2 : Vec F S5000x1 .f32) : Vec F S5000x128 .f32 :=
  View.canon [⟨r0_3, k0_pay1 (View.ld x0 r0_0) (View.ld x1 r0_1) (View.ld x2 r0_2)⟩]

/-- The one store covers the buffer. -/
theorem cover0_3 (p0 : Vec F S5000x128 .f32) (y : S5000x128.Idx) :
    ∃ pc ∈ ([⟨r0_3, p0⟩] : List (View.Piece (Elt F) S5000x128 .f32)), y ∈ pc.1.set :=
  View.cover_of_tiled [⟨r0_3, p0⟩] S5000x128.size (by rfl) y

/-! ## The body's triple -/

set_option maxHeartbeats 1000000 in
/-- The kernel body on whole staging memrefs, the inputs' at read contents `xW` and the output's at anything, runs to the
    continuation holding the inputs' as they were and the output's at `out0_3` of the inputs'. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S5000x1 .f32) (harg3 : arg3.IsWhole) (arg4 : Memref sig .tc .vmem S5000x128 .f32) (harg4 : arg4.IsWhole)
    (x0 : Vec F S5000x64 .f32) (x1 : Vec F S64x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_dis_kernel i arg1 harg1 arg2 harg2 arg3 harg3 arg4 harg4) K := by
  simp only [cc0__linear_dis_kernel_eq_skeleton]; unfold cc0__linear_dis_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's owed counts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the launch theorems, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealRegion1.lean ====
/- Region 1 of @main, the second linear layer: scale, add the bias row, clamp at zero, times the weights, scale again. The kernel body loads each input window's whole block, computes one
   value and stores it over the whole output block. Stated at a parameter `V`, the TensorCore's buffer contents when the
   region is entered: each window's block at a grid point, the output block as a function of the input blocks, the body's
   triple, the pipeline's proof data and the body obligation the launch theorems ask for. -/
import proofs.«156777_j82712480186688_2_alg».proof.Proof.KernelIdealLaunch
import proofs.«156777_j82712480186688_2_alg».proof.Proof.Gen.KernelIdeal.Skeleton
import proofs.«156777_j82712480186688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved, so the buffer still holds the block. For any proof data whose array is `V`'s
    and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: where it is not
    fetched its block index has not moved, so the buffer still holds the block. For any proof data whose array is `V`'s
    and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: where it is not
    fetched its block index has not moved, so the buffer still holds the block. For any proof data whose array is `V`'s
    and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: where it is not
    fetched its block index has not moved, so the buffer still holds the block. For any proof data whose array is `V`'s
    and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer's whole rectangle -/

abbrev r1_0 : Rect S5000x128 := Rect.unit (s := S5000x128) ![0, 0] S5000x128.size inb_S5000x128_S5000x128_0_0
abbrev r1_1 : Rect S5000x1 := Rect.unit (s := S5000x1) ![0, 0] S5000x1.size inb_S5000x1_S5000x1_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0

/-! ## What the body leaves in the output window's buffer -/

/-- Window 4's staging buffer after the body, from the input windows' blocks: its one store, of the whole block. -/
def out1_4 (x0 : Vec F S5000x128 .f32) (x1 : Vec F S5000x1 .f32) (x2 : Vec F S1x128 .f32) (x3 : Vec F S128x128 .f32) : Vec F S5000x128 .f32 :=
  View.canon [⟨r1_0, k1_pay1 (View.ld x1 r1_1) (View.ld x0 r1_0) (View.ld x2 r1_2) (View.ld x3 r1_3) (View.ld x1 r1_1)⟩]

/-- The one store covers the buffer. -/
theorem cover1_4 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel body on whole staging memrefs, the inputs' at read contents `xW` and the output's at anything, runs to the
    continuation holding the inputs' as they were and the output's at `out1_4` of the inputs'. -/
theorem sound_kernel1 (c : Dev nD) (E : Set ℕ) (i : grid1.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S5000x128 .f32) (harg5 : arg5.IsWhole)
    (x0 : Vec F S5000x128 .f32) (x1 : Vec F S5000x1 .f32) (x2 : Vec F S1x128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fused_bias_relu_linear_dis_kernel i arg1 harg1 arg2 harg2 arg3 harg3 arg4 harg4 arg5 harg5) K := by
  simp only [cc1__fused_bias_relu_linear_dis_kernel_eq_skeleton]; unfold cc1__fused_bias_relu_linear_dis_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at point `t`
    each input's buffer at its block and the output's at `out1_4` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's owed counts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch theorems, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdealRegion2.lean ====
/- Region 2 of @main, the third linear layer: scale, add the bias row, clamp at zero, times the weights, scale again. The kernel body loads each input window's whole block, computes one
   value and stores it over the whole output block. Stated at a parameter `V`, the TensorCore's buffer contents when the
   region is entered: each window's block at a grid point, the output block as a function of the input blocks, the body's
   triple, the pipeline's proof data and the body obligation the launch theorems ask for. -/
import proofs.«156777_j82712480186688_2_alg».proof.Proof.KernelIdealLaunch
import proofs.«156777_j82712480186688_2_alg».proof.Proof.Gen.KernelIdeal.Skeleton
import proofs.«156777_j82712480186688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents recurses once per coordinate of the long axes
set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it is not
    fetched its block index has not moved, so the buffer still holds the block. For any proof data whose array is `V`'s
    and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not: where it is not
    fetched its block index has not moved, so the buffer still holds the block. For any proof data whose array is `V`'s
    and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not: where it is not
    fetched its block index has not moved, so the buffer still holds the block. For any proof data whose array is `V`'s
    and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not: where it is not
    fetched its block index has not moved, so the buffer still holds the block. For any proof data whose array is `V`'s
    and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer's whole rectangle -/

abbrev r2_0 : Rect S5000x128 := Rect.unit (s := S5000x128) ![0, 0] S5000x128.size inb_S5000x128_S5000x128_0_0
abbrev r2_1 : Rect S5000x1 := Rect.unit (s := S5000x1) ![0, 0] S5000x1.size inb_S5000x1_S5000x1_0_0
abbrev r2_2 : Rect S1x128 := Rect.unit (s := S1x128) ![0, 0] S1x128.size inb_S1x128_S1x128_0_0
abbrev r2_3 : Rect S128x64 := Rect.unit (s := S128x64) ![0, 0] S128x64.size inb_S128x64_S128x64_0_0
abbrev r2_4 : Rect S5000x64 := Rect.unit (s := S5000x64) ![0, 0] S5000x64.size inb_S5000x64_S5000x64_0_0

/-! ## What the body leaves in the output window's buffer -/

/-- Window 4's staging buffer after the body, from the input windows' blocks: its one store, of the whole block. -/
def out2_4 (x0 : Vec F S5000x128 .f32) (x1 : Vec F S5000x1 .f32) (x2 : Vec F S1x128 .f32) (x3 : Vec F S128x64 .f32) : Vec F S5000x64 .f32 :=
  View.canon [⟨r2_4, k2_pay1 (View.ld x1 r2_1) (View.ld x0 r2_0) (View.ld x2 r2_2) (View.ld x3 r2_3) (View.ld x1 r2_1)⟩]

/-- The one store covers the buffer. -/
theorem cover2_4 (p0 : Vec F S5000x64 .f32) (y : S5000x64.Idx) :
    ∃ pc ∈ ([⟨r2_4, p0⟩] : List (View.Piece (Elt F) S5000x64 .f32)), y ∈ pc.1.set :=
  View.cover_of_tiled [⟨r2_4, p0⟩] S5000x64.size (by rfl) y

/-! ## The body's triple -/

set_option maxHeartbeats 1000000 in
/-- The kernel body on whole staging memrefs, the inputs' at read contents `xW` and the output's at anything, runs to the
    continuation holding the inputs' as they were and the output's at `out2_4` of the inputs'. -/
theorem sound_kernel2 (c : Dev nD) (E : Set ℕ) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S128x64 .f32) (harg4 : arg4.IsWhole) (arg5 : Memref sig .tc .vmem S5000x64 .f32) (harg5 : arg5.IsWhole)
    (x0 : Vec F S5000x128 .f32) (x1 : Vec F S5000x1 .f32) (x2 : Vec F S1x128 .f32) (x3 : Vec F S128x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__fused_bias_relu_linear_dis_kernel i arg1 harg1 arg2 harg2 arg3 harg3 arg4 harg4 arg5 harg5) K := by
  simp only [cc2__fused_bias_relu_linear_dis_kernel_eq_skeleton]; unfold cc2__fused_bias_relu_linear_dis_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them (`V`); after the body at point `t`
    each input's buffer at its block and the output's at `out2_4` of the input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the body's triple applies; the invariant and the
    core's owed counts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the launch theorems, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdealRunBounds.lean ====
/- The buffer contents at every boundary of @main's segments up to region 3's entry: the launch memory, then each host
   stretch's fold and each region's write-backs in turn; what each segment leaves unchanged; and every argument array
   read back through the fold to its launch contents. -/
import proofs.«156777_j82712480186688_2_alg».proof.Proof.KernelIdealRegion0
import proofs.«156777_j82712480186688_2_alg».proof.Proof.KernelIdealRegion1
import proofs.«156777_j82712480186688_2_alg».proof.Proof.KernelIdealRegion2

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The buffer contents at each boundary of @main's eight segments: a fold from the launch memory

A host stretch rewrites the buffers its operations write (`StableHlo.after`); a region leaves each of its windows'
arrays at what its write-backs leave (`Dat.arrAt … N`: an input's array as entered, the output's folded) and every
other buffer as entered (`Pipeline.withArrays`). -/

/-- Core `c`'s buffers at launch. -/
abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

/-- After the host stretch `hostOps0`: region 0's entry. -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Region 0 changes its output's array `main_v15` and nothing else. -/
theorem W2_of_ne_out (c : Dev nD) (b : Ref sig .tc) (hb : b ≠ main_v15) :
    W2 m ρ c (Proc.devRef .tc b) = W1 m ρ c (Proc.devRef .tc b) := by
  by_cases h : ∃ w, Pipeline.arrRef spec0 w = b
  · obtain ⟨w, rfl⟩ := h
    exact W2_in m ρ c w ((show ∀ w : Fin cfg0.W, Pipeline.arrRef spec0 w ≠ main_v15 → (cfg0.win w).isOut = false from by decide) w hb)
  · exact W2_of_ne m ρ c b fun w e => h ⟨w, e⟩
/-- The output's array at region 0's exit: its write-backs folded. -/
theorem W2_main_v15 (c : Dev nD) : W2 m ρ c (Proc.devRef .tc main_v15) = (dat0 (V1 m ρ) c).arrAt 3 cfg0.N :=
  W2_arr m ρ c 3
/-- The same read at the TensorCore's references: region 0's exit contents. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1`: region 1's entry. -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
/-- Region 1 changes its output's array `main_v27` and nothing else. -/
theorem W4_of_ne_out (c : Dev nD) (b : Ref sig .tc) (hb : b ≠ main_v27) :
    W4 m ρ c (Proc.devRef .tc b) = W3 m ρ c (Proc.devRef .tc b) := by
  by_cases h : ∃ w, Pipeline.arrRef spec1 w = b
  · obtain ⟨w, rfl⟩ := h
    exact W4_in m ρ c w ((show ∀ w : Fin cfg1.W, Pipeline.arrRef spec1 w ≠ main_v27 → (cfg1.win w).isOut = false from by decide) w hb)
  · exact W4_of_ne m ρ c b fun w e => h ⟨w, e⟩
/-- The output's array at region 1's exit: its write-backs folded. -/
theorem W4_main_v27 (c : Dev nD) : W4 m ρ c (Proc.devRef .tc main_v27) = (dat1 (V3 m ρ) c).arrAt 4 cfg1.N :=
  W4_arr m ρ c 4
/-- The same read at the TensorCore's references: region 1's exit contents. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2`: region 2's entry. -/
abbrev W5 : Dev nD → Valuation τ sig (Elt F) := fun c => StableHlo.after hostOps2 (W4 m ρ c)
/-- The same read at the TensorCore's references: what region 2's proof data take. -/
abbrev V5 : (c : Dev nD) → (b : Ref sig .tc) → Buf (Elt F) ((c : Thread nD τ).loc b) := fun c b => W5 m ρ c b
/-- At region 2's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- An input window's array leaves region 2 as it entered. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))
/-- Region 2 changes its output's array `main_v39` and nothing else. -/
theorem W6_of_ne_out (c : Dev nD) (b : Ref sig .tc) (hb : b ≠ main_v39) :
    W6 m ρ c (Proc.devRef .tc b) = W5 m ρ c (Proc.devRef .tc b) := by
  by_cases h : ∃ w, Pipeline.arrRef spec2 w = b
  · obtain ⟨w, rfl⟩ := h
    exact W6_in m ρ c w ((show ∀ w : Fin cfg2.W, Pipeline.arrRef spec2 w ≠ main_v39 → (cfg2.win w).isOut = false from by decide) w hb)
  · exact W6_of_ne m ρ c b fun w e => h ⟨w, e⟩
/-- The output's array at region 2's exit: its write-backs folded. -/
theorem W6_main_v39 (c : Dev nD) : W6 m ρ c (Proc.devRef .tc main_v39) = (dat2 (V5 m ρ) c).arrAt 4 cfg2.N :=
  W6_arr m ρ c 4
/-- The same read at the TensorCore's references: region 2's exit contents. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3`: region 3's entry. -/
abbrev W7 : Dev nD → Valuation τ sig (Elt F) := fun c => StableHlo.after hostOps3 (W6 m ρ c)
/-- The same read at the TensorCore's references: what region 3's proof data take. -/
abbrev V7 : (c : Dev nD) → (b : Ref sig .tc) → Buf (Elt F) ((c : Thread nD τ).loc b) := fun c b => W7 m ρ c b

/-! ## What each host stretch writes, and that it leaves every other buffer alone -/

/-- The references `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_v14]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps0` does not write holds after the stretch what it held before. -/
theorem W1_of (c : Dev nD) (b : Ref sig .tc) (h : b ∉ hostOps0_W) :
    W1 m ρ c (Proc.devRef .tc b) = W0 m ρ c (Proc.devRef .tc b) :=
  StableHlo.after_of_writes_sub hostOps0 _ hostOps0_writes h
/-- No operation of `hostOps0` allocates a buffer. -/
theorem hostOps0_fresh : (hostOps0 : List (HloOp τ sig (Elt F))).Forall fun op => op.fresh = ∅ := by
  simp only [List.Forall]; repeat' constructor

/-- The references `hostOps1`'s operations write. -/
abbrev hostOps1_W : List (Ref sig .tc) := [main_c, main_v16, main_v17, main_c_2, main_v18, main_v19, main_v20, main_v21, main_v22, main_cst_3, main_v23, main_v24, main_v25, main_v26]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps1` does not write holds after the stretch what it held before. -/
theorem W3_of (c : Dev nD) (b : Ref sig .tc) (h : b ∉ hostOps1_W) :
    W3 m ρ c (Proc.devRef .tc b) = W2 m ρ c (Proc.devRef .tc b) :=
  StableHlo.after_of_writes_sub hostOps1 _ hostOps1_writes h
/-- No operation of `hostOps1` allocates a buffer. -/
theorem hostOps1_fresh : (hostOps1 : List (HloOp τ sig (Elt F))).Forall fun op => op.fresh = ∅ := by
  simp only [List.Forall]; repeat' constructor

/-- The references `hostOps2`'s operations write. -/
abbrev hostOps2_W : List (Ref sig .tc) := [main_c_4, main_v28, main_v29, main_c_5, main_v30, main_v31, main_v32, main_v33, main_v34, main_cst_6, main_v35, main_v36, main_v37, main_v38]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps2` does not write holds after the stretch what it held before. -/
theorem W5_of (c : Dev nD) (b : Ref sig .tc) (h : b ∉ hostOps2_W) :
    W5 m ρ c (Proc.devRef .tc b) = W4 m ρ c (Proc.devRef .tc b) :=
  StableHlo.after_of_writes_sub hostOps2 _ hostOps2_writes h
/-- No operation of `hostOps2` allocates a buffer. -/
theorem hostOps2_fresh : (hostOps2 : List (HloOp τ sig (Elt F))).Forall fun op => op.fresh = ∅ := by
  simp only [List.Forall]; repeat' constructor

/-- The references `hostOps3`'s operations write. -/
abbrev hostOps3_W : List (Ref sig .tc) := [main_c_7, main_v40, main_v41, main_c_8, main_v42, main_v43, main_v44, main_v45, main_v46, main_cst_9, main_v47, main_v48, main_v49, main_v50, main_v51, main_v52]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A reference `hostOps3` does not write holds after the stretch what it held before. -/
theorem W7_of (c : Dev nD) (b : Ref sig .tc) (h : b ∉ hostOps3_W) :
    W7 m ρ c (Proc.devRef .tc b) = W6 m ρ c (Proc.devRef .tc b) :=
  StableHlo.after_of_writes_sub hostOps3 _ hostOps3_writes h
/-- No operation of `hostOps3` allocates a buffer. -/
theorem hostOps3_fresh : (hostOps3 : List (HloOp τ sig (Elt F))).Forall fun op => op.fresh = ∅ := by
  simp only [List.Forall]; repeat' constructor

/-! ## The arguments reach region 3's entry as launched: no host stretch writes one, no region changes one -/

theorem W7_main_arg0 (c : Dev nD) : W7 m ρ c (Proc.devRef .tc main_arg0) = m ((c : Thread nD τ).loc main_arg0) :=
  (W7_of m ρ c main_arg0 (by decide)).trans <| (W6_of_ne_out m ρ c main_arg0 (by decide)).trans <| (W5_of m ρ c main_arg0 (by decide)).trans <|
    (W4_of_ne_out m ρ c main_arg0 (by decide)).trans <| (W3_of m ρ c main_arg0 (by decide)).trans <| (W2_of_ne_out m ρ c main_arg0 (by decide)).trans <|
    (W1_of m ρ c main_arg0 (by decide)).trans rfl
theorem W7_main_arg1 (c : Dev nD) : W7 m ρ c (Proc.devRef .tc main_arg1) = m ((c : Thread nD τ).loc main_arg1) :=
  (W7_of m ρ c main_arg1 (by decide)).trans <| (W6_of_ne_out m ρ c main_arg1 (by decide)).trans <| (W5_of m ρ c main_arg1 (by decide)).trans <|
    (W4_of_ne_out m ρ c main_arg1 (by decide)).trans <| (W3_of m ρ c main_arg1 (by decide)).trans <| (W2_of_ne_out m ρ c main_arg1 (by decide)).trans <|
    (W1_of m ρ c main_arg1 (by decide)).trans rfl
theorem W7_main_arg2 (c : Dev nD) : W7 m ρ c (Proc.devRef .tc main_arg2) = m ((c : Thread nD τ).loc main_arg2) :=
  (W7_of m ρ c main_arg2 (by decide)).trans <| (W6_of_ne_out m ρ c main_arg2 (by decide)).trans <| (W5_of m ρ c main_arg2 (by decide)).trans <|
    (W4_of_ne_out m ρ c main_arg2 (by decide)).trans <| (W3_of m ρ c main_arg2 (by decide)).trans <| (W2_of_ne_out m ρ c main_arg2 (by decide)).trans <|
    (W1_of m ρ c main_arg2 (by decide)).trans rfl
theorem W7_main_arg3 (c : Dev nD) : W7 m ρ c (Proc.devRef .tc main_arg3) = m ((c : Thread nD τ).loc main_arg3) :=
  (W7_of m ρ c main_arg3 (by decide)).trans <| (W6_of_ne_out m ρ c main_arg3 (by decide)).trans <| (W5_of m ρ c main_arg3 (by decide)).trans <|
    (W4_of_ne_out m ρ c main_arg3 (by decide)).trans <| (W3_of m ρ c main_arg3 (by decide)).trans <| (W2_of_ne_out m ρ c main_arg3 (by decide)).trans <|
    (W1_of m ρ c main_arg3 (by decide)).trans rfl
theorem W7_main_arg4 (c : Dev nD) : W7 m ρ c (Proc.devRef .tc main_arg4) = m ((c : Thread nD τ).loc main_arg4) :=
  (W7_of m ρ c main_arg4 (by decide)).trans <| (W6_of_ne_out m ρ c main_arg4 (by decide)).trans <| (W5_of m ρ c main_arg4 (by decide)).trans <|
    (W4_of_ne_out m ρ c main_arg4 (by decide)).trans <| (W3_of m ρ c main_arg4 (by decide)).trans <| (W2_of_ne_out m ρ c main_arg4 (by decide)).trans <|
    (W1_of m ρ c main_arg4 (by decide)).trans rfl
theorem W7_main_arg5 (c : Dev nD) : W7 m ρ c (Proc.devRef .tc main_arg5) = m ((c : Thread nD τ).loc main_arg5) :=
  (W7_of m ρ c main_arg5 (by decide)).trans <| (W6_of_ne_out m ρ c main_arg5 (by decide)).trans <| (W5_of m ρ c main_arg5 (by decide)).trans <|
    (W4_of_ne_out m ρ c main_arg5 (by decide)).trans <| (W3_of m ρ c main_arg5 (by decide)).trans <| (W2_of_ne_out m ρ c main_arg5 (by decide)).trans <|
    (W1_of m ρ c main_arg5 (by decide)).trans rfl
theorem W7_main_arg6 (c : Dev nD) : W7 m ρ c (Proc.devRef .tc main_arg6) = m ((c : Thread nD τ).loc main_arg6) :=
  (W7_of m ρ c main_arg6 (by decide)).trans <| (W6_of_ne_out m ρ c main_arg6 (by decide)).trans <| (W5_of m ρ c main_arg6 (by decide)).trans <|
    (W4_of_ne_out m ρ c main_arg6 (by decide)).trans <| (W3_of m ρ c main_arg6 (by decide)).trans <| (W2_of_ne_out m ρ c main_arg6 (by decide)).trans <|
    (W1_of m ρ c main_arg6 (by decide)).trans rfl
theorem W7_main_arg7 (c : Dev nD) : W7 m ρ c (Proc.devRef .tc main_arg7) = m ((c : Thread nD τ).loc main_arg7) :=
  (W7_of m ρ c main_arg7 (by decide)).trans <| (W6_of_ne_out m ρ c main_arg7 (by decide)).trans <| (W5_of m ρ c main_arg7 (by decide)).trans <|
    (W4_of_ne_out m ρ c main_arg7 (by decide)).trans <| (W3_of m ρ c main_arg7 (by decide)).trans <| (W2_of_ne_out m ρ c main_arg7 (by decide)).trans <|
    (W1_of m ρ c main_arg7 (by decide)).trans rfl
theorem W7_main_arg8 (c : Dev nD) : W7 m ρ c (Proc.devRef .tc main_arg8) = m ((c : Thread nD τ).loc main_arg8) :=
  (W7_of m ρ c main_arg8 (by decide)).trans <| (W6_of_ne_out m ρ c main_arg8 (by decide)).trans <| (W5_of m ρ c main_arg8 (by decide)).trans <|
    (W4_of_ne_out m ρ c main_arg8 (by decide)).trans <| (W3_of m ρ c main_arg8 (by decide)).trans <| (W2_of_ne_out m ρ c main_arg8 (by decide)).trans <|
    (W1_of m ρ c main_arg8 (by decide)).trans rfl
theorem W7_main_arg9 (c : Dev nD) : W7 m ρ c (Proc.devRef .tc main_arg9) = m ((c : Thread nD τ).loc main_arg9) :=
  (W7_of m ρ c main_arg9 (by decide)).trans <| (W6_of_ne_out m ρ c main_arg9 (by decide)).trans <| (W5_of m ρ c main_arg9 (by decide)).trans <|
    (W4_of_ne_out m ρ c main_arg9 (by decide)).trans <| (W3_of m ρ c main_arg9 (by decide)).trans <| (W2_of_ne_out m ρ c main_arg9 (by decide)).trans <|
    (W1_of m ρ c main_arg9 (by decide)).trans rfl
theorem W7_main_arg10 (c : Dev nD) : W7 m ρ c (Proc.devRef .tc main_arg10) = m ((c : Thread nD τ).loc main_arg10) :=
  (W7_of m ρ c main_arg10 (by decide)).trans <| (W6_of_ne_out m ρ c main_arg10 (by decide)).trans <| (W5_of m ρ c main_arg10 (by decide)).trans <|
    (W4_of_ne_out m ρ c main_arg10 (by decide)).trans <| (W3_of m ρ c main_arg10 (by decide)).trans <| (W2_of_ne_out m ρ c main_arg10 (by decide)).trans <|
    (W1_of m ρ c main_arg10 (by decide)).trans rfl
theorem W7_main_arg11 (c : Dev nD) : W7 m ρ c (Proc.devRef .tc main_arg11) = m ((c : Thread nD τ).loc main_arg11) :=
  (W7_of m ρ c main_arg11 (by decide)).trans <| (W6_of_ne_out m ρ c main_arg11 (by decide)).trans <| (W5_of m ρ c main_arg11 (by decide)).trans <|
    (W4_of_ne_out m ρ c main_arg11 (by decide)).trans <| (W3_of m ρ c main_arg11 (by decide)).trans <| (W2_of_ne_out m ρ c main_arg11 (by decide)).trans <|
    (W1_of m ρ c main_arg11 (by decide)).trans rfl

end Cert.KernelIdeal.Hand

end
-- ==== Proof.KernelIdealRegion3Runs.lean ====
import proofs.«156777_j82712480186688_2_alg».proof.Proof.KernelIdealLaunch
import proofs.«156777_j82712480186688_2_alg».proof.Proof.Gen.KernelIdeal.Skeleton
import proofs.«156777_j82712480186688_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.GenP

variable {F : FTy → Type} [FloatOps F] [Named F]

local notation "𝕄" => MT nD τ sig Unit (Elt F) ℕ (UR sig nD τ) ℕ

/-! ## The body's two branch conditions, decided over the grid -/

/-- The condition of the body's first conditional: the grid coordinate is zero. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val = 0 :=
  (by decide +kernel : ∀ t : Fin grid3.N, cond3_0 (grid3.coords t) ↔ t.val = 0)

/-- The condition of the body's second conditional: the grid coordinate is the last one. -/
abbrev cond3_1 (i : grid3.Coords) : Prop := k3_cond2 i = 1#1
/-- It holds at the last point only. -/
theorem hcond3_1 : ∀ t : Fin cfg3.N, cond3_1 (grid3.coords t) ↔ t.val = 19 :=
  (by decide +kernel : ∀ t : Fin grid3.N, cond3_1 (grid3.coords t) ↔ t.val = 19)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
theorem liveAt3_6 : ∀ t : Fin cfg3.N, cfg3.idle 6 (grid3.coords t) = false := by decide +kernel
/-- Away from the last point the output window is idle, -/
theorem idleAt3_7 : ∀ t : Fin cfg3.N, ¬cond3_1 (grid3.coords t) → cfg3.idle 7 (grid3.coords t) = true := by decide +kernel
/-- and its block is not written back there. -/
theorem noFlush3_7 : ∀ t : Fin cfg3.N, ¬cond3_1 (grid3.coords t) → (cfg3.win 7).flush t = false := by decide +kernel
/-- At the last point the output window is live. -/
theorem liveAt3_7 : ∀ t : Fin cfg3.N, cond3_1 (grid3.coords t) → cfg3.idle 7 (grid3.coords t) = false := by decide +kernel

/-! ## The staging memrefs and the scratch -/

abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x32 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x32 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S32x2 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1x2 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x2 .f32 := win3_7.stage (cfg3.slots t 7)
abbrev hs3_7 (t : Fin cfg3.N) : (ms3_7 t).IsWhole := hstage3_7 ((cfg3.slots t 7).cast nbuf3_7)
/-- The scratch row the kernel carries from point to point. -/
abbrev scM3 : Memref sig .tc .vmem S1x64 .f32 := Memref.whole cc3_scratch0
abbrev VS3 : View sig .tc .vmem S1x64 .f32 := scM3.view
/-- One staging buffer of the output window, through which its contents are stated. -/
abbrev VO3_7 : View sig .tc .vmem S1x2 .f32 := (Memref.whole cc3_stg7_0 : Memref sig .tc .vmem S1x2 .f32).view

/-- The core's other scoped buffers (the other calls' staging buffers), at some contents each. -/
def rest3 (c : Dev nD) : sProp 𝕄 :=
  Pipeline.scopedRestBut (Ix := Unit) (Name := ℕ) (U := UR sig nD τ) (Lvl := ℕ) (Val := Elt F) spec3 c [cc3_scratch0]

/-- The region's invariant with the scratch row split off as a memref owned at some contents. -/
theorem PhiA3_eq (c : Dev nD) :
    (Pipeline.ΦA spec3 c : sProp 𝕄)
      = iprop(iprop((∃ d, owns (c : Thread nD τ) scM3 fullShare d) ∗ rest3 (F := F) c) ∗ (∃ r, prngReg c r)) := by
  unfold Pipeline.ΦA rest3
  rw [Pipeline.scopedRest_split_of_list spec3 c [cc3_scratch0] (by decide) (by decide)]
  simp only [scM3, owns_whole, Idealize.SL.BI.bigSepL_singleton]
  rfl

end Cert.KernelIdeal.Hand

end
-- ==== Proof.KernelIdealRegion3RunA.lean ====
import proofs.«156777_j82712480186688_2_alg».proof.Proof.KernelIdealRegion3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.GenP

variable {F : FTy → Type} [FloatOps F] [Named F]

local notation "𝕄" => MT nD τ sig Unit (Elt F) ℕ (UR sig nD τ) ℕ

set_option maxHeartbeats 1000000 in
/-- The body at the first point (first conditional taken, second not): on whole staging memrefs, the inputs' at
    their contents, the output's at contents handed back untouched, the scratch at anything, the body runs to the
    continuation holding the inputs' as they were and the scratch with the pieces its two stores wrote. -/
noncomputable def kernelRun3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) :
    { LS0 : List (View.Piece (Elt F) S1x64 .f32) //
      ∀ (xi7 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, fun xi7 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg8.eq_unread hf7
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.KernelIdeal.Hand

end
-- ==== Proof.KernelIdealRegion3RunB.lean ====
import proofs.«156777_j82712480186688_2_alg».proof.Proof.KernelIdealRegion3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.GenP

variable {F : FTy → Type} [FloatOps F] [Named F]

local notation "𝕄" => MT nD τ sig Unit (Elt F) ℕ (UR sig nD τ) ℕ

set_option maxHeartbeats 1000000 in
/-- The body at a middle point (neither conditional taken): on whole staging memrefs, the inputs' at their
    contents, the output's at contents handed back untouched, the scratch at what the point before left, the body
    runs to the continuation holding the inputs' as they were and the scratch with the piece its store wrote. -/
noncomputable def kernelRun3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) :
    { LS0 : List (View.Piece (Elt F) S1x64 .f32) //
      ∀ (xi7 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ f, arg9.view.loc (c : Thread nD τ) ↦[arg9.view.set]{fullShare} arg9.view.writes (Elt F) f LS0)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, fun xi7 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact HS0

end Cert.KernelIdeal.Hand

end
-- ==== Proof.KernelIdealRegion3RunC.lean ====
import proofs.«156777_j82712480186688_2_alg».proof.Proof.KernelIdealRegion3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.GenP

variable {F : FTy → Type} [FloatOps F] [Named F]

local notation "𝕄" => MT nD τ sig Unit (Elt F) ℕ (UR sig nD τ) ℕ

set_option maxHeartbeats 1000000 in
/-- The body at the last point (first conditional not taken, second taken): on whole staging memrefs, the inputs'
    at their contents, the output's at anything, the scratch at what the point before left, the body runs to the
    continuation holding the inputs' as they were, the scratch with the piece its store wrote and the output's
    buffer with the piece the closing store wrote. -/
noncomputable def kernelRun3_C (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) :
    Σ' (L7 : List (View.Piece (Elt F) S1x2 .f32)), { LS0 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc3_kernel i arg1 harg1 arg2 harg2 arg3 harg3 arg4 harg4 arg5 harg5 arg6 harg6 arg7 harg7 arg8 harg8 arg9 harg9) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    iexists _; iexact HS0

end Cert.KernelIdeal.Hand

end
-- ==== Proof.KernelIdealRegion3.lean ====
import proofs.«156777_j82712480186688_2_alg».proof.Proof.KernelIdealRegion3RunA
import proofs.«156777_j82712480186688_2_alg».proof.Proof.KernelIdealRegion3RunB
import proofs.«156777_j82712480186688_2_alg».proof.Proof.KernelIdealRegion3RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.GenP

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not: unfetched, the
    block index has not moved and the body left the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not: unfetched, the
    block index has not moved and the body left the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not: unfetched, the
    block index has not moved and the body left the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not: unfetched, the
    block index has not moved and the body left the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not: unfetched, the
    block index has not moved and the body left the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not: unfetched, the
    block index has not moved and the body left the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not: unfetched, the
    block index has not moved and the body left the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## What each case leaves in the scratch row and in the output block -/

/-- At the first point the two stores into the scratch row cover it. -/
theorem scover3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (y : S1x64.Idx) :
    ∃ pc ∈ (kernelRun3_A c i arg1 harg1 arg2 harg2 arg3 harg3 arg4 harg4 arg5 harg5 arg6 harg6 arg7 harg7 arg8 harg8 arg9 harg9 hc0 hc1 x0 x1 x2 x3 x4 x5 x6).1, y ∈ pc.1.set :=
  View.cover_of_tiledL (kernelRun3_A c i arg1 harg1 arg2 harg2 arg3 harg3 arg4 harg4 arg5 harg5 arg6 harg6 arg7 harg7 arg8 harg8 arg9 harg9 hc0 hc1 x0 x1 x2 x3 x4 x5 x6).1 S1x64.size (by sl_kernel_rfl) y

/-- What the first point leaves in the scratch row: its pieces read back. -/
def sout3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) : Vec F S1x64 .f32 :=
  VS3.read (Elt F) (VS3.writes (Elt F) VS3.junk (kernelRun3_A c i arg1 harg1 arg2 harg2 arg3 harg3 arg4 harg4 arg5 harg5 arg6 harg6 arg7 harg7 arg8 harg8 arg9 harg9 hc0 hc1 x0 x1 x2 x3 x4 x5 x6).1)

/-- At a middle point the store into the scratch row covers it. -/
theorem scover3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) (y : S1x64.Idx) :
    ∃ pc ∈ (kernelRun3_B c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun3_B c i arg1 harg1 arg2 harg2 arg3 harg3 arg4 harg4 arg5 harg5 arg6 harg6 arg7 harg7 arg8 harg8 arg9 harg9 hc0 hc1 x0 x1 x2 x3 x4 x5 x6 xs0).1 S1x64.size (by sl_kernel_rfl) y

/-- What a middle point leaves in the scratch row, over what the point before left. -/
def sout3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : ¬cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) : Vec F S1x64 .f32 :=
  VS3.read (Elt F) (VS3.writes (Elt F) VS3.junk (kernelRun3_B c i arg1 harg1 arg2 harg2 arg3 harg3 arg4 harg4 arg5 harg5 arg6 harg6 arg7 harg7 arg8 harg8 arg9 harg9 hc0 hc1 x0 x1 x2 x3 x4 x5 x6 xs0).1)

/-- At the last point the store into the scratch row covers it, -/
theorem scover3_C (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) (y : S1x64.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 x6 xs0).2.1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 x6 xs0).2.1 S1x64.size (by sl_kernel_rfl) y

/-- and the closing store covers the output block. -/
theorem cover3_C_7 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) (y : S1x2.Idx) :
    ∃ pc ∈ (kernelRun3_C c i arg1 harg1 arg2 harg2 arg3 harg3 arg4 harg4 arg5 harg5 arg6 harg6 arg7 harg7 arg8 harg8 arg9 harg9 hc0 hc1 x0 x1 x2 x3 x4 x5 x6 xs0).1, y ∈ pc.1.set :=
  View.cover_of_tiledL (kernelRun3_C c i arg1 harg1 arg2 harg2 arg3 harg3 arg4 harg4 arg5 harg5 arg6 harg6 arg7 harg7 arg8 harg8 arg9 harg9 hc0 hc1 x0 x1 x2 x3 x4 x5 x6 xs0).1 S1x2.size (by sl_kernel_rfl) y

/-- What the last point leaves in the scratch row, over what the point before left. -/
def sout3_C (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) : Vec F S1x64 .f32 :=
  VS3.read (Elt F) (VS3.writes (Elt F) VS3.junk (kernelRun3_C c i arg1 harg1 arg2 harg2 arg3 harg3 arg4 harg4 arg5 harg5 arg6 harg6 arg7 harg7 arg8 harg8 arg9 harg9 hc0 hc1 x0 x1 x2 x3 x4 x5 x6 xs0).2.1)

/-- What the last point leaves in the output's staging buffer. -/
def out3_C_7 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i)
    (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) : Vec F S1x2 .f32 :=
  VO3_7.read (Elt F) (VO3_7.writes (Elt F) VO3_7.junk (kernelRun3_C c i arg1 harg1 arg2 harg2 arg3 harg3 arg4 harg4 arg5 harg5 arg6 harg6 arg7 harg7 arg8 harg8 arg9 harg9 hc0 hc1 x0 x1 x2 x3 x4 x5 x6 xs0).1)

/-! ## The scratch row point by point -/

/-- THE ACCUMULATION: the scratch row after the body at position `n`. The first point's case at point 0; afterwards
    the last point's case at position 19 and the middle case elsewhere, each over what position `n - 1` left. -/
def acc3 (c : Dev nD) : (n : ℕ) → n < cfg3.N → Vec F S1x64 .f32
  | 0, hn => sout3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) scM3 (Memref.isWhole_whole _) ((hcond3_0 ⟨0, hn⟩).mpr rfl) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩)
  | n + 1, hn =>
    if h1 : n + 1 = 19 then
      sout3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3 (Memref.isWhole_whole _) (fun h => (fun h => by (try dsimp only at h); omega) ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (acc3 c n (Nat.lt_of_succ_lt hn))
    else
      sout3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) scM3 (Memref.isWhole_whole _) (fun h => (fun h => by (try dsimp only at h); omega) ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (acc3 c n (Nat.lt_of_succ_lt hn))

/-- `acc3` at the first point. -/
theorem acc3_A (c : Dev nD) (t : Fin cfg3.N) (h0 : t.val = 0) (h1 : ¬t.val = 19) :
    acc3 V c t.val t.isLt = sout3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) := by
  obtain ⟨n, hn⟩ := t
  cases n with
  | zero => exact rfl
  | succ n => exact absurd h0 (Nat.succ_ne_zero n)

/-- `acc3` at a middle point: that case's contents, over what the point before left. -/
theorem acc3_B (c : Dev nD) (t : Fin cfg3.N) (h0 : ¬t.val = 0) (h1 : ¬t.val = 19) :
    acc3 V c t.val t.isLt = sout3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)) := by
  obtain ⟨n, hn⟩ := t
  cases n with
  | zero => exact absurd rfl h0
  | succ n => exact (dif_neg h1).trans rfl

/-- `acc3` at the last point: that case's contents, over what the point before left. -/
theorem acc3_C (c : Dev nD) (t : Fin cfg3.N) (h0 : ¬t.val = 0) (h1 : t.val = 19) :
    acc3 V c t.val t.isLt = sout3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (acc3 V c (t.val - 1) (Nat.lt_of_le_of_lt (Nat.sub_le _ _) t.isLt)) := by
  obtain ⟨n, hn⟩ := t
  cases n with
  | zero => exact absurd rfl h0
  | succ n => exact (dif_pos h1).trans rfl

/-- The grid's last point. -/
abbrev t19 : Fin cfg3.N := ⟨19, by decide⟩

/-- What the last point stores in the output block: the closing case run at the last point's blocks over the scratch
    row as position 18 left it. -/
def out3_7 (c : Dev nD) : Vec F S1x2 .f32 :=
  out3_C_7 c (grid3.coords t19) (ms3_0 t19) (hs3_0 t19) (ms3_1 t19) (hs3_1 t19) (ms3_2 t19) (hs3_2 t19) (ms3_3 t19) (hs3_3 t19) (ms3_4 t19) (hs3_4 t19) (ms3_5 t19) (hs3_5 t19) (ms3_6 t19) (hs3_6 t19) (ms3_7 t19) (hs3_7 t19) scM3 (Memref.isWhole_whole _) (fun h => absurd ((hcond3_0 t19).mp h) (by decide)) ((hcond3_1 t19).mpr rfl) (iblk3 V c 0 t19) (iblk3 V c 1 t19) (iblk3 V c 2 t19) (iblk3 V c 3 t19) (iblk3 V c 4 t19) (iblk3 V c 5 t19) (iblk3 V c 6 t19) (acc3 V c 18 (by decide))

/-! ## The invariant and the proof data -/

/-- The region invariant before position `n`: before the first point the class's; afterwards the scratch row at
    what the point before left in it, the core's other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn) ∗ rest3 (F := F) c) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega)) ∗ rest3 (F := F) c) ∗ (∃ r, prngReg c r)) := by
  cases n with
  | zero => exact absurd rfl hz
  | succ n => rfl

/-- The proof data of the region on core `c`: the arrays as the region finds them; after the body each input's buffer
    at its block and the output's at what the last point stores; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 V c
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 V c := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  rw [show (dat3 V c).leavesExact 4 t = owns (c : Thread nD τ) (ms3_4 t) fullShare ((dat3 V c).after 4 t) from by
    unfold Dat.leavesExact; rw [liveAt3_4 t], after3_4]
  rw [show (dat3 V c).leavesExact 5 t = owns (c : Thread nD τ) (ms3_5 t) fullShare ((dat3 V c).after 5 t) from by
    unfold Dat.leavesExact; rw [liveAt3_5 t], after3_5]
  rw [show (dat3 V c).leavesExact 6 t = owns (c : Thread nD τ) (ms3_6 t) fullShare ((dat3 V c).after 6 t) from by
    unfold Dat.leavesExact; rw [liveAt3_6 t], after3_6]
  by_cases h0 : t.val = 0
  · have h1 : ¬t.val = 19 := by omega
    rw [Dat.leavesExact_idle (dat3 V c) 7 t (idleAt3_7 t (fun h => h1 ((hcond3_1 t).mp h))) (noFlush3_7 t (fun h => h1 ((hcond3_1 t).mp h)))]
    rw [acc3_A V c t h0 h1]
    unfold sout3_A; (try dsimp only)
    rw [PhiS3_castSucc V c t, PhiS3_zero V c _ _ h0, PhiA3_eq]
    iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover3_A c _ _ _ _ _ _ _ _ _ _ _ _ _ _ _ _ _ _ _ _ _ _ _ _ _ _ _ _)
        iexact Hr
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · by_cases h1 : t.val = 19
    · rw [show (dat3 V c).leavesExact 7 t = owns (c : Thread nD τ) (ms3_7 t) fullShare ((dat3 V c).after 7 t) from by
        unfold Dat.leavesExact; rw [liveAt3_7 t ((hcond3_1 t).mpr h1)], after3_7]
      rw [acc3_C V c t h0 h1]
      obtain rfl : t = t19 := Fin.ext h1
      unfold out3_7 out3_C_7 sout3_C; (try dsimp only)
      rw [PhiS3_castSucc V c t19, PhiS3_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_C c (grid3.coords t19) _ _ _ _ _ _ _ _ _ _ _ _ _ _ _ _ _ _ (fun h => h0 ((hcond3_0 t19).mp h)) ((hcond3_1 t19).mpr h1) (iblk3 V c 0 t19) (iblk3 V c 1 t19) (iblk3 V c 2 t19) (iblk3 V c 3 t19) (iblk3 V c 4 t19) (iblk3 V c 5 t19) (iblk3 V c 6 t19) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      iintro ⟨H0, H1, H2, H3, H4, H5, H6, ⟨%e7, H7⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_C c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cover3_C_7 c _ _ _ _ _ _ _ _ _ _ _ _ _ _ _ _ _ _ _ _ _ _ _ _ _ _ _ _ _)
    · rw [Dat.leavesExact_idle (dat3 V c) 7 t (idleAt3_7 t (fun h => h1 ((hcond3_1 t).mp h))) (noFlush3_7 t (fun h => h1 ((hcond3_1 t).mp h)))]
      rw [acc3_B V c t h0 h1]
      unfold sout3_B; (try dsimp only)
      rw [PhiS3_castSucc V c t, PhiS3_pos V c _ _ h0]
      iintro ⟨⟨⟨HS0, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iintro ⟨H0, H1, H2, H3, H4, H5, H6, H7, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover3_B c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The exact body obligation, at every point. -/
theorem body_obligation3_exact (c : Dev nD) : BodyObligation (dat3 (F := F) V c) (defs₀ (F := F)) Variants.none () Set.univ := fun t => by
  rw [bigSep_W3, bigSep_W3]
  exact sound_body3 V c t

/-- The body obligation as the region's loop takes it. -/
theorem body_obligation3 (c : Dev nD) : BodyObligationLoose (dat3 (F := F) V c) (defs₀ (F := F)) Variants.none () Set.univ :=
  (body_obligation3_exact V c).loose

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch row's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Cert.KernelIdeal.Hand

end
-- ==== Proof.KernelIdealRunBounds3.lean ====
/- The buffer contents when @main returns: region 3's write-backs over its entry contents; what the region leaves
   unchanged; every argument array read back through the whole fold to its launch contents. -/
import proofs.«156777_j82712480186688_2_alg».proof.Proof.KernelIdealRunBounds
import proofs.«156777_j82712480186688_2_alg».proof.Proof.KernelIdealRegion3

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- At region 3's exit: each of its windows' arrays at what its write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- An input window's array leaves region 3 as it entered. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))
/-- Region 3 changes its output's array `main_v53` and nothing else. -/
theorem W8_of_ne_out (c : Dev nD) (b : Ref sig .tc) (hb : b ≠ main_v53) :
    W8 m ρ c (Proc.devRef .tc b) = W7 m ρ c (Proc.devRef .tc b) := by
  by_cases h : ∃ w, Pipeline.arrRef spec3 w = b
  · obtain ⟨w, rfl⟩ := h
    exact W8_in m ρ c w ((show ∀ w : Fin cfg3.W, Pipeline.arrRef spec3 w ≠ main_v53 → (cfg3.win w).isOut = false from by decide) w hb)
  · exact W8_of_ne m ρ c b fun w e => h ⟨w, e⟩
/-- The output's array at region 3's exit: its write-backs folded. -/
theorem W8_main_v53 (c : Dev nD) : W8 m ρ c (Proc.devRef .tc main_v53) = (dat3 (V7 m ρ) c).arrAt 7 cfg3.N :=
  W8_arr m ρ c 7
/-- The same read at the TensorCore's references: region 3's exit contents. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ## The arguments end as launched -/

theorem W8_main_arg0 (c : Dev nD) : W8 m ρ c (Proc.devRef .tc main_arg0) = m ((c : Thread nD τ).loc main_arg0) :=
  (W8_of_ne_out m ρ c main_arg0 (by decide)).trans (W7_main_arg0 m ρ c)
theorem W8_main_arg1 (c : Dev nD) : W8 m ρ c (Proc.devRef .tc main_arg1) = m ((c : Thread nD τ).loc main_arg1) :=
  (W8_of_ne_out m ρ c main_arg1 (by decide)).trans (W7_main_arg1 m ρ c)
theorem W8_main_arg2 (c : Dev nD) : W8 m ρ c (Proc.devRef .tc main_arg2) = m ((c : Thread nD τ).loc main_arg2) :=
  (W8_of_ne_out m ρ c main_arg2 (by decide)).trans (W7_main_arg2 m ρ c)
theorem W8_main_arg3 (c : Dev nD) : W8 m ρ c (Proc.devRef .tc main_arg3) = m ((c : Thread nD τ).loc main_arg3) :=
  (W8_of_ne_out m ρ c main_arg3 (by decide)).trans (W7_main_arg3 m ρ c)
theorem W8_main_arg4 (c : Dev nD) : W8 m ρ c (Proc.devRef .tc main_arg4) = m ((c : Thread nD τ).loc main_arg4) :=
  (W8_of_ne_out m ρ c main_arg4 (by decide)).trans (W7_main_arg4 m ρ c)
theorem W8_main_arg5 (c : Dev nD) : W8 m ρ c (Proc.devRef .tc main_arg5) = m ((c : Thread nD τ).loc main_arg5) :=
  (W8_of_ne_out m ρ c main_arg5 (by decide)).trans (W7_main_arg5 m ρ c)
theorem W8_main_arg6 (c : Dev nD) : W8 m ρ c (Proc.devRef .tc main_arg6) = m ((c : Thread nD τ).loc main_arg6) :=
  (W8_of_ne_out m ρ c main_arg6 (by decide)).trans (W7_main_arg6 m ρ c)
theorem W8_main_arg7 (c : Dev nD) : W8 m ρ c (Proc.devRef .tc main_arg7) = m ((c : Thread nD τ).loc main_arg7) :=
  (W8_of_ne_out m ρ c main_arg7 (by decide)).trans (W7_main_arg7 m ρ c)
theorem W8_main_arg8 (c : Dev nD) : W8 m ρ c (Proc.devRef .tc main_arg8) = m ((c : Thread nD τ).loc main_arg8) :=
  (W8_of_ne_out m ρ c main_arg8 (by decide)).trans (W7_main_arg8 m ρ c)
theorem W8_main_arg9 (c : Dev nD) : W8 m ρ c (Proc.devRef .tc main_arg9) = m ((c : Thread nD τ).loc main_arg9) :=
  (W8_of_ne_out m ρ c main_arg9 (by decide)).trans (W7_main_arg9 m ρ c)
theorem W8_main_arg10 (c : Dev nD) : W8 m ρ c (Proc.devRef .tc main_arg10) = m ((c : Thread nD τ).loc main_arg10) :=
  (W8_of_ne_out m ρ c main_arg10 (by decide)).trans (W7_main_arg10 m ρ c)
theorem W8_main_arg11 (c : Dev nD) : W8 m ρ c (Proc.devRef .tc main_arg11) = m ((c : Thread nD τ).loc main_arg11) :=
  (W8_of_ne_out m ρ c main_arg11 (by decide)).trans (W7_main_arg11 m ρ c)

end Cert.KernelIdeal.Hand

end
-- ==== Proof.KernelIdealRun.lean ====
/- THE RUN of @main: its eight segments — a host stretch, then a kernel region, four times over — assembled over the
   library's launch theorem for a program of several regions. Each region is a segment record over the thread state
   "every unscoped buffer at the boundary's contents, the generator register at some state, nothing owed"; the first
   three regions carry the class invariant, the last its own (a scratch carried across grid points), reached from and
   returned to the class invariant. The run ends with every unscoped buffer at the last boundary's contents, whence the
   frame: every argument array ends as launched. -/
import proofs.«156777_j82712480186688_2_alg».proof.Proof.KernelIdealRunBounds3

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents: a literal match, so that the pinned configuration
    at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
/-- No core owes another anything: no level is assigned. -/
abbrev noLvl : GSem nD τ sig → Finset Unit := fun _ => ∅
abbrev lvl0 : GSem nD τ sig → Unit → ℕ := fun _ _ => 0
/-- What rides beside the buffers through every segment: the core's generator register at some state and its
    `owes`, at nothing. -/
abbrev Rside (c : Dev nD) : sProp 𝕄 := iprop((∃ r, prngReg c r) ∗ ∃ W, owes (c : Thread nD τ) (0 : CellTallies nD τ sig Unit) W)
/-- A host stretch as a segment over the unscoped references from the contents `W`, `Rside` riding along: it leaves
    those references at `StableHlo.after ops (W c)`, the next boundary's contents by name. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noLvl lvl0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rside

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W8`, the
    generator register at some state. -/
abbrev Tlast (c : Dev nD) : sProp 𝕄 := iprop(StableHlo.held (c : Thread nD τ) (Pipeline.ucRefs τ sig) (W8 m ρ c) ∗ ∃ r, prngReg c r)

/-! ## The regions as segments -/

-- a library lemma stated over the pinned configuration unifies with the printed one only when unification may unfold
-- plain definitions in a metavariable's type
set_option backward.isDefEq.respectTransparency.types false in
/-- REGION 0 over the thread state: entered from every unscoped buffer at `W1`, left at `W2`. Its windows' arrays
    are split out of the unscoped buffers and put back at the exit contents; the generator register goes into the
    region's invariant and comes out; nothing is owed; the kernel has no semaphore of its own. -/
def reg0 : Pipeline.RegionSeg (pcfgs (F := F)) adm (pdats m ρ) () defs₀ Variants.none noLvl lvl0 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noLvl lvl0 0 fun _ _ => rfl
  pre c := iprop(StableHlo.held (c : Thread nD τ) (Pipeline.ucRefs τ sig) (W1 m ρ c) ∗ Rside c)
  post c := iprop(StableHlo.held (c : Thread nD τ) (Pipeline.ucRefs τ sig) (W2 m ρ c) ∗ Rside c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at `W3`, left at `W4`. Its windows' arrays
    are split out of the unscoped buffers and put back at the exit contents; the generator register goes into the
    region's invariant and comes out; nothing is owed; the kernel has no semaphore of its own. -/
def reg1 : Pipeline.RegionSeg (pcfgs (F := F)) adm (pdats m ρ) () defs₀ Variants.none noLvl lvl0 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noLvl lvl0 1 fun _ _ => rfl
  pre c := iprop(StableHlo.held (c : Thread nD τ) (Pipeline.ucRefs τ sig) (W3 m ρ c) ∗ Rside c)
  post c := iprop(StableHlo.held (c : Thread nD τ) (Pipeline.ucRefs τ sig) (W4 m ρ c) ∗ Rside c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: entered from every unscoped buffer at `W5`, left at `W6`. Its windows' arrays
    are split out of the unscoped buffers and put back at the exit contents; the generator register goes into the
    region's invariant and comes out; nothing is owed; the kernel has no semaphore of its own. -/
def reg2 : Pipeline.RegionSeg (pcfgs (F := F)) adm (pdats m ρ) () defs₀ Variants.none noLvl lvl0 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ noLvl lvl0 2 fun _ _ => rfl
  pre c := iprop(StableHlo.held (c : Thread nD τ) (Pipeline.ucRefs τ sig) (W5 m ρ c) ∗ Rside c)
  post c := iprop(StableHlo.held (c : Thread nD τ) (Pipeline.ucRefs τ sig) (W6 m ρ c) ∗ Rside c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: entered from every unscoped buffer at `W7`, left at `W8`. Its windows' arrays
    are split out of the unscoped buffers and put back at the exit contents; the generator register goes into the
    region's invariant and comes out; nothing is owed; the kernel has no semaphore of its own. -/
def reg3 : Pipeline.RegionSeg (pcfgs (F := F)) adm (pdats m ρ) () defs₀ Variants.none noLvl lvl0 3 where
  win := launch3.win.to₀
  block_pos := launch3.block_pos
  stage_whole := launch3.stage_whole
  K := PEmpty
  osem k := k.elim
  ho := Pipeline.OwnSemFacts.none _
  hbody c := body_obligation3 (V7 m ρ) c
  hwaits := Pipeline.hwaits_of_owed_zero _ _ _ _ noLvl lvl0 3 fun _ _ => rfl
  pre c := iprop(StableHlo.held (c : Thread nD τ) (Pipeline.ucRefs τ sig) (W7 m ρ c) ∗ Rside c)
  post c := iprop(Tlast m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (dat3 (V7 m ρ) c).Φ 0 from rfl]
    refine BIBase.Entails.trans ?_ (hin3 (V7 m ρ) c)
    unfold Pipeline.ΦA
    iintro ⟨Hp, -, Hr⟩
    isplitl [Hr]; · iexact Hr
    iexact Hp
  hout c := by
    rw [Pipeline.ownSems0_none, show (pdats m ρ 3 c).Φ (Fin.last _) = (dat3 (V7 m ρ) c).Φ (Fin.last cfg3.N) from rfl]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 8 segments in order: a host segment per stretch from its boundary's contents, a region per kernel call. -/
abbrev segs : List (Pipeline.Seg (pcfgs (F := F)) adm (pdats m ρ) () defs₀ Variants.none noLvl lvl0) :=
  [ .host (hostSeg hostOps0 hostOps0_sub hostOps0_fresh (W0 m ρ)),
    .region (reg0 m ρ),
    .host (hostSeg hostOps1 hostOps1_sub hostOps1_fresh (W2 m ρ)),
    .region (reg1 m ρ),
    .host (hostSeg hostOps2 hostOps2_sub hostOps2_fresh (W4 m ρ)),
    .region (reg2 m ρ),
    .host (hostSeg hostOps3 hostOps3_sub hostOps3_fresh (W6 m ρ)),
    .region (reg3 m ρ) ]
/-- @main IS the run of the segments. -/
theorem main_run (c : Dev nD) : main (F := F) c = Pipeline.Seg.run (segs m ρ) :=
  main_segs adm (pdats m ρ) () Variants.none noLvl lvl0 _ _ _ _ (reg0 m ρ) (reg1 m ρ) (reg2 m ρ) (reg3 m ρ) rfl rfl rfl rfl c

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and every final state holds each unscoped buffer at the last boundary's contents `W8`. -/
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ Variants.none noLvl lvl0 m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rside c)) (Tₙ := Tlast m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach noLvl lvl0 fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

/-- THE FRAME at any `F`: every weakly fair execution of @main terminates, nothing faulting, and every final state has
    the argument arrays as launched: each argument's buffer is unscoped, and the last boundary's contents at it walk
    back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨
    (h c _ (mem_uc main_arg0 (by decide))).trans (W8_main_arg0 m ρ c),
    (h c _ (mem_uc main_arg1 (by decide))).trans (W8_main_arg1 m ρ c),
    (h c _ (mem_uc main_arg2 (by decide))).trans (W8_main_arg2 m ρ c),
    (h c _ (mem_uc main_arg3 (by decide))).trans (W8_main_arg3 m ρ c),
    (h c _ (mem_uc main_arg4 (by decide))).trans (W8_main_arg4 m ρ c),
    (h c _ (mem_uc main_arg5 (by decide))).trans (W8_main_arg5 m ρ c),
    (h c _ (mem_uc main_arg6 (by decide))).trans (W8_main_arg6 m ρ c),
    (h c _ (mem_uc main_arg7 (by decide))).trans (W8_main_arg7 m ρ c),
    (h c _ (mem_uc main_arg8 (by decide))).trans (W8_main_arg8 m ρ c),
    (h c _ (mem_uc main_arg9 (by decide))).trans (W8_main_arg9 m ρ c),
    (h c _ (mem_uc main_arg10 (by decide))).trans (W8_main_arg10 m ρ c),
    (h c _ (mem_uc main_arg11 (by decide))).trans (W8_main_arg11 m ρ c)⟩) (run m ρ)

end Cert.KernelIdeal.Hand

end
-- ==== Proof.KernelIdealStretch.lean ====
/-
  The host lines between the kernel regions, read back as functions of the buffers they start from.
  From the edge array  E : [2, 1600000]  the program builds, once, the source and destination lists with one self-loop per node
  appended (`srcList`, `dstList` : [1700000]), the degree of every node as the number of list entries that name it as destination
  (an accumulating scatter of ones into zeros), and the normaliser  s = 1/√(max(deg, 1))  as a vector and as a column.
  Between two regions it AGGREGATES: the rows of the node array just computed are gathered along the source list (a negative
  node number read as counted from the end, then clamped into range by the gather) and added up, from zero, at the rows the
  destination list names (`aggregate128`, `aggregate64`); and it lays the next bias out as a row.
-/
import proofs.«156777_j82712480186688_2_alg».proof.Proof.KernelIdealLaunch
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen Cert.KernelIdeal.GenP

variable {F : FTy → Type} [FloatOps F] [Named F]

/-- A list of node numbers as the column a gather reads, a negative number `n` first replaced by `n + 100000`. -/
def wrapCol (v : (⟨S1700000, .i32⟩ : BufTy).Contents (Elt F)) : (⟨S1700000x1, .i32⟩ : BufTy).Contents (Elt F) :=
  broadcastInDim S1700000x1 ![0] bcast_S1700000_S1700000x1_0
    (select (cmpi CmpIPredicate.slt v (broadcastInDim S1700000 ![] bcast_S_S1700000 (constantI S_ 32 0#32)))
      (addi v (broadcastInDim S1700000 ![] bcast_S_S1700000 (constantI S_ 32 100000#32))) v)

/-- A list of node numbers as the column a scatter reads, unchanged. -/
def rawCol (v : (⟨S1700000, .i32⟩ : BufTy).Contents (Elt F)) : (⟨S1700000x1, .i32⟩ : BufTy).Contents (Elt F) :=
  broadcastInDim S1700000x1 ![0] bcast_S1700000_S1700000x1_0 v

/-- Rows of a 128-wide node array gathered along `src` and added up at the rows `dst` names, from zero. -/
def aggregate128 (h : (⟨S100000x128, .f32⟩ : BufTy).Contents (Elt F)) (src dst : (⟨S1700000, .i32⟩ : BufTy).Contents (Elt F)) :
    (⟨S100000x128, .f32⟩ : BufTy).Contents (Elt F) :=
  Host.scatterAdd scatter_S100000x128_S1700000x1_S1700000x128_1_0_0_1
    (broadcastInDim S100000x128 ![] bcast_S_S100000x128 (constant S_ FTy.f32 0x00000000#32)) (rawCol dst)
    (Host.gather gather_S100000x128_S1700000x1_S1700000x128_1_0_n_n_0_1_1128 h (wrapCol src))

/-- The same for a 64-wide node array. -/
def aggregate64 (h : (⟨S100000x64, .f32⟩ : BufTy).Contents (Elt F)) (src dst : (⟨S1700000, .i32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ FTy.f32 0x00000000#32)) (rawCol dst)
    (Host.gather gather_S100000x64_S1700000x1_S1700000x64_1_0_n_n_0_1_164 h (wrapCol src))

/-! ## The stretch before region 1, before region 2, before region 3 -/

theorem stretch1_agg (W : Valuation τ sig (Elt F)) :
    StableHlo.after (hostOps1 (F := F)) W (Proc.devRef .tc main_v25)
      = aggregate128 (W (Proc.devRef .tc main_v15)) (W (Proc.devRef .tc main_v3)) (W (Proc.devRef .tc main_v6)) := by
  after_results; rfl

theorem stretch1_bias (W : Valuation τ sig (Elt F)) :
    StableHlo.after (hostOps1 (F := F)) W (Proc.devRef .tc main_v26)
      = shapeCast S1x128 (W (Proc.devRef .tc main_arg3) : (⟨S128, .f32⟩ : BufTy).Contents (Elt F)) shapeCasts_S128_S1x128 := by
  after_results; rfl

theorem stretch2_agg (W : Valuation τ sig (Elt F)) :
    StableHlo.after (hostOps2 (F := F)) W (Proc.devRef .tc main_v37)
      = aggregate128 (W (Proc.devRef .tc main_v27)) (W (Proc.devRef .tc main_v3)) (W (Proc.devRef .tc main_v6)) := by
  after_results; rfl

theorem stretch2_bias (W : Valuation τ sig (Elt F)) :
    StableHlo.after (hostOps2 (F := F)) W (Proc.devRef .tc main_v38)
      = shapeCast S1x128 (W (Proc.devRef .tc main_arg5) : (⟨S128, .f32⟩ : BufTy).Contents (Elt F)) shapeCasts_S128_S1x128 := by
  after_results; rfl

set_option maxHeartbeats 4000000 in
theorem stretch3_agg (W : Valuation τ sig (Elt F)) :
    StableHlo.after (hostOps3 (F := F)) W (Proc.devRef .tc main_v49)
      = aggregate64 (W (Proc.devRef .tc main_v39)) (W (Proc.devRef .tc main_v3)) (W (Proc.devRef .tc main_v6)) := by
  after_results; rfl

set_option maxHeartbeats 4000000 in
theorem stretch3_bias3 (W : Valuation τ sig (Elt F)) :
    StableHlo.after (hostOps3 (F := F)) W (Proc.devRef .tc main_v50)
      = shapeCast S1x64 (W (Proc.devRef .tc main_arg7) : (⟨S64, .f32⟩ : BufTy).Contents (Elt F)) shapeCasts_S64_S1x64 := by
  after_results; rfl

set_option maxHeartbeats 4000000 in
theorem stretch3_biasc1 (W : Valuation τ sig (Elt F)) :
    StableHlo.after (hostOps3 (F := F)) W (Proc.devRef .tc main_v51)
      = shapeCast S1x32 (W (Proc.devRef .tc main_arg9) : (⟨S32, .f32⟩ : BufTy).Contents (Elt F)) shapeCasts_S32_S1x32 := by
  after_results; rfl

set_option maxHeartbeats 4000000 in
theorem stretch3_biasc2 (W : Valuation τ sig (Elt F)) :
    StableHlo.after (hostOps3 (F := F)) W (Proc.devRef .tc main_v52)
      = shapeCast S1x2 (W (Proc.devRef .tc main_arg11) : (⟨S2, .f32⟩ : BufTy).Contents (Elt F)) shapeCasts_S2_S1x2 := by
  after_results; rfl

/-! ## The first stretch: the lists, the degrees, the normaliser -/

/-- The source list: row 0 of the edge array, then one self-loop per node. -/
def srcList (E : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] E slices_S2x1600000_S1x1600000_0_0) shapeCasts_S1x1600000_S1600000⟩,
      ⟨S100000, iotaInDim S100000 32 0⟩]
    concatenates_S1600000_S100000_S1700000_d0

/-- The destination list: row 1 of the edge array, then one self-loop per node. -/
def dstList (E : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] E slices_S2x1600000_S1x1600000_1_0) shapeCasts_S1x1600000_S1600000⟩,
      ⟨S100000, iotaInDim S100000 32 0⟩]
    concatenates_S1600000_S100000_S1700000_d0

/-- A node's degree: ones added up, from zero, at the rows the destination list names. -/
def degVec (dst : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ FTy.f32 0x00000000#32)) (rawCol dst)
    (broadcastInDim S1700000 ![] bcast_S_S1700000 (constant S_ FTy.f32 0x3F800000#32))

/-- The normaliser  1/√(max(deg, 1))  as a vector, -/
def normVec (dst : (⟨S1700000, .i32⟩ : BufTy).Contents (Elt F)) : (⟨S100000, .f32⟩ : BufTy).Contents (Elt F) :=
  Host.rsqrt (maximumf (degVec dst) (broadcastInDim S100000 ![] bcast_S_S100000 (constant S_ FTy.f32 0x3F800000#32)))

/-- and as the column the kernel regions stage. -/
def normCol (dst : (⟨S1700000, .i32⟩ : BufTy).Contents (Elt F)) : (⟨S100000x1, .f32⟩ : BufTy).Contents (Elt F) :=
  shapeCast S100000x1 (normVec dst) shapeCasts_S100000_S100000x1

set_option maxHeartbeats 4000000 in
theorem stretch0_src (W : Valuation τ sig (Elt F)) :
    StableHlo.after (hostOps0 (F := F)) W (Proc.devRef .tc main_v3) = srcList (W (Proc.devRef .tc main_arg1)) := by
  after_results; rfl

set_option maxHeartbeats 4000000 in
theorem stretch0_dst (W : Valuation τ sig (Elt F)) :
    StableHlo.after (hostOps0 (F := F)) W (Proc.devRef .tc main_v6) = dstList (W (Proc.devRef .tc main_arg1)) := by
  after_results; rfl

set_option maxHeartbeats 4000000 in
theorem stretch0_norm (W : Valuation τ sig (Elt F)) :
    StableHlo.after (hostOps0 (F := F)) W (Proc.devRef .tc main_v14) = normCol (dstList (W (Proc.devRef .tc main_arg1))) := by
  after_results; rfl

end Cert.KernelIdeal.Hand

end
-- ==== Proof.KernelIdealSpec.lean ====
/-
  What each of the first three kernel regions computes, as ONE function of its whole operand arrays, entry by entry on the
  extended reals. A graph-convolution layer with symmetric normalisation is  out[v] = Σ_{e → v} h[src e] · (s[src e] · s[v]) + b ,
  h = x · W ,  s[v] = 1/√(max(deg v, 1)) . The kernel applies the normaliser s at the NODES instead of at the edges: it scales the
  rows of h by s before the messages are gathered (region 0: `rowsScaled`), and scales the aggregated rows by s again when it adds
  the bias and takes the positive part, feeding the next layer's product in the same pass (regions 1 and 2: `layerStep`).
  Rows are indexed by `Fin 100000`, features by `Fin 64` / `Fin 128`; the normaliser is a column `[100000, 1]`, a bias a row `[1, C]`.
-/
import proofs.«156777_j82712480186688_2_alg».proof.KernelIdeal
import Idealize.ShloMosaic.PureOps.Ideal
import Idealize.ShloMosaic.Lib.ValueIdx

noncomputable section

namespace Cert.KernelIdeal.Hand

open Idealize.ShloMosaic Idealize.ShloMosaic.ValueIdx Cert.KernelIdeal

/-- The f32 zero word, read on the extended reals (it is `0`; never evaluated where both sides carry the same word). -/
abbrev zeroW : EReal := Ideal.ofBits .f32 0x00000000#32

/-- Region 0: row `r` of `x · W` scaled by the node's normaliser `s r`:  (Σ_k x[r,k] · W[k,e]) · s[r] . -/
def rowsScaled (x : FVec Ideal S100000x64 .f32) (w : FVec Ideal S64x128 .f32) (s : FVec Ideal S100000x1 .f32) :
    FVec Ideal S100000x128 .f32 := fun j =>
  let r : Fin 100000 := j 0
  let e : Fin 128 := j 1
  (∑ k : Fin 64, x (ix2 r k) * w (ix2 k e)) * s (ix2 r (0 : Fin 1))

theorem rowsScaled_apply (x : FVec Ideal S100000x64 .f32) (w : FVec Ideal S64x128 .f32) (s : FVec Ideal S100000x1 .f32)
    (r : Fin 100000) (e : Fin 128) :
    rowsScaled x w s (ix2 r e) = (∑ k : Fin 64, x (ix2 r k) * w (ix2 k e)) * s (ix2 r (0 : Fin 1)) := rfl

/-- The activation a layer boundary finishes: the aggregated row scaled by the node's normaliser, plus the bias, positive part:
    max (s[r] · agg[r,k] + b[k]) 0 . -/
def act128 (agg : FVec Ideal S100000x128 .f32) (s : FVec Ideal S100000x1 .f32) (b : FVec Ideal S1x128 .f32)
    (r : Fin 100000) (k : Fin 128) : EReal :=
  max (s (ix2 r (0 : Fin 1)) * agg (ix2 r k) + b (ix2 (0 : Fin 1) k)) zeroW

/-- Region 1: the finished activation of layer 1 times the next weights, scaled by the node's normaliser:
    (Σ_k act[r,k] · W[k,e]) · s[r] . -/
def layerStep128 (agg : FVec Ideal S100000x128 .f32) (s : FVec Ideal S100000x1 .f32) (b : FVec Ideal S1x128 .f32)
    (w : FVec Ideal S128x128 .f32) : FVec Ideal S100000x128 .f32 := fun j =>
  let r : Fin 100000 := j 0
  let e : Fin 128 := j 1
  (∑ k : Fin 128, act128 agg s b r k * w (ix2 k e)) * s (ix2 r (0 : Fin 1))

theorem layerStep128_apply (agg : FVec Ideal S100000x128 .f32) (s : FVec Ideal S100000x1 .f32) (b : FVec Ideal S1x128 .f32)
    (w : FVec Ideal S128x128 .f32) (r : Fin 100000) (e : Fin 128) :
    layerStep128 agg s b w (ix2 r e) = (∑ k : Fin 128, act128 agg s b r k * w (ix2 k e)) * s (ix2 r (0 : Fin 1)) := rfl

/-- Region 2: the same step into 64 features. -/
def layerStep64 (agg : FVec Ideal S100000x128 .f32) (s : FVec Ideal S100000x1 .f32) (b : FVec Ideal S1x128 .f32)
    (w : FVec Ideal S128x64 .f32) : FVec Ideal S100000x64 .f32 := fun j =>
  let r : Fin 100000 := j 0
  let e : Fin 64 := j 1
  (∑ k : Fin 128, act128 agg s b r k * w (ix2 k e)) * s (ix2 r (0 : Fin 1))

theorem layerStep64_apply (agg : FVec Ideal S100000x128 .f32) (s : FVec Ideal S100000x1 .f32) (b : FVec Ideal S1x128 .f32)
    (w : FVec Ideal S128x64 .f32) (r : Fin 100000) (e : Fin 64) :
    layerStep64 agg s b w (ix2 r e) = (∑ k : Fin 128, act128 agg s b r k * w (ix2 k e)) * s (ix2 r (0 : Fin 1)) := rfl

/-- The last layer's activation, 64 features wide:  max (s[r] · agg[r,f] + b[f]) 0 . -/
def act64 (agg : FVec Ideal S100000x64 .f32) (s : FVec Ideal S100000x1 .f32) (b : FVec Ideal S1x64 .f32)
    (r : Fin 100000) (f : Fin 64) : EReal :=
  max (s (ix2 r (0 : Fin 1)) * agg (ix2 r f) + b (ix2 (0 : Fin 1) f)) zeroW

end Cert.KernelIdeal.Hand

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.KernelIdealValueLib.lean ====
/-
  The three row-block payloads read at one entry, on the extended reals.

  Each of the first three kernel bodies stores ONE value over its whole output block: a plain matrix product of a
  [5000, K] block with a [K, N] weight matrix into the zero accumulator, every row of which is then scaled by that row's
  entry of a [5000, 1] column. In the second and third bodies the left factor is itself computed entry by entry from the
  aggregated block: the row's column entry times the entry, plus the bias row's entry, positive part. Narrowing the
  float format is the identity on the extended reals, so entry (p, e) of the stored block is
  (Σ_k left[p, k] · W[k, e]) · s[p].
-/
import proofs.«156777_j82712480186688_2_alg».proof.Proof.Gen.KernelIdeal.Skeleton
import proofs.«156777_j82712480186688_2_alg».proof.Proof.KernelIdealSpec
import proofs.«156777_j82712480186688_2_alg».proof.Proof.LibPlainMatmul
import proofs.«156777_j82712480186688_2_alg».proof.Proof.LibKeepdims
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx Cert.LibKeepdims

/-- The offset of a whole-block rectangle is zero on both axes. -/
theorem off_zero2 : (![0, 0] : Fin 2 → Nat) = fun _ => 0 := funext fun a => by fin_cases a <;> rfl

/-- Entry (r, e) of a plain [M, K] × [K, N] product into the zero accumulator, as a kernel body spells the product. -/
theorem matmul_zero_entry {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    matmul d prec lhs rhs (constant (F := Ideal) ⟨2, ![M, N]⟩ .f32 0x00000000#32) (ix2 r e)
      = ∑ k : Fin K, lhs (ix2 r k) * rhs (ix2 k e) :=
  matmul_plain_zero_apply d hd prec lhs rhs r e

/-- Entry (p, e) of the first body's stored block: row p of the input block times column e of the weights, scaled by the
    row's column entry. -/
theorem k0_pay1_apply (v0 : Vec Ideal S5000x64 .f32) (v2 : Vec Ideal S64x128 .f32) (v5 : Vec Ideal S5000x1 .f32)
    (p : Fin 5000) (e : Fin 128) :
    k0_pay1 v0 v2 v5 (ix2 p e) = (∑ k : Fin 64, v0 (ix2 p k) * v2 (ix2 k e)) * v5 (ix2 p (0 : Fin 1)) := by
  unfold k0_pay1
  simp only [shapeCast_self]
  rw [mulf_apply, matmul_zero_entry dot_S5000x64_S64x128_S5000x128_1_0_0_1_n_n rfl, broadcastTo_a1_ac_apply]
  rfl

/-- Entry (p, e) of the second body's stored block. -/
theorem k1_pay1_apply (v0 : Vec Ideal S5000x1 .f32) (v2 : Vec Ideal S5000x128 .f32) (v6 : Vec Ideal S1x128 .f32)
    (v13 : Vec Ideal S128x128 .f32) (v16 : Vec Ideal S5000x1 .f32) (p : Fin 5000) (e : Fin 128) :
    k1_pay1 v0 v2 v6 v13 v16 (ix2 p e)
      = (∑ k : Fin 128, max (v0 (ix2 p (0 : Fin 1)) * v2 (ix2 p k) + v6 (ix2 (0 : Fin 1) k)) zeroW * v13 (ix2 k e))
          * v16 (ix2 p (0 : Fin 1)) := by
  unfold k1_pay1
  simp only [shapeCast_self]
  rw [mulf_apply, matmul_zero_entry dot_S5000x128_S128x128_S5000x128_1_0_0_1_n_n rfl, broadcastTo_a1_ac_apply]
  congr 1
  refine Finset.sum_congr rfl fun k _ => ?_
  rw [truncf_apply, truncf_apply, maximumf_apply, addf_apply, mulf_apply, broadcastTo_a1_ac_apply,
    broadcastTo_1b_ab_apply, broadcast_apply]
  rfl

/-- Entry (p, e) of the third body's stored block. -/
theorem k2_pay1_apply (v0 : Vec Ideal S5000x1 .f32) (v2 : Vec Ideal S5000x128 .f32) (v6 : Vec Ideal S1x128 .f32)
    (v13 : Vec Ideal S128x64 .f32) (v16 : Vec Ideal S5000x1 .f32) (p : Fin 5000) (e : Fin 64) :
    k2_pay1 v0 v2 v6 v13 v16 (ix2 p e)
      = (∑ k : Fin 128, max (v0 (ix2 p (0 : Fin 1)) * v2 (ix2 p k) + v6 (ix2 (0 : Fin 1) k)) zeroW * v13 (ix2 k e))
          * v16 (ix2 p (0 : Fin 1)) := by
  unfold k2_pay1
  simp only [shapeCast_self]
  rw [mulf_apply, matmul_zero_entry dot_S5000x128_S128x64_S5000x64_1_0_0_1_n_n rfl, broadcastTo_a1_ac_apply]
  congr 1
  refine Finset.sum_congr rfl fun k _ => ?_
  rw [truncf_apply, truncf_apply, maximumf_apply, addf_apply, mulf_apply, broadcastTo_a1_ac_apply,
    broadcastTo_1b_ab_apply, broadcast_apply]
  rfl

end Cert.KernelIdeal.Hand

end
-- ==== Proof.KernelIdealValue0.lean ====
/-
  Region 0, from blocks to the array: the array the region leaves in its output window is the rows of x · W scaled by the
  normaliser column, as ONE function of the three operand arrays.

  The grid has 20 points; point t's blocks are rows 5000·t … 5000·t + 4999 of the row-blocked arrays (the input, the
  normaliser column, the output) and the whole weight matrix. What point t writes back is therefore block t of the
  whole-array function, and the 20 row blocks cover the 100000 rows: row r lies in the block of point r / 5000.
-/
import proofs.«156777_j82712480186688_2_alg».proof.Proof.KernelIdealRegion0
import proofs.«156777_j82712480186688_2_alg».proof.Proof.KernelIdealValueLib

noncomputable section

namespace Cert.KernelIdeal.Hand

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The block indices of the four windows at every grid point: the row-blocked windows sit at block row t, the weights
    at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every point writes the output block back. -/
theorem flush_all0 : ∀ t : Fin cfg0.N, (cfg0.win 3).flush t = true :=
  (by decide +kernel : ∀ t : Fin grid0.N, _)

/-- What point t writes back is block t of the whole-array function. -/
theorem flushed0_eq (c : Dev nD) (t : Fin cfg0.N) :
    (dat0 (F := Ideal) V c).flushed 3 t
      = ((cfg0.win 3).blk t).view.read (Elt Ideal) (rowsScaled (V c main_arg0) (V c main_arg2) (V c main_v14)) := by
  show (cfg0.win 3).cut (grid0.coords t) ((dat0 V c).after 3 t) = _
  rw [after0_3]
  unfold out0_3
  rw [View.canon_unit_zero off_zero2]
  simp only [View.ld_unit_zero (S := S5000x64) off_zero2, View.ld_unit_zero (S := S64x128) off_zero2,
    View.ld_unit_zero (S := S5000x1) off_zero2]
  obtain ⟨e00, e01, e10, e11, e20, e21, e30, e31⟩ := idx_facts0 t
  have ht : t.val < 20 := t.isLt
  funext j
  obtain ⟨p, e, rfl⟩ : ∃ (p : Fin 5000) (e : Fin 128), j = ix2 p e := ⟨j 0, j 1, eq_ix2 j⟩
  have hp : t.val * 5000 + p.val < 100000 := by have := p.isLt; omega
  show k0_pay1 (iblk0 V c 0 t) (iblk0 V c 1 t) (iblk0 V c 2 t) (ix2 p e)
    = rowsScaled (V c main_arg0) (V c main_arg2) (V c main_v14) (((cfg0.win 3).blk t).view.emb (ix2 p e))
  have hout : ((cfg0.win 3).blk t).view.emb (ix2 p e) = (ix2 ⟨t.val * 5000 + p.val, hp⟩ e : S100000x128.Idx) := by
    funext a; apply Fin.ext
    match a with
    | ⟨0, _⟩ => show win0_3.index t (0 : Fin 2) * 5000 + 1 * p.val = t.val * 5000 + p.val; rw [e30]; omega
    | ⟨1, _⟩ => show win0_3.index t (1 : Fin 2) * 128 + 1 * e.val = e.val; rw [e31]; omega
  have r0 : ∀ k : Fin 64, (iblk0 V c 0 t : S5000x64.Idx → EReal) (ix2 p k)
      = (V c main_arg0 : S100000x64.Idx → EReal) (ix2 ⟨t.val * 5000 + p.val, hp⟩ k) := fun k => by
    unfold iblk0
    rw [View.read_apply]
    refine congrArg (V c main_arg0 : S100000x64.Idx → EReal) ?_
    funext a; apply Fin.ext
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  have r1 : ∀ k : Fin 64, (iblk0 V c 1 t : S64x128.Idx → EReal) (ix2 k e)
      = (V c main_arg2 : S64x128.Idx → EReal) (ix2 k e) := fun k => by
    unfold iblk0
    rw [View.read_apply]
    refine congrArg (V c main_arg2 : S64x128.Idx → EReal) ?_
    funext a; apply Fin.ext
    match a with
    | ⟨0, _⟩ => show win0_1.index t (0 : Fin 2) * 64 + 1 * k.val = k.val; rw [e10]; omega
    | ⟨1, _⟩ => show win0_1.index t (1 : Fin 2) * 128 + 1 * e.val = e.val; rw [e11]; omega
  have r2 : (iblk0 V c 2 t : S5000x1.Idx → EReal) (ix2 p (0 : Fin 1))
      = (V c main_v14 : S100000x1.Idx → EReal) (ix2 ⟨t.val * 5000 + p.val, hp⟩ (0 : Fin 1)) := by
    unfold iblk0
    rw [View.read_apply]
    refine congrArg (V c main_v14 : S100000x1.Idx → EReal) ?_
    funext a; apply Fin.ext
    match a with
    | ⟨0, _⟩ => show win0_2.index t (0 : Fin 2) * 5000 + 1 * p.val = t.val * 5000 + p.val; rw [e20]; omega
    | ⟨1, _⟩ => show win0_2.index t (1 : Fin 2) * 1 + 1 * 0 = 0; rw [e21]
  rw [k0_pay1_apply, hout, rowsScaled_apply, r2]
  congr 1
  exact Finset.sum_congr rfl fun k _ => by rw [r0 k, r1 k]

/-- An index of the array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- The 20 row blocks cover the array: row r lies in the block of point r / 5000. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21, e30, e31⟩ := idx_facts0 t
  have htv : t.val = (i 0).val / 5000 := rfl
  refine ⟨t, flush_all0 t, ?_⟩
  rw [mem_blk0]
  intro a
  match a with
  | ⟨0, _⟩ =>
    show win0_3.index t (0 : Fin 2) * 5000 ≤ (i 0).val ∧ (i 0).val < win0_3.index t (0 : Fin 2) * 5000 + 5000
    rw [e30, htv]; omega
  | ⟨1, _⟩ =>
    show win0_3.index t (1 : Fin 2) * 128 ≤ (i 1).val ∧ (i 1).val < win0_3.index t (1 : Fin 2) * 128 + 128
    rw [e31]; omega

/-- The array region 0 leaves in its output window: the rows of x · W scaled by the normaliser column. -/
theorem final0 (c : Dev nD) :
    (dat0 (F := Ideal) V c).arrAt 3 cfg0.N = rowsScaled (V c main_arg0) (V c main_arg2) (V c main_v14) :=
  (dat0 (F := Ideal) V c).arrAt_eq_of_cover 3 (rowsScaled (V c main_arg0) (V c main_arg2) (V c main_v14))
    (fun t _ => flushed0_eq V c t) cover0

end Cert.KernelIdeal.Hand

end
-- ==== Proof.KernelIdealValue1.lean ====
/-
  Region 1, from blocks to the array: the array the region leaves in its output window is the finished activation of the
  aggregated rows (normaliser times the row, plus the bias, positive part) times the next weights, scaled by the
  normaliser again, as ONE function of the four operand arrays.

  The grid has 20 points; point t's blocks are rows 5000·t … 5000·t + 4999 of the row-blocked arrays (the aggregated rows,
  the normaliser column, the output), the whole bias row and the whole weight matrix. What point t writes back is
  therefore block t of the whole-array function, and the 20 row blocks cover the 100000 rows: row r lies in the block of
  point r / 5000.
-/
import proofs.«156777_j82712480186688_2_alg».proof.Proof.KernelIdealRegion1
import proofs.«156777_j82712480186688_2_alg».proof.Proof.KernelIdealValueLib

noncomputable section

namespace Cert.KernelIdeal.Hand

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The block indices of the five windows at every grid point: the row-blocked windows sit at block row t, the bias row
    and the weights at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Every point writes the output block back. -/
theorem flush_all1 : ∀ t : Fin cfg1.N, (cfg1.win 4).flush t = true :=
  (by decide +kernel : ∀ t : Fin grid1.N, _)

/-- What point t writes back is block t of the whole-array function. -/
theorem flushed1_eq (c : Dev nD) (t : Fin cfg1.N) :
    (dat1 (F := Ideal) V c).flushed 4 t
      = ((cfg1.win 4).blk t).view.read (Elt Ideal) (layerStep128 (V c main_v25) (V c main_v14) (V c main_v26) (V c main_arg4)) := by
  show (cfg1.win 4).cut (grid1.coords t) ((dat1 V c).after 4 t) = _
  rw [after1_4]
  unfold out1_4
  rw [View.canon_unit_zero off_zero2]
  simp only [View.ld_unit_zero (S := S5000x128) off_zero2, View.ld_unit_zero (S := S5000x1) off_zero2,
    View.ld_unit_zero (S := S1x128) off_zero2, View.ld_unit_zero (S := S128x128) off_zero2]
  obtain ⟨e00, e01, e10, e11, e20, e21, e30, e31, e40, e41⟩ := idx_facts1 t
  have ht : t.val < 20 := t.isLt
  funext j
  obtain ⟨p, e, rfl⟩ : ∃ (p : Fin 5000) (e : Fin 128), j = ix2 p e := ⟨j 0, j 1, eq_ix2 j⟩
  have hp : t.val * 5000 + p.val < 100000 := by have := p.isLt; omega
  show k1_pay1 (iblk1 V c 1 t) (iblk1 V c 0 t) (iblk1 V c 2 t) (iblk1 V c 3 t) (iblk1 V c 1 t) (ix2 p e)
    = layerStep128 (V c main_v25) (V c main_v14) (V c main_v26) (V c main_arg4) (((cfg1.win 4).blk t).view.emb (ix2 p e))
  have hout : ((cfg1.win 4).blk t).view.emb (ix2 p e) = (ix2 ⟨t.val * 5000 + p.val, hp⟩ e : S100000x128.Idx) := by
    funext a; apply Fin.ext
    match a with
    | ⟨0, _⟩ => show win1_4.index t (0 : Fin 2) * 5000 + 1 * p.val = t.val * 5000 + p.val; rw [e40]; omega
    | ⟨1, _⟩ => show win1_4.index t (1 : Fin 2) * 128 + 1 * e.val = e.val; rw [e41]; omega
  have r0 : ∀ k : Fin 128, (iblk1 V c 0 t : S5000x128.Idx → EReal) (ix2 p k)
      = (V c main_v25 : S100000x128.Idx → EReal) (ix2 ⟨t.val * 5000 + p.val, hp⟩ k) := fun k => by
    unfold iblk1
    rw [View.read_apply]
    refine congrArg (V c main_v25 : S100000x128.Idx → EReal) ?_
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  have r1 : (iblk1 V c 1 t : S5000x1.Idx → EReal) (ix2 p (0 : Fin 1))
      = (V c main_v14 : S100000x1.Idx → EReal) (ix2 ⟨t.val * 5000 + p.val, hp⟩ (0 : Fin 1)) := by
    unfold iblk1
    rw [View.read_apply]
    refine congrArg (V c main_v14 : S100000x1.Idx → EReal) ?_
    funext a; apply Fin.ext
    match a with
    | ⟨0, _⟩ => show win1_1.index t (0 : Fin 2) * 5000 + 1 * p.val = t.val * 5000 + p.val; rw [e10]; omega
    | ⟨1, _⟩ => show win1_1.index t (1 : Fin 2) * 1 + 1 * 0 = 0; rw [e11]
  have r2 : ∀ k : Fin 128, (iblk1 V c 2 t : S1x128.Idx → EReal) (ix2 (0 : Fin 1) k)
      = (V c main_v26 : S1x128.Idx → EReal) (ix2 (0 : Fin 1) k) := fun k => by
    unfold iblk1
    rw [View.read_apply]
    refine congrArg (V c main_v26 : S1x128.Idx → EReal) ?_
    funext a; apply Fin.ext
    match a with
    | ⟨0, _⟩ => show win1_2.index t (0 : Fin 2) * 1 + 1 * 0 = 0; rw [e20]
    | ⟨1, _⟩ => show win1_2.index t (1 : Fin 2) * 128 + 1 * k.val = k.val; rw [e21]; omega
  have r3 : ∀ k : Fin 128, (iblk1 V c 3 t : S128x128.Idx → EReal) (ix2 k e)
      = (V c main_arg4 : S128x128.Idx → EReal) (ix2 k e) := fun k => by
    unfold iblk1
    rw [View.read_apply]
    refine congrArg (V c main_arg4 : S128x128.Idx → EReal) ?_
    funext a; apply Fin.ext
    match a with
    | ⟨0, _⟩ => show win1_3.index t (0 : Fin 2) * 128 + 1 * k.val = k.val; rw [e30]; omega
    | ⟨1, _⟩ => show win1_3.index t (1 : Fin 2) * 128 + 1 * e.val = e.val; rw [e31]; omega
  rw [k1_pay1_apply, hout, layerStep128_apply, r1]
  congr 1
  refine Finset.sum_congr rfl fun k _ => ?_
  rw [r0 k, r2 k, r3 k]
  rfl

/-- An index of the array is in point t's block iff each coordinate is in the block's range on its axis. -/
theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- The 20 row blocks cover the array: row r lies in the block of point r / 5000. -/
theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21, e30, e31, e40, e41⟩ := idx_facts1 t
  have htv : t.val = (i 0).val / 5000 := rfl
  refine ⟨t, flush_all1 t, ?_⟩
  rw [mem_blk1]
  intro a
  match a with
  | ⟨0, _⟩ =>
    show win1_4.index t (0 : Fin 2) * 5000 ≤ (i 0).val ∧ (i 0).val < win1_4.index t (0 : Fin 2) * 5000 + 5000
    rw [e40, htv]; omega
  | ⟨1, _⟩ =>
    show win1_4.index t (1 : Fin 2) * 128 ≤ (i 1).val ∧ (i 1).val < win1_4.index t (1 : Fin 2) * 128 + 128
    rw [e41]; omega

/-- The array region 1 leaves in its output window. -/
theorem final1 (c : Dev nD) :
    (dat1 (F := Ideal) V c).arrAt 4 cfg1.N = layerStep128 (V c main_v25) (V c main_v14) (V c main_v26) (V c main_arg4) :=
  (dat1 (F := Ideal) V c).arrAt_eq_of_cover 4 (layerStep128 (V c main_v25) (V c main_v14) (V c main_v26) (V c main_arg4))
    (fun t _ => flushed1_eq V c t) cover1

end Cert.KernelIdeal.Hand

end
-- ==== Proof.KernelIdealValue2.lean ====
/-
  Region 2, from blocks to the array: the array the region leaves in its output window is the finished activation of the
  aggregated rows (normaliser times the row, plus the bias, positive part) times the next weights, scaled by the
  normaliser again, as ONE function of the four operand arrays.

  The grid has 20 points; point t's blocks are rows 5000·t … 5000·t + 4999 of the row-blocked arrays (the aggregated rows,
  the normaliser column, the output), the whole bias row and the whole weight matrix. What point t writes back is
  therefore block t of the whole-array function, and the 20 row blocks cover the 100000 rows: row r lies in the block of
  point r / 5000.
-/
import proofs.«156777_j82712480186688_2_alg».proof.Proof.KernelIdealRegion2
import proofs.«156777_j82712480186688_2_alg».proof.Proof.KernelIdealValueLib

noncomputable section

namespace Cert.KernelIdeal.Hand

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The block indices of the five windows at every grid point: the row-blocked windows sit at block row t, the bias row
    and the weights at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Every point writes the output block back. -/
theorem flush_all2 : ∀ t : Fin cfg2.N, (cfg2.win 4).flush t = true :=
  (by decide +kernel : ∀ t : Fin grid2.N, _)

/-- What point t writes back is block t of the whole-array function. -/
theorem flushed2_eq (c : Dev nD) (t : Fin cfg2.N) :
    (dat2 (F := Ideal) V c).flushed 4 t
      = ((cfg2.win 4).blk t).view.read (Elt Ideal) (layerStep64 (V c main_v37) (V c main_v14) (V c main_v38) (V c main_arg6)) := by
  show (cfg2.win 4).cut (grid2.coords t) ((dat2 V c).after 4 t) = _
  rw [after2_4]
  unfold out2_4
  rw [View.canon_unit_zero off_zero2]
  simp only [View.ld_unit_zero (S := S5000x128) off_zero2, View.ld_unit_zero (S := S5000x1) off_zero2,
    View.ld_unit_zero (S := S1x128) off_zero2, View.ld_unit_zero (S := S128x64) off_zero2]
  obtain ⟨e00, e01, e10, e11, e20, e21, e30, e31, e40, e41⟩ := idx_facts2 t
  have ht : t.val < 20 := t.isLt
  funext j
  obtain ⟨p, e, rfl⟩ : ∃ (p : Fin 5000) (e : Fin 64), j = ix2 p e := ⟨j 0, j 1, eq_ix2 j⟩
  have hp : t.val * 5000 + p.val < 100000 := by have := p.isLt; omega
  show k2_pay1 (iblk2 V c 1 t) (iblk2 V c 0 t) (iblk2 V c 2 t) (iblk2 V c 3 t) (iblk2 V c 1 t) (ix2 p e)
    = layerStep64 (V c main_v37) (V c main_v14) (V c main_v38) (V c main_arg6) (((cfg2.win 4).blk t).view.emb (ix2 p e))
  have hout : ((cfg2.win 4).blk t).view.emb (ix2 p e) = (ix2 ⟨t.val * 5000 + p.val, hp⟩ e : S100000x64.Idx) := by
    funext a; apply Fin.ext
    match a with
    | ⟨0, _⟩ => show win2_4.index t (0 : Fin 2) * 5000 + 1 * p.val = t.val * 5000 + p.val; rw [e40]; omega
    | ⟨1, _⟩ => show win2_4.index t (1 : Fin 2) * 64 + 1 * e.val = e.val; rw [e41]; omega
  have r0 : ∀ k : Fin 128, (iblk2 V c 0 t : S5000x128.Idx → EReal) (ix2 p k)
      = (V c main_v37 : S100000x128.Idx → EReal) (ix2 ⟨t.val * 5000 + p.val, hp⟩ k) := fun k => by
    unfold iblk2
    rw [View.read_apply]
    refine congrArg (V c main_v37 : S100000x128.Idx → EReal) ?_
    funext a; apply Fin.ext
    match a with
    | ⟨0, _⟩ => show win2_0.index t (0 : Fin 2) * 5000 + 1 * p.val = t.val * 5000 + p.val; rw [e00]; omega
    | ⟨1, _⟩ => show win2_0.index t (1 : Fin 2) * 128 + 1 * k.val = k.val; rw [e01]; omega
  have r1 : (iblk2 V c 1 t : S5000x1.Idx → EReal) (ix2 p (0 : Fin 1))
      = (V c main_v14 : S100000x1.Idx → EReal) (ix2 ⟨t.val * 5000 + p.val, hp⟩ (0 : Fin 1)) := by
    unfold iblk2
    rw [View.read_apply]
    refine congrArg (V c main_v14 : S100000x1.Idx → EReal) ?_
    funext a; apply Fin.ext
    match a with
    | ⟨0, _⟩ => show win2_1.index t (0 : Fin 2) * 5000 + 1 * p.val = t.val * 5000 + p.val; rw [e10]; omega
    | ⟨1, _⟩ => show win2_1.index t (1 : Fin 2) * 1 + 1 * 0 = 0; rw [e11]
  have r2 : ∀ k : Fin 128, (iblk2 V c 2 t : S1x128.Idx → EReal) (ix2 (0 : Fin 1) k)
      = (V c main_v38 : S1x128.Idx → EReal) (ix2 (0 : Fin 1) k) := fun k => by
    unfold iblk2
    rw [View.read_apply]
    refine congrArg (V c main_v38 : S1x128.Idx → EReal) ?_
    funext a; apply Fin.ext
    match a with
    | ⟨0, _⟩ => show win2_2.index t (0 : Fin 2) * 1 + 1 * 0 = 0; rw [e20]
    | ⟨1, _⟩ => show win2_2.index t (1 : Fin 2) * 128 + 1 * k.val = k.val; rw [e21]; omega
  have r3 : ∀ k : Fin 128, (iblk2 V c 3 t : S128x64.Idx → EReal) (ix2 k e)
      = (V c main_arg6 : S128x64.Idx → EReal) (ix2 k e) := fun k => by
    unfold iblk2
    rw [View.read_apply]
    refine congrArg (V c main_arg6 : S128x64.Idx → EReal) ?_
    funext a; apply Fin.ext
    match a with
    | ⟨0, _⟩ => show win2_3.index t (0 : Fin 2) * 128 + 1 * k.val = k.val; rw [e30]; omega
    | ⟨1, _⟩ => show win2_3.index t (1 : Fin 2) * 64 + 1 * e.val = e.val; rw [e31]; omega
  rw [k2_pay1_apply, hout, layerStep64_apply, r1]
  congr 1
  refine Finset.sum_congr rfl fun k _ => ?_
  rw [r0 k, r2 k, r3 k]
  rfl

/-- An index of the array is in point t's block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v39).slice (win2_4.rect t)).set ↔ _
  rw [View.set_slice_whole, Rect.mem_set_unit]
  exact Iff.rfl

/-- The 20 row blocks cover the array: row r lies in the block of point r / 5000. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e00, e01, e10, e11, e20, e21, e30, e31, e40, e41⟩ := idx_facts2 t
  have htv : t.val = (i 0).val / 5000 := rfl
  refine ⟨t, flush_all2 t, ?_⟩
  rw [mem_blk2]
  intro a
  match a with
  | ⟨0, _⟩ =>
    show win2_4.index t (0 : Fin 2) * 5000 ≤ (i 0).val ∧ (i 0).val < win2_4.index t (0 : Fin 2) * 5000 + 5000
    rw [e40, htv]; omega
  | ⟨1, _⟩ =>
    show win2_4.index t (1 : Fin 2) * 64 ≤ (i 1).val ∧ (i 1).val < win2_4.index t (1 : Fin 2) * 64 + 64
    rw [e41]; omega

/-- The array region 2 leaves in its output window. -/
theorem final2 (c : Dev nD) :
    (dat2 (F := Ideal) V c).arrAt 4 cfg2.N = layerStep64 (V c main_v37) (V c main_v14) (V c main_v38) (V c main_arg6) :=
  (dat2 (F := Ideal) V c).arrAt_eq_of_cover 4 (layerStep64 (V c main_v37) (V c main_v14) (V c main_v38) (V c main_arg6))
    (fun t _ => flushed2_eq V c t) cover2

end Cert.KernelIdeal.Hand

end
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.LibSoftmaxRows.lean ====
/-
  The softmax of every row of an f32 matrix, as the vector operations a kernel body spells it with, read at an entry
  on the extended reals, for any extents.

  For an [a, b] matrix s,  m = max(s, axis=-1, keepdims=True); p = exp(s - m); p / sum(p, axis=-1, keepdims=True)  is:
  a maximum over the last axis started at minus infinity, kept as a column and spread back over the rows; a
  subtraction and an exponential; a sum over the last axis started at zero, kept as a column and spread back; a
  division; and, where a product in a narrower format follows, a narrowing, which is the identity on the extended
  reals.  Read at (r, c) the chain is
      exp (s[r, c] − max_c' s[r, c']) / Σ_c'' exp (s[r, c''] − max_c' s[r, c']).
  The same function is written once over plain matrices (`rowMax`, `expShift`, `softmax`), so that the other side of
  a comparison can be shown equal to it too; a host program that takes the row maximum once more against minus
  infinity changes nothing (`max_fold_max`).
-/
import proofs.«156777_j82712480186688_2_alg».proof.Proof.LibKeepdims
import proofs.«156777_j82712480186688_2_alg».proof.Proof.LibUnitAxes

noncomputable section

open scoped BigOperators

namespace Cert.LibSoftmaxRows

open Idealize.ShloMosaic Idealize.ShloMosaic.ValueIdx

/-- An a × b matrix of extended reals. -/
abbrev Mat (a b : ℕ) : Type := Fin a → Fin b → EReal

/-- A rank-2 vector value as a matrix. -/
abbrev mat {a b : ℕ} {φ : FTy} (v : FVec Ideal ⟨2, ![a, b]⟩ φ) : Mat a b := fun r e => v (ix2 r e)

/-- The f32 word of minus infinity, where a row maximum starts. -/
abbrev negInf : EReal := Ideal.ofBits .f32 0xFF800000#32

variable {a b : ℕ}

/-- The maximum of row r, starting from minus infinity. -/
def rowMax (s : Mat a b) (r : Fin a) : EReal := (Finset.univ : Finset (Fin b)).fold max negInf (fun c => s r c)

/-- exp (s[r, c] − max_c' s[r, c']). -/
def expShift (s : Mat a b) : Mat a b := fun r c => Ideal.exp (s r c - rowMax s r)

/-- The softmax of every row. -/
def softmax (s : Mat a b) : Mat a b := fun r c => Ideal.div (expShift s r c) (∑ c', expShift s r c')

/-- A running maximum is at least its starting value, so taking the maximum with that value again changes nothing. -/
theorem max_fold_max (z : EReal) (f : Fin b → EReal) :
    max z ((Finset.univ : Finset (Fin b)).fold max z f) = (Finset.univ : Finset (Fin b)).fold max z f :=
  max_eq_right ((Finset.le_fold_max z).2 (Or.inl le_rfl))

variable (s : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hbr : (⟨2, ![a, 1]⟩ : Shape).Broadcasts ⟨2, ![a, b]⟩) (hb : FTy.bits .bf16 < FTy.bits .f32)

/-- The row maxima (from minus infinity), kept as a column and spread back over the rows. -/
def rowMaxSpread : FVec Ideal ⟨2, ![a, b]⟩ .f32 :=
  broadcastTo ⟨2, ![a, b]⟩ (shapeCast ⟨2, ![a, 1]⟩ (multiReduction .maximumf [1] ⟨1, ![a]⟩ s 0xFF800000#32 hr (.inl rfl) rfl) hc) hbr

/-- exp (s − row maximum). -/
def expShiftVec : FVec Ideal ⟨2, ![a, b]⟩ .f32 := exp (subf s (rowMaxSpread s hr hc hbr))

/-- The exponentials divided by their row sums (from zero, kept as a column and spread back). -/
def quotVec : FVec Ideal ⟨2, ![a, b]⟩ .f32 :=
  divf (expShiftVec s hr hc hbr)
    (broadcastTo ⟨2, ![a, b]⟩ (shapeCast ⟨2, ![a, 1]⟩
      (multiReduction .add [1] ⟨1, ![a]⟩ (expShiftVec s hr hc hbr) 0x00000000#32 hr (.inl rfl) rfl) hc) hbr)

/-- The same, narrowed to bf16 for the product that follows. -/
def softmaxVec : FVec Ideal ⟨2, ![a, b]⟩ .bf16 := truncf .bf16 (quotVec s hr hc hbr) hb

theorem rowMaxSpread_apply (r : Fin a) (c : Fin b) : rowMaxSpread s hr hc hbr (ix2 r c) = rowMax (mat s) r :=
  (Cert.LibKeepdims.broadcastTo_a1_ac_apply _ hbr r c).trans
    ((Cert.LibKeepdims.shapeCast_a_a1_apply _ hc r 0).trans
      (Cert.LibUnitAxes.multiReduction_maximumf_lastAxis_apply s 0xFF800000#32 hr (.inl rfl) rfl r))

theorem expShiftVec_apply (r : Fin a) (c : Fin b) : expShiftVec s hr hc hbr (ix2 r c) = expShift (mat s) r c := by
  show Ideal.exp (s (ix2 r c) - rowMaxSpread s hr hc hbr (ix2 r c)) = _
  rw [rowMaxSpread_apply]
  rfl

theorem quotVec_apply (r : Fin a) (c : Fin b) : quotVec s hr hc hbr (ix2 r c) = softmax (mat s) r c := by
  show Ideal.div (expShiftVec s hr hc hbr (ix2 r c))
      (broadcastTo ⟨2, ![a, b]⟩ (shapeCast ⟨2, ![a, 1]⟩
        (multiReduction .add [1] ⟨1, ![a]⟩ (expShiftVec s hr hc hbr) 0x00000000#32 hr (.inl rfl) rfl) hc) hbr (ix2 r c)) = _
  rw [Cert.LibKeepdims.rowSum_keepdims_broadcast_apply (expShiftVec s hr hc hbr) 0x00000000#32 hr (.inl rfl) rfl hc hbr r c,
    expShiftVec_apply]
  unfold softmax
  exact congrArg (Ideal.div (expShift (mat s) r c)) (Finset.sum_congr rfl fun f _ => expShiftVec_apply s hr hc hbr r f)

theorem softmaxVec_apply (r : Fin a) (c : Fin b) : softmaxVec s hr hc hbr hb (ix2 r c) = softmax (mat s) r c :=
  quotVec_apply s hr hc hbr r c

end Cert.LibSoftmaxRows

end
-- ==== Proof.KernelIdealTailSpec.lean ====
/-
  The classifier on the pooled row. After the third layer the node features are summed over all nodes into one row of 64; the mean
  (the sum times 1/100000), a dense layer with positive part, a second dense layer and a softmax over the two classes follow:
      mean f = pooled f · (1/100000),   hid j = max (Σ_f mean f · Wc1[f,j] + bc1 j) 0,
      logit q = Σ_j hid j · Wc2[j,q] + bc2 q,   out q = exp (logit q − max logit) / Σ_p exp (logit p − max logit).
  The biases are taken as plain functions of the feature, so that a row [1, C] and a vector [C] serve alike.
-/
import proofs.«156777_j82712480186688_2_alg».proof.Proof.KernelIdealSpec
import proofs.«156777_j82712480186688_2_alg».proof.Proof.LibSoftmaxRows

noncomputable section

namespace Cert.KernelIdeal.Hand

open Idealize.ShloMosaic Idealize.ShloMosaic.ValueIdx Cert.KernelIdeal Cert.LibSoftmaxRows

/-- The reciprocal of the number of nodes, as the rational it is. -/
abbrev invNodes : EReal := ((1 / 100000 : ℝ) : EReal)

/-- The hidden unit `j` of the classifier on a pooled row. -/
def hidden (pooled : Fin 64 → EReal) (wc1 : FVec Ideal S64x32 .f32) (bc1 : Fin 32 → EReal) (j : Fin 32) : EReal :=
  max ((∑ f : Fin 64, (pooled f * invNodes) * wc1 (ix2 f j)) + bc1 j) zeroW

/-- The two logits, as a 1 × 2 matrix. -/
def logits (pooled : Fin 64 → EReal) (wc1 : FVec Ideal S64x32 .f32) (bc1 : Fin 32 → EReal) (wc2 : FVec Ideal S32x2 .f32)
    (bc2 : Fin 2 → EReal) : Mat 1 2 :=
  fun _ q => (∑ j : Fin 32, hidden pooled wc1 bc1 j * wc2 (ix2 j q)) + bc2 q

/-- The class probabilities: the softmax of the logits' one row. -/
def classify (pooled : Fin 64 → EReal) (wc1 : FVec Ideal S64x32 .f32) (bc1 : Fin 32 → EReal) (wc2 : FVec Ideal S32x2 .f32)
    (bc2 : Fin 2 → EReal) : FVec Ideal S1x2 .f32 :=
  fun i => softmax (logits pooled wc1 bc1 wc2 bc2) (0 : Fin 1) (i 1)

theorem classify_apply (pooled : Fin 64 → EReal) (wc1 : FVec Ideal S64x32 .f32) (bc1 : Fin 32 → EReal)
    (wc2 : FVec Ideal S32x2 .f32) (bc2 : Fin 2 → EReal) (q : Fin 2) :
    classify pooled wc1 bc1 wc2 bc2 (ix2 (0 : Fin 1) q) = softmax (logits pooled wc1 bc1 wc2 bc2) (0 : Fin 1) q := rfl

end Cert.KernelIdeal.Hand

end
-- ==== Proof.KernelIdealOut.lean ====
/-
  The idealized kernel's result as ONE function of @main's arguments, on the extended reals.
  With  s = 1/√(max(deg, 1))  the normaliser column,  src / dst  the edge lists with self-loops, and  A(h) = the rows of h gathered
  along src and added up at dst  the aggregation:
      hs₁ = (x · W₁) ⊙ s,            a₁ = A(hs₁),
      hs₂ = (max(s ⊙ a₁ + b₁, 0) · W₂) ⊙ s,   a₂ = A(hs₂),
      hs₃ = (max(s ⊙ a₂ + b₂, 0) · W₃) ⊙ s,   a₃ = A(hs₃),
      pooled f = Σ_r max(s r · a₃[r, f] + b₃ f, 0),   out = classify(pooled; Wc₁, bc₁, Wc₂, bc₂).
  Every layer's normaliser is applied at the nodes, before the rows travel along the edges and after they are added up.
-/
import proofs.«156777_j82712480186688_2_alg».proof.Proof.KernelIdealSpec
import proofs.«156777_j82712480186688_2_alg».proof.Proof.KernelIdealTailSpec
import proofs.«156777_j82712480186688_2_alg».proof.Proof.KernelIdealStretch

noncomputable section

namespace Cert.KernelIdeal.Hand

open Idealize.ShloMosaic Idealize.ShloMosaic.ValueIdx
open Cert.KernelIdeal Cert.KernelIdeal.Gen Cert.KernelIdeal.GenP

/-- A bias vector laid out as the row the kernel regions stage. -/
abbrev row128 (b : (⟨S128, .f32⟩ : BufTy).Contents (Elt Ideal)) : (⟨S1x128, .f32⟩ : BufTy).Contents (Elt Ideal) :=
  shapeCast S1x128 b shapeCasts_S128_S1x128
abbrev row64 (b : (⟨S64, .f32⟩ : BufTy).Contents (Elt Ideal)) : (⟨S1x64, .f32⟩ : BufTy).Contents (Elt Ideal) :=
  shapeCast S1x64 b shapeCasts_S64_S1x64
abbrev row32 (b : (⟨S32, .f32⟩ : BufTy).Contents (Elt Ideal)) : (⟨S1x32, .f32⟩ : BufTy).Contents (Elt Ideal) :=
  shapeCast S1x32 b shapeCasts_S32_S1x32
abbrev row2 (b : (⟨S2, .f32⟩ : BufTy).Contents (Elt Ideal)) : (⟨S1x2, .f32⟩ : BufTy).Contents (Elt Ideal) :=
  shapeCast S1x2 b shapeCasts_S2_S1x2

section
variable (x : (⟨S100000x64, .f32⟩ : BufTy).Contents (Elt Ideal)) (E : (⟨S2x1600000, .i32⟩ : BufTy).Contents (Elt Ideal))
  (w1 : (⟨S64x128, .f32⟩ : BufTy).Contents (Elt Ideal)) (b1 : (⟨S128, .f32⟩ : BufTy).Contents (Elt Ideal))
  (w2 : (⟨S128x128, .f32⟩ : BufTy).Contents (Elt Ideal)) (b2 : (⟨S128, .f32⟩ : BufTy).Contents (Elt Ideal))
  (w3 : (⟨S128x64, .f32⟩ : BufTy).Contents (Elt Ideal)) (b3 : (⟨S64, .f32⟩ : BufTy).Contents (Elt Ideal))
  (wc1 : (⟨S64x32, .f32⟩ : BufTy).Contents (Elt Ideal)) (bc1 : (⟨S32, .f32⟩ : BufTy).Contents (Elt Ideal))
  (wc2 : (⟨S32x2, .f32⟩ : BufTy).Contents (Elt Ideal)) (bc2 : (⟨S2, .f32⟩ : BufTy).Contents (Elt Ideal))

/-- Layer 1's rows, scaled at the nodes. -/
def hs1 : (⟨S100000x128, .f32⟩ : BufTy).Contents (Elt Ideal) := rowsScaled x w1 (normCol (dstList E))
/-- … aggregated along the edges. -/
def ag1 : (⟨S100000x128, .f32⟩ : BufTy).Contents (Elt Ideal) := aggregate128 (hs1 x E w1) (srcList E) (dstList E)
/-- Layer 2's rows, scaled at the nodes. -/
def hs2 : (⟨S100000x128, .f32⟩ : BufTy).Contents (Elt Ideal) := layerStep128 (ag1 x E w1) (normCol (dstList E)) (row128 b1) w2
def ag2 : (⟨S100000x128, .f32⟩ : BufTy).Contents (Elt Ideal) := aggregate128 (hs2 x E w1 b1 w2) (srcList E) (dstList E)
/-- Layer 3's rows, scaled at the nodes. -/
def hs3 : (⟨S100000x64, .f32⟩ : BufTy).Contents (Elt Ideal) := layerStep64 (ag2 x E w1 b1 w2) (normCol (dstList E)) (row128 b2) w3
def ag3 : (⟨S100000x64, .f32⟩ : BufTy).Contents (Elt Ideal) := aggregate64 (hs3 x E w1 b1 w2 b2 w3) (srcList E) (dstList E)

/-- The pooled row: the third layer's activations summed over all nodes. -/
def pooledK (f : Fin 64) : EReal :=
  ∑ r : Fin 100000, act64 (ag3 x E w1 b1 w2 b2 w3) (normCol (dstList E)) (row64 b3) r f

/-- The kernel's result. -/
def kernelOut : (⟨S1x2, .f32⟩ : BufTy).Contents (Elt Ideal) :=
  classify (pooledK x E w1 b1 w2 b2 w3 b3) wc1 (fun j => row32 bc1 (ix2 (0 : Fin 1) j)) wc2 (fun q => row2 bc2 (ix2 (0 : Fin 1) q))

end

end Cert.KernelIdeal.Hand

end
-- ==== Proof.KernelIdealChainA.lean ====
/-
  The idealized kernel's buffers, boundary by boundary, as functions of @main's arguments, up to the last region's entry.

  @main is eight segments: a host stretch and a kernel region, four times. The first stretch builds the edge lists and the
  normaliser column from the edge array; every later stretch aggregates the node array the region before it left along the
  edges and lays the next bias out as a row. Each region leaves in its output array one whole-array function of the arrays
  it entered with. Reading each buffer a later segment uses back through the segments before it — a stretch leaves alone
  what it does not write, a region leaves alone everything but its output — gives, in turn,
      hs₁, a₁ = A(hs₁), hs₂, a₂ = A(hs₂), hs₃, a₃ = A(hs₃)
  of the arguments, and at the last region's entry the aggregated array a₃, the normaliser column, the three bias rows
  and the two classifier weight matrices: everything the classifier on the pooled row is a function of.
-/
import proofs.«156777_j82712480186688_2_alg».proof.Proof.KernelIdealRunBounds
import proofs.«156777_j82712480186688_2_alg».proof.Proof.KernelIdealStretch
import proofs.«156777_j82712480186688_2_alg».proof.Proof.KernelIdealValue0
import proofs.«156777_j82712480186688_2_alg».proof.Proof.KernelIdealValue1
import proofs.«156777_j82712480186688_2_alg».proof.Proof.KernelIdealValue2
import proofs.«156777_j82712480186688_2_alg».proof.Proof.KernelIdealOut

noncomputable section

namespace Cert.KernelIdeal.Hand

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg) (c : Dev nD)

/-- A buffer's contents on core c when @main is launched. -/
abbrev atLaunch (b : Ref sig .tc) : Buf (Elt Ideal) ((c : Thread nD τ).loc b) := m ((c : Thread nD τ).loc b)

/-! ## After the first stretch: the edge lists and the normaliser column -/

theorem W1_src : W1 m ρ c (Proc.devRef .tc main_v3) = srcList (atLaunch m c main_arg1) := stretch0_src (W0 m ρ c)
theorem W1_dst : W1 m ρ c (Proc.devRef .tc main_v6) = dstList (atLaunch m c main_arg1) := stretch0_dst (W0 m ρ c)
theorem W1_norm : W1 m ρ c (Proc.devRef .tc main_v14) = normCol (dstList (atLaunch m c main_arg1)) := stretch0_norm (W0 m ρ c)

/-! ## The lists and the column are carried through every later segment -/

theorem W2_src : W2 m ρ c (Proc.devRef .tc main_v3) = srcList (atLaunch m c main_arg1) := (W2_of_ne_out m ρ c main_v3 (by decide)).trans (W1_src m ρ c)
theorem W3_src : W3 m ρ c (Proc.devRef .tc main_v3) = srcList (atLaunch m c main_arg1) := (W3_of m ρ c main_v3 (by decide)).trans (W2_src m ρ c)
theorem W4_src : W4 m ρ c (Proc.devRef .tc main_v3) = srcList (atLaunch m c main_arg1) := (W4_of_ne_out m ρ c main_v3 (by decide)).trans (W3_src m ρ c)
theorem W5_src : W5 m ρ c (Proc.devRef .tc main_v3) = srcList (atLaunch m c main_arg1) := (W5_of m ρ c main_v3 (by decide)).trans (W4_src m ρ c)
theorem W6_src : W6 m ρ c (Proc.devRef .tc main_v3) = srcList (atLaunch m c main_arg1) := (W6_of_ne_out m ρ c main_v3 (by decide)).trans (W5_src m ρ c)
theorem W2_dst : W2 m ρ c (Proc.devRef .tc main_v6) = dstList (atLaunch m c main_arg1) := (W2_of_ne_out m ρ c main_v6 (by decide)).trans (W1_dst m ρ c)
theorem W3_dst : W3 m ρ c (Proc.devRef .tc main_v6) = dstList (atLaunch m c main_arg1) := (W3_of m ρ c main_v6 (by decide)).trans (W2_dst m ρ c)
theorem W4_dst : W4 m ρ c (Proc.devRef .tc main_v6) = dstList (atLaunch m c main_arg1) := (W4_of_ne_out m ρ c main_v6 (by decide)).trans (W3_dst m ρ c)
theorem W5_dst : W5 m ρ c (Proc.devRef .tc main_v6) = dstList (atLaunch m c main_arg1) := (W5_of m ρ c main_v6 (by decide)).trans (W4_dst m ρ c)
theorem W6_dst : W6 m ρ c (Proc.devRef .tc main_v6) = dstList (atLaunch m c main_arg1) := (W6_of_ne_out m ρ c main_v6 (by decide)).trans (W5_dst m ρ c)
theorem W2_norm : W2 m ρ c (Proc.devRef .tc main_v14) = normCol (dstList (atLaunch m c main_arg1)) := (W2_of_ne_out m ρ c main_v14 (by decide)).trans (W1_norm m ρ c)
theorem W3_norm : W3 m ρ c (Proc.devRef .tc main_v14) = normCol (dstList (atLaunch m c main_arg1)) := (W3_of m ρ c main_v14 (by decide)).trans (W2_norm m ρ c)
theorem W4_norm : W4 m ρ c (Proc.devRef .tc main_v14) = normCol (dstList (atLaunch m c main_arg1)) := (W4_of_ne_out m ρ c main_v14 (by decide)).trans (W3_norm m ρ c)
theorem W5_norm : W5 m ρ c (Proc.devRef .tc main_v14) = normCol (dstList (atLaunch m c main_arg1)) := (W5_of m ρ c main_v14 (by decide)).trans (W4_norm m ρ c)
theorem W6_norm : W6 m ρ c (Proc.devRef .tc main_v14) = normCol (dstList (atLaunch m c main_arg1)) := (W6_of_ne_out m ρ c main_v14 (by decide)).trans (W5_norm m ρ c)
theorem W7_norm : W7 m ρ c (Proc.devRef .tc main_v14) = normCol (dstList (atLaunch m c main_arg1)) := (W7_of m ρ c main_v14 (by decide)).trans (W6_norm m ρ c)

/-! ## An argument array is as launched wherever a segment reads it: no stretch writes one, no region changes one -/

theorem W1_arg0 : W1 m ρ c (Proc.devRef .tc main_arg0) = atLaunch m c main_arg0 := (W1_of m ρ c main_arg0 (by decide)).trans rfl
theorem W1_arg2 : W1 m ρ c (Proc.devRef .tc main_arg2) = atLaunch m c main_arg2 := (W1_of m ρ c main_arg2 (by decide)).trans rfl
theorem W1_arg3 : W1 m ρ c (Proc.devRef .tc main_arg3) = atLaunch m c main_arg3 := (W1_of m ρ c main_arg3 (by decide)).trans rfl
theorem W2_arg3 : W2 m ρ c (Proc.devRef .tc main_arg3) = atLaunch m c main_arg3 := (W2_of_ne_out m ρ c main_arg3 (by decide)).trans (W1_arg3 m ρ c)
theorem W1_arg4 : W1 m ρ c (Proc.devRef .tc main_arg4) = atLaunch m c main_arg4 := (W1_of m ρ c main_arg4 (by decide)).trans rfl
theorem W2_arg4 : W2 m ρ c (Proc.devRef .tc main_arg4) = atLaunch m c main_arg4 := (W2_of_ne_out m ρ c main_arg4 (by decide)).trans (W1_arg4 m ρ c)
theorem W3_arg4 : W3 m ρ c (Proc.devRef .tc main_arg4) = atLaunch m c main_arg4 := (W3_of m ρ c main_arg4 (by decide)).trans (W2_arg4 m ρ c)
theorem W1_arg5 : W1 m ρ c (Proc.devRef .tc main_arg5) = atLaunch m c main_arg5 := (W1_of m ρ c main_arg5 (by decide)).trans rfl
theorem W2_arg5 : W2 m ρ c (Proc.devRef .tc main_arg5) = atLaunch m c main_arg5 := (W2_of_ne_out m ρ c main_arg5 (by decide)).trans (W1_arg5 m ρ c)
theorem W3_arg5 : W3 m ρ c (Proc.devRef .tc main_arg5) = atLaunch m c main_arg5 := (W3_of m ρ c main_arg5 (by decide)).trans (W2_arg5 m ρ c)
theorem W4_arg5 : W4 m ρ c (Proc.devRef .tc main_arg5) = atLaunch m c main_arg5 := (W4_of_ne_out m ρ c main_arg5 (by decide)).trans (W3_arg5 m ρ c)
theorem W1_arg6 : W1 m ρ c (Proc.devRef .tc main_arg6) = atLaunch m c main_arg6 := (W1_of m ρ c main_arg6 (by decide)).trans rfl
theorem W2_arg6 : W2 m ρ c (Proc.devRef .tc main_arg6) = atLaunch m c main_arg6 := (W2_of_ne_out m ρ c main_arg6 (by decide)).trans (W1_arg6 m ρ c)
theorem W3_arg6 : W3 m ρ c (Proc.devRef .tc main_arg6) = atLaunch m c main_arg6 := (W3_of m ρ c main_arg6 (by decide)).trans (W2_arg6 m ρ c)
theorem W4_arg6 : W4 m ρ c (Proc.devRef .tc main_arg6) = atLaunch m c main_arg6 := (W4_of_ne_out m ρ c main_arg6 (by decide)).trans (W3_arg6 m ρ c)
theorem W5_arg6 : W5 m ρ c (Proc.devRef .tc main_arg6) = atLaunch m c main_arg6 := (W5_of m ρ c main_arg6 (by decide)).trans (W4_arg6 m ρ c)
theorem W1_arg7 : W1 m ρ c (Proc.devRef .tc main_arg7) = atLaunch m c main_arg7 := (W1_of m ρ c main_arg7 (by decide)).trans rfl
theorem W2_arg7 : W2 m ρ c (Proc.devRef .tc main_arg7) = atLaunch m c main_arg7 := (W2_of_ne_out m ρ c main_arg7 (by decide)).trans (W1_arg7 m ρ c)
theorem W3_arg7 : W3 m ρ c (Proc.devRef .tc main_arg7) = atLaunch m c main_arg7 := (W3_of m ρ c main_arg7 (by decide)).trans (W2_arg7 m ρ c)
theorem W4_arg7 : W4 m ρ c (Proc.devRef .tc main_arg7) = atLaunch m c main_arg7 := (W4_of_ne_out m ρ c main_arg7 (by decide)).trans (W3_arg7 m ρ c)
theorem W5_arg7 : W5 m ρ c (Proc.devRef .tc main_arg7) = atLaunch m c main_arg7 := (W5_of m ρ c main_arg7 (by decide)).trans (W4_arg7 m ρ c)
theorem W6_arg7 : W6 m ρ c (Proc.devRef .tc main_arg7) = atLaunch m c main_arg7 := (W6_of_ne_out m ρ c main_arg7 (by decide)).trans (W5_arg7 m ρ c)
theorem W1_arg9 : W1 m ρ c (Proc.devRef .tc main_arg9) = atLaunch m c main_arg9 := (W1_of m ρ c main_arg9 (by decide)).trans rfl
theorem W2_arg9 : W2 m ρ c (Proc.devRef .tc main_arg9) = atLaunch m c main_arg9 := (W2_of_ne_out m ρ c main_arg9 (by decide)).trans (W1_arg9 m ρ c)
theorem W3_arg9 : W3 m ρ c (Proc.devRef .tc main_arg9) = atLaunch m c main_arg9 := (W3_of m ρ c main_arg9 (by decide)).trans (W2_arg9 m ρ c)
theorem W4_arg9 : W4 m ρ c (Proc.devRef .tc main_arg9) = atLaunch m c main_arg9 := (W4_of_ne_out m ρ c main_arg9 (by decide)).trans (W3_arg9 m ρ c)
theorem W5_arg9 : W5 m ρ c (Proc.devRef .tc main_arg9) = atLaunch m c main_arg9 := (W5_of m ρ c main_arg9 (by decide)).trans (W4_arg9 m ρ c)
theorem W6_arg9 : W6 m ρ c (Proc.devRef .tc main_arg9) = atLaunch m c main_arg9 := (W6_of_ne_out m ρ c main_arg9 (by decide)).trans (W5_arg9 m ρ c)
theorem W1_arg11 : W1 m ρ c (Proc.devRef .tc main_arg11) = atLaunch m c main_arg11 := (W1_of m ρ c main_arg11 (by decide)).trans rfl
theorem W2_arg11 : W2 m ρ c (Proc.devRef .tc main_arg11) = atLaunch m c main_arg11 := (W2_of_ne_out m ρ c main_arg11 (by decide)).trans (W1_arg11 m ρ c)
theorem W3_arg11 : W3 m ρ c (Proc.devRef .tc main_arg11) = atLaunch m c main_arg11 := (W3_of m ρ c main_arg11 (by decide)).trans (W2_arg11 m ρ c)
theorem W4_arg11 : W4 m ρ c (Proc.devRef .tc main_arg11) = atLaunch m c main_arg11 := (W4_of_ne_out m ρ c main_arg11 (by decide)).trans (W3_arg11 m ρ c)
theorem W5_arg11 : W5 m ρ c (Proc.devRef .tc main_arg11) = atLaunch m c main_arg11 := (W5_of m ρ c main_arg11 (by decide)).trans (W4_arg11 m ρ c)
theorem W6_arg11 : W6 m ρ c (Proc.devRef .tc main_arg11) = atLaunch m c main_arg11 := (W6_of_ne_out m ρ c main_arg11 (by decide)).trans (W5_arg11 m ρ c)

/-! ## Layer 1 -/

/-- Region 0 leaves the rows of x · W₁ scaled by the normaliser. -/
theorem W2_out : W2 m ρ c (Proc.devRef .tc main_v15) = hs1 (atLaunch m c main_arg0) (atLaunch m c main_arg1) (atLaunch m c main_arg2) := by
  refine (W2_main_v15 m ρ c).trans ((final0 (V1 m ρ) c).trans ?_)
  unfold hs1
  rw [show V1 m ρ c main_arg0 = (atLaunch m c main_arg0) from W1_arg0 m ρ c, show V1 m ρ c main_arg2 = (atLaunch m c main_arg2) from W1_arg2 m ρ c,
    show V1 m ρ c main_v14 = normCol (dstList (atLaunch m c main_arg1)) from W1_norm m ρ c]

/-- The stretch after it aggregates them along the edges -/
theorem W3_agg : W3 m ρ c (Proc.devRef .tc main_v25) = ag1 (atLaunch m c main_arg0) (atLaunch m c main_arg1) (atLaunch m c main_arg2) := by
  refine (stretch1_agg (W2 m ρ c)).trans ?_
  unfold ag1
  rw [W2_out, W2_src, W2_dst]

/-- and lays the first bias out as a row. -/
theorem W3_bias : W3 m ρ c (Proc.devRef .tc main_v26) = row128 (atLaunch m c main_arg3) := by
  refine (stretch1_bias (W2 m ρ c)).trans ?_
  rw [W2_arg3]

/-! ## Layer 2 -/

theorem W4_out : W4 m ρ c (Proc.devRef .tc main_v27) = hs2 (atLaunch m c main_arg0) (atLaunch m c main_arg1) (atLaunch m c main_arg2) (atLaunch m c main_arg3) (atLaunch m c main_arg4) := by
  refine (W4_main_v27 m ρ c).trans ((final1 (V3 m ρ) c).trans ?_)
  unfold hs2
  rw [show V3 m ρ c main_v25 = ag1 (atLaunch m c main_arg0) (atLaunch m c main_arg1) (atLaunch m c main_arg2) from W3_agg m ρ c, show V3 m ρ c main_v14 = normCol (dstList (atLaunch m c main_arg1)) from W3_norm m ρ c,
    show V3 m ρ c main_v26 = row128 (atLaunch m c main_arg3) from W3_bias m ρ c, show V3 m ρ c main_arg4 = (atLaunch m c main_arg4) from W3_arg4 m ρ c]

theorem W5_agg : W5 m ρ c (Proc.devRef .tc main_v37) = ag2 (atLaunch m c main_arg0) (atLaunch m c main_arg1) (atLaunch m c main_arg2) (atLaunch m c main_arg3) (atLaunch m c main_arg4) := by
  refine (stretch2_agg (W4 m ρ c)).trans ?_
  unfold ag2
  rw [W4_out, W4_src, W4_dst]

theorem W5_bias : W5 m ρ c (Proc.devRef .tc main_v38) = row128 (atLaunch m c main_arg5) := by
  refine (stretch2_bias (W4 m ρ c)).trans ?_
  rw [W4_arg5]

/-! ## Layer 3 -/

theorem W6_out : W6 m ρ c (Proc.devRef .tc main_v39) = hs3 (atLaunch m c main_arg0) (atLaunch m c main_arg1) (atLaunch m c main_arg2) (atLaunch m c main_arg3) (atLaunch m c main_arg4) (atLaunch m c main_arg5) (atLaunch m c main_arg6) := by
  refine (W6_main_v39 m ρ c).trans ((final2 (V5 m ρ) c).trans ?_)
  unfold hs3
  rw [show V5 m ρ c main_v37 = ag2 (atLaunch m c main_arg0) (atLaunch m c main_arg1) (atLaunch m c main_arg2) (atLaunch m c main_arg3) (atLaunch m c main_arg4) from W5_agg m ρ c, show V5 m ρ c main_v14 = normCol (dstList (atLaunch m c main_arg1)) from W5_norm m ρ c,
    show V5 m ρ c main_v38 = row128 (atLaunch m c main_arg5) from W5_bias m ρ c, show V5 m ρ c main_arg6 = (atLaunch m c main_arg6) from W5_arg6 m ρ c]

theorem W7_agg : W7 m ρ c (Proc.devRef .tc main_v49) = ag3 (atLaunch m c main_arg0) (atLaunch m c main_arg1) (atLaunch m c main_arg2) (atLaunch m c main_arg3) (atLaunch m c main_arg4) (atLaunch m c main_arg5) (atLaunch m c main_arg6) := by
  refine (stretch3_agg (W6 m ρ c)).trans ?_
  unfold ag3
  rw [W6_out, W6_src, W6_dst]

theorem W7_bias3 : W7 m ρ c (Proc.devRef .tc main_v50) = row64 (atLaunch m c main_arg7) := by
  refine (stretch3_bias3 (W6 m ρ c)).trans ?_
  rw [W6_arg7]

theorem W7_biasc1 : W7 m ρ c (Proc.devRef .tc main_v51) = row32 (atLaunch m c main_arg9) := by
  refine (stretch3_biasc1 (W6 m ρ c)).trans ?_
  rw [W6_arg9]

theorem W7_biasc2 : W7 m ρ c (Proc.devRef .tc main_v52) = row2 (atLaunch m c main_arg11) := by
  refine (stretch3_biasc2 (W6 m ρ c)).trans ?_
  rw [W6_arg11]

/-! ## The classifier on the pooled row, of the last region's entry contents, is the kernel's function of the arguments -/

theorem entry3_value :
    classify (fun f => ∑ r : Fin 100000, act64 (V7 m ρ c main_v49) (V7 m ρ c main_v14) (V7 m ρ c main_v50) r f)
        (V7 m ρ c main_arg8) (fun j => V7 m ρ c main_v51 (ix2 (0 : Fin 1) j)) (V7 m ρ c main_arg10)
        (fun q => V7 m ρ c main_v52 (ix2 (0 : Fin 1) q))
      = kernelOut (atLaunch m c main_arg0) (atLaunch m c main_arg1) (atLaunch m c main_arg2) (atLaunch m c main_arg3) (atLaunch m c main_arg4) (atLaunch m c main_arg5) (atLaunch m c main_arg6) (atLaunch m c main_arg7) (atLaunch m c main_arg8) (atLaunch m c main_arg9) (atLaunch m c main_arg10) (atLaunch m c main_arg11) := by
  unfold kernelOut pooledK
  rw [show V7 m ρ c main_v49 = ag3 (atLaunch m c main_arg0) (atLaunch m c main_arg1) (atLaunch m c main_arg2) (atLaunch m c main_arg3) (atLaunch m c main_arg4) (atLaunch m c main_arg5) (atLaunch m c main_arg6) from W7_agg m ρ c, show V7 m ρ c main_v14 = normCol (dstList (atLaunch m c main_arg1)) from W7_norm m ρ c,
    show V7 m ρ c main_v50 = row64 (atLaunch m c main_arg7) from W7_bias3 m ρ c, show V7 m ρ c main_arg8 = (atLaunch m c main_arg8) from W7_main_arg8 m ρ c,
    show V7 m ρ c main_v51 = row32 (atLaunch m c main_arg9) from W7_biasc1 m ρ c, show V7 m ρ c main_arg10 = (atLaunch m c main_arg10) from W7_main_arg10 m ρ c,
    show V7 m ρ c main_v52 = row2 (atLaunch m c main_arg11) from W7_biasc2 m ρ c]

end Cert.KernelIdeal.Hand

end
-- ==== Proof.KernelIdealValue3Pieces.lean ====
import proofs.«156777_j82712480186688_2_alg».proof.Proof.KernelIdealRegion3
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen Cert.KernelIdeal.GenP

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The zero offsets of a rank-two rectangle, as a constant function. -/
theorem zero_off3 : (![0, 0] : Fin 2 → Nat) = fun _ => 0 := funext fun a => by fin_cases a <;> rfl

/-! ## What each case leaves, as the payloads of the blocks it loads -/

/-- The first point zeroes the scratch row and then adds its block's contribution onto the zero row. -/
theorem sout3_A_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : cond3_0 i) (hc1 : ¬cond3_1 i) (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) :
    sout3_A c i arg1 harg1 arg2 harg2 arg3 harg3 arg4 harg4 arg5 harg5 arg6 harg6 arg7 harg7 arg8 harg8 arg9 harg9 hc0 hc1 x0 x1 x2 x3 x4 x5 x6 = k3_pay2 x1 x0 x2 k3_pay1 := by
  unfold sout3_A
  rw [View.read_writes_eq_canon _ _ _ (scover3_A c i arg1 harg1 arg2 harg2 arg3 harg3 arg4 harg4 arg5 harg5 arg6 harg6 arg7 harg7 arg8 harg8 arg9 harg9 hc0 hc1 x0 x1 x2 x3 x4 x5 x6)]
  unfold kernelRun3_A
  dsimp only
  try sl_unfold_words
  rw [View.canon_cons_unit_zero zero_off3, View.readCov_unit_zero (S := S1x64) _ zero_off3]
  simp only [View.readAt_eq_ld, harg1.read_unread, harg2.read_unread, harg3.read_unread, View.ld_unit_zero (S := S5000x1) zero_off3, View.ld_unit_zero (S := S5000x64) zero_off3, View.ld_unit_zero (S := S1x64) zero_off3]

/-- A middle point adds its block's contribution onto what the scratch row held. -/
theorem sout3_B_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : ¬cond3_1 i) (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) :
    sout3_B c i arg1 harg1 arg2 harg2 arg3 harg3 arg4 harg4 arg5 harg5 arg6 harg6 arg7 harg7 arg8 harg8 arg9 harg9 hc0 hc1 x0 x1 x2 x3 x4 x5 x6 xs0 = k3_pay2 x1 x0 x2 xs0 := by
  unfold sout3_B
  rw [View.read_writes_eq_canon _ _ _ (scover3_B c i arg1 harg1 arg2 harg2 arg3 harg3 arg4 harg4 arg5 harg5 arg6 harg6 arg7 harg7 arg8 harg8 arg9 harg9 hc0 hc1 x0 x1 x2 x3 x4 x5 x6 xs0)]
  unfold kernelRun3_B
  dsimp only
  try sl_unfold_words
  rw [View.canon_unit_zero zero_off3]
  simp only [View.readAt_eq_ld, harg1.read_unread, harg2.read_unread, harg3.read_unread, harg9.read_unread, View.ld_unit_zero (S := S5000x1) zero_off3, View.ld_unit_zero (S := S5000x64) zero_off3, View.ld_unit_zero (S := S1x64) zero_off3]

/-- So does the last point. -/
theorem sout3_C_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i) (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) :
    sout3_C c i arg1 harg1 arg2 harg2 arg3 harg3 arg4 harg4 arg5 harg5 arg6 harg6 arg7 harg7 arg8 harg8 arg9 harg9 hc0 hc1 x0 x1 x2 x3 x4 x5 x6 xs0 = k3_pay2 x1 x0 x2 xs0 := by
  unfold sout3_C
  rw [View.read_writes_eq_canon _ _ _ (scover3_C c i arg1 harg1 arg2 harg2 arg3 harg3 arg4 harg4 arg5 harg5 arg6 harg6 arg7 harg7 arg8 harg8 arg9 harg9 hc0 hc1 x0 x1 x2 x3 x4 x5 x6 xs0)]
  unfold kernelRun3_C
  dsimp only
  try sl_unfold_words
  rw [View.canon_unit_zero zero_off3]
  simp only [View.readAt_eq_ld, harg1.read_unread, harg2.read_unread, harg3.read_unread, harg9.read_unread, View.ld_unit_zero (S := S5000x1) zero_off3, View.ld_unit_zero (S := S5000x64) zero_off3, View.ld_unit_zero (S := S1x64) zero_off3]

/-- What the last point stores in the output block: the closing layers applied to the scratch row as its own
    accumulating store left it. -/
theorem out3_C_7_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S32x2 .f32) (harg6 : arg6.IsWhole) (arg7 : Memref sig .tc .vmem S1x2 .f32) (harg7 : arg7.IsWhole) (arg8 : Memref sig .tc .vmem S1x2 .f32) (harg8 : arg8.IsWhole) (arg9 : Memref sig .tc .vmem S1x64 .f32) (harg9 : arg9.IsWhole) (hc0 : ¬cond3_0 i) (hc1 : cond3_1 i) (x0 : Vec F S5000x64 .f32) (x1 : Vec F S5000x1 .f32) (x2 : Vec F S1x64 .f32) (x3 : Vec F S64x32 .f32) (x4 : Vec F S1x32 .f32) (x5 : Vec F S32x2 .f32) (x6 : Vec F S1x2 .f32) (xs0 : Vec F S1x64 .f32) :
    out3_C_7 c i arg1 harg1 arg2 harg2 arg3 harg3 arg4 harg4 arg5 harg5 arg6 harg6 arg7 harg7 arg8 harg8 arg9 harg9 hc0 hc1 x0 x1 x2 x3 x4 x5 x6 xs0 = k3_pay3 (k3_pay2 x1 x0 x2 xs0) x3 x4 x5 x6 := by
  unfold out3_C_7
  rw [View.read_writes_eq_canon _ _ _ (cover3_C_7 c i arg1 harg1 arg2 harg2 arg3 harg3 arg4 harg4 arg5 harg5 arg6 harg6 arg7 harg7 arg8 harg8 arg9 harg9 hc0 hc1 x0 x1 x2 x3 x4 x5 x6 xs0)]
  unfold kernelRun3_C
  dsimp only
  try sl_unfold_words
  rw [View.canon_unit_zero zero_off3, View.readCov_unit_zero (S := S1x64) _ zero_off3]
  simp only [View.readAt_eq_ld, harg1.read_unread, harg2.read_unread, harg3.read_unread, harg4.read_unread, harg5.read_unread, harg6.read_unread, harg7.read_unread, harg9.read_unread, View.ld_unit_zero (S := S5000x1) zero_off3, View.ld_unit_zero (S := S5000x64) zero_off3, View.ld_unit_zero (S := S1x64) zero_off3, View.ld_unit_zero (S := S64x32) zero_off3, View.ld_unit_zero (S := S1x32) zero_off3, View.ld_unit_zero (S := S32x2) zero_off3, View.ld_unit_zero (S := S1x2) zero_off3]

/-! ## The scratch row as a recurrence -/

/-- After the first point: its block's contribution added onto the zero row. -/
theorem acc3_zero (c : Dev nD) (h : 0 < cfg3.N) :
    acc3 V c 0 h = k3_pay2 (iblk3 V c 1 ⟨0, h⟩) (iblk3 V c 0 ⟨0, h⟩) (iblk3 V c 2 ⟨0, h⟩) k3_pay1 := by
  rw [acc3_A V c ⟨0, h⟩ rfl (show ¬(0 : ℕ) = 19 by decide), sout3_A_eq]

/-- After a later point: its block's contribution added onto what the point before left. -/
theorem acc3_succ (c : Dev nD) (n : ℕ) (h : n + 1 < cfg3.N) :
    acc3 V c (n + 1) h = k3_pay2 (iblk3 V c 1 ⟨n + 1, h⟩) (iblk3 V c 0 ⟨n + 1, h⟩) (iblk3 V c 2 ⟨n + 1, h⟩) (acc3 V c n (Nat.lt_of_succ_lt h)) := by
  by_cases h1 : n + 1 = 19
  · rw [acc3_C V c ⟨n + 1, h⟩ (Nat.succ_ne_zero n) h1, sout3_C_eq]; rfl
  · rw [acc3_B V c ⟨n + 1, h⟩ (Nat.succ_ne_zero n) h1, sout3_B_eq]; rfl

/-- What the last point stores in the output block: the closing layers applied to the scratch row after the last point. -/
theorem out3_7_eq (c : Dev nD) :
    out3_7 V c = k3_pay3 (acc3 V c 19 (by decide)) (iblk3 V c 3 t19) (iblk3 V c 4 t19) (iblk3 V c 5 t19) (iblk3 V c 6 t19) := by
  unfold out3_7
  rw [out3_C_7_eq, acc3_succ V c 18 (by decide)]

/-! ## The output array after the region -/

/-- The one write-back, at the last point, writes the output block: the window's block is the whole array, read through
    zero offsets. -/
theorem flushed3_eq (c : Dev nD) (t : Fin cfg3.N) (hf : (cfg3.win 7).flush t = true) :
    (dat3 V c).flushed 7 t = ((cfg3.win 7).blk t).view.read (Elt F) (out3_7 V c) := by
  have hN : cfg3.N = 20 := N_3
  have h1 : t.val = 19 := by have := (flush3_7 t).mp hf; have := t.isLt; omega
  obtain rfl : t = t19 := Fin.ext h1
  show (cfg3.win 7).cut (grid3.coords t19) ((dat3 V c).after 7 t19) = _
  rw [after3_7]
  have hz' : (fun a => win3_7.index t19 a * main_v53.ty.shape.size a) = fun _ => 0 := funext fun a => by fin_cases a <;> decide
  exact (Memref.read_access_unit_zero (Elt F) main_v53 hz' (fun a => by rw [congrFun hz' a]; simp) (out3_7 V c)).symm

/-- So the output array ends holding what the last point stored: the last point's block covers it. -/
theorem final3 (c : Dev nD) : (dat3 V c).arrAt 7 cfg3.N = out3_7 V c :=
  (dat3 V c).arrAt_eq_of_cover 7 (out3_7 V c) (flushed3_eq V c) fun i =>
    ⟨t19, (flush3_7 t19).mpr rfl, by
      show i ∈ ((View.whole main_v53).slice (win3_7.rect t19)).set
      rw [View.set_slice_whole, Rect.mem_set_unit]
      intro a
      have h0 : (i 0 : Nat) < 1 := (i 0).isLt
      have h1 : (i 1 : Nat) < 2 := (i 1).isLt
      match a with
      | ⟨0, _⟩ => show win3_7.index t19 0 * win3_7.size 0 ≤ (i 0 : Nat) ∧ (i 0 : Nat) < win3_7.index t19 0 * win3_7.size 0 + win3_7.xsize (grid3.coords t19) 0
                  rw [show win3_7.index t19 0 * win3_7.size 0 = 0 from by decide +kernel, show win3_7.xsize (grid3.coords t19) 0 = 1 from by decide +kernel]; omega
      | ⟨1, _⟩ => show win3_7.index t19 1 * win3_7.size 1 ≤ (i 1 : Nat) ∧ (i 1 : Nat) < win3_7.index t19 1 * win3_7.size 1 + win3_7.xsize (grid3.coords t19) 1
                  rw [show win3_7.index t19 1 * win3_7.size 1 = 0 from by decide +kernel, show win3_7.xsize (grid3.coords t19) 1 = 2 from by decide +kernel]; omega⟩

end Cert.KernelIdeal.Hand

end
-- ==== Proof.KernelIdealValue3Pay.lean ====
/-
  The last kernel body's three stored values, read at one entry on the extended reals.

  The body pools the node features and classifies the pooled row. At its first point it stores a zero row in the scratch.
  At every point it adds to the scratch row the column sums of the block's finished activation: for feature f, the sum
  over the block's 5000 rows r of  max (s[r] · agg[r, f] + b[f]) 0 , taken by a reduction over the leading axis started
  at zero and cast from a vector of 64 to a row [1, 64]. At its last point it stores the class probabilities of the
  pooled row: the mean (the sum times the named reciprocal of the number of nodes, which is the rational 1/100000 on
  the extended reals), a dense layer with positive part, a second dense layer, and the softmax of the two logits; the
  body takes the row maximum once more against minus infinity, which changes nothing. Narrowing the float format is
  the identity on the extended reals.
-/
import proofs.«156777_j82712480186688_2_alg».proof.Proof.Gen.KernelIdeal.Skeleton
import proofs.«156777_j82712480186688_2_alg».proof.Proof.KernelIdealSpec
import proofs.«156777_j82712480186688_2_alg».proof.Proof.KernelIdealTailSpec
import proofs.«156777_j82712480186688_2_alg».proof.Proof.LibSoftmaxRows
import proofs.«156777_j82712480186688_2_alg».proof.Proof.LibKeepdims
import proofs.«156777_j82712480186688_2_alg».proof.Proof.LibUnitAxes
import proofs.«156777_j82712480186688_2_alg».proof.Proof.LibPlainMatmul
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx Cert.LibKeepdims Cert.LibSoftmaxRows

/-- On the extended reals a float sum over the LEADING axis of an [a, b] matrix reads, at column j, the sum of that
    column's entries: the index over j with coordinate k put back on the summed axis is (k, j). There is no starting
    value in the reading: the reduction starts at the neutral word. -/
theorem multiReduction_add_leadingAxis_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (funext fun d => Fin.ext (by
    match d with
    | ⟨0, _⟩ => rfl
    | ⟨1, _⟩ => rfl))

/-- The first point's stored row is the zero word at every feature. -/
theorem k3_pay1_apply (f : Fin 64) : k3_pay1 (F := Ideal) (ix2 (0 : Fin 1) f) = zeroW := by
  unfold k3_pay1
  simp only [shapeCast_self]
  rfl

/-- The scratch row after a point, at feature f: the row as loaded plus the block's column sum of the finished
    activation  max (s[r] · agg[r, f] + b[f]) 0 . -/
theorem k3_pay2_apply (v3 : Vec Ideal S5000x1 .f32) (v5 : Vec Ideal S5000x64 .f32) (v9 v15 : Vec Ideal S1x64 .f32) (f : Fin 64) :
    k3_pay2 v3 v5 v9 v15 (ix2 (0 : Fin 1) f)
      = v15 (ix2 (0 : Fin 1) f)
        + ∑ r : Fin 5000, max (v3 (ix2 r (0 : Fin 1)) * v5 (ix2 r f) + v9 (ix2 (0 : Fin 1) f)) zeroW := by
  unfold k3_pay2
  simp only [shapeCast_self]
  rw [addf_apply, shapeCast_a_1a_apply]
  refine congrArg (fun z => v15 (ix2 (0 : Fin 1) f) + z) ?_
  refine (multiReduction_add_leadingAxis_apply _ 0x00000000#32 reduces_S5000x64_S64 (.inl rfl) rfl f).trans ?_
  refine Finset.sum_congr rfl fun r _ => ?_
  rw [maximumf_apply, addf_apply, mulf_apply, broadcastTo_a1_ac_apply, broadcastTo_1b_ab_apply, broadcast_apply]
  rfl

/-! ## The classifier on the pooled row -/

/-- The named reciprocal of the number of nodes is the rational 1/100000 on the extended reals. -/
theorem inv_nodes :
    Named.named (F := Ideal) Cert.KernelIdeal.κ "inv_100000" (φ := .f32) 0x3727C5AC#32 = invNodes :=
  IdealRules.named_const.ideal_named_scalar _ _ _ _ rfl

section softmaxWithSecondMaximum

variable {a b : ℕ} (s : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hbr : (⟨2, ![a, 1]⟩ : Shape).Broadcasts ⟨2, ![a, b]⟩)

/-- The row maxima (from minus infinity), taken once more against a minus-infinity vector, kept as a column and spread
    back over the rows. -/
def rowMaxTwiceSpread : FVec Ideal ⟨2, ![a, b]⟩ .f32 :=
  broadcastTo ⟨2, ![a, b]⟩ (shapeCast ⟨2, ![a, 1]⟩
    (maximumf (broadcast ⟨1, ![a]⟩ (Scalar.ofBits (F := Ideal) .f32 0xFF800000#32))
      (multiReduction .maximumf [1] ⟨1, ![a]⟩ s 0xFF800000#32 hr (.inl rfl) rfl)) hc) hbr

/-- exp (s − row maximum). -/
def expShiftTwice : FVec Ideal ⟨2, ![a, b]⟩ .f32 := exp (subf s (rowMaxTwiceSpread s hr hc hbr))

/-- The exponentials divided by their row sums (from zero, kept as a column and spread back). -/
def quotTwice : FVec Ideal ⟨2, ![a, b]⟩ .f32 :=
  divf (expShiftTwice s hr hc hbr)
    (broadcastTo ⟨2, ![a, b]⟩ (shapeCast ⟨2, ![a, 1]⟩
      (multiReduction .add [1] ⟨1, ![a]⟩ (expShiftTwice s hr hc hbr) 0x00000000#32 hr (.inl rfl) rfl) hc) hbr)

/-- A running maximum is at least the minus infinity it starts from, so the second maximum changes nothing: the
    spread column reads the row maximum. -/
theorem rowMaxTwiceSpread_apply (r : Fin a) (c : Fin b) :
    rowMaxTwiceSpread s hr hc hbr (ix2 r c) = rowMax (mat s) r := by
  refine (broadcastTo_a1_ac_apply _ hbr r c).trans ((shapeCast_a_a1_apply _ hc r 0).trans ?_)
  show max negInf (multiReduction .maximumf [1] ⟨1, ![a]⟩ s 0xFF800000#32 hr (.inl rfl) rfl (ix1 r)) = _
  rw [Cert.LibUnitAxes.multiReduction_maximumf_lastAxis_apply s 0xFF800000#32 hr (.inl rfl) rfl r]
  exact max_fold_max negInf _

theorem expShiftTwice_apply (r : Fin a) (c : Fin b) :
    expShiftTwice s hr hc hbr (ix2 r c) = expShift (mat s) r c := by
  show Ideal.exp (s (ix2 r c) - rowMaxTwiceSpread s hr hc hbr (ix2 r c)) = _
  rw [rowMaxTwiceSpread_apply]
  rfl

/-- The chain with the second maximum is the softmax of every row. -/
theorem quotTwice_apply (r : Fin a) (c : Fin b) : quotTwice s hr hc hbr (ix2 r c) = softmax (mat s) r c := by
  show Ideal.div (expShiftTwice s hr hc hbr (ix2 r c))
      (broadcastTo ⟨2, ![a, b]⟩ (shapeCast ⟨2, ![a, 1]⟩
        (multiReduction .add [1] ⟨1, ![a]⟩ (expShiftTwice s hr hc hbr) 0x00000000#32 hr (.inl rfl) rfl) hc) hbr (ix2 r c)) = _
  rw [rowSum_keepdims_broadcast_apply (expShiftTwice s hr hc hbr) 0x00000000#32 hr (.inl rfl) rfl hc hbr r c,
    expShiftTwice_apply]
  unfold softmax
  exact congrArg (Ideal.div (expShift (mat s) r c)) (Finset.sum_congr rfl fun f _ => expShiftTwice_apply s hr hc hbr r f)

end softmaxWithSecondMaximum

/-- Entry (r, e) of a plain [M, K] × [K, N] product into the zero accumulator, in the spelling of a kernel body's product. -/
theorem matmul_zero_at {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    matmul d prec lhs rhs (constant (F := Ideal) ⟨2, ![M, N]⟩ .f32 0x00000000#32) (ix2 r e)
      = ∑ k : Fin K, lhs (ix2 r k) * rhs (ix2 k e) :=
  matmul_plain_zero_apply d hd prec lhs rhs r e

/-- The two logits of the pooled row as the body spells them: the row times the named reciprocal, narrowed, times the
    first weights into the zero accumulator, plus the first bias row, positive part, narrowed, times the second
    weights into the zero accumulator, plus the second bias row. -/
def logitsVec (v25 : Vec Ideal S1x64 .f32) (v29 : Vec Ideal S64x32 .f32) (v32 : Vec Ideal S1x32 .f32)
    (v38 : Vec Ideal S32x2 .f32) (v41 : Vec Ideal S1x2 .f32) : FVec Ideal S1x2 .f32 :=
  have cst_14 : Ideal .f32 := Named.named κ "inv_100000" 0x3727C5AC#32
  have v26 : FVec Ideal S1x64 .f32 := broadcast S1x64 cst_14
  have v27 : FVec Ideal S1x64 .f32 := mulf v25 v26
  have v28 : FVec Ideal S1x64 .bf16 := truncf .bf16 v27 bitsLt_bf16_f32
  have v30 : FVec Ideal S64x32 .bf16 := truncf .bf16 v29 bitsLt_bf16_f32
  have cst_17 : FVec Ideal S1x32 .f32 := constant S1x32 .f32 0x00000000#32
  have v31 : FVec Ideal S1x32 .f32 := matmul dot_S1x64_S64x32_S1x32_1_0_0_1_n_n none v28 v30 cst_17
  have v33 : FVec Ideal S1x32 .f32 := shapeCast S1x32 v32 shapeCasts_S1x32_S1x32
  have v34 : FVec Ideal S1x32 .f32 := addf v31 v33
  have cst_20 : Ideal .f32 := Scalar.ofBits .f32 0x00000000#32
  have v35 : FVec Ideal S1x32 .f32 := broadcast S1x32 cst_20
  have v36 : FVec Ideal S1x32 .f32 := maximumf v34 v35
  have v37 : FVec Ideal S1x32 .bf16 := truncf .bf16 v36 bitsLt_bf16_f32
  have v39 : FVec Ideal S32x2 .bf16 := truncf .bf16 v38 bitsLt_bf16_f32
  have cst_23 : FVec Ideal S1x2 .f32 := constant S1x2 .f32 0x00000000#32
  have v40 : FVec Ideal S1x2 .f32 := matmul dot_S1x32_S32x2_S1x2_1_0_0_1_n_n none v37 v39 cst_23
  have v42 : FVec Ideal S1x2 .f32 := shapeCast S1x2 v41 shapeCasts_S1x2_S1x2
  addf v40 v42

/-- The stored block is the softmax chain (with its second maximum) of the logits row. -/
theorem k3_pay3_eq_quot (v25 : Vec Ideal S1x64 .f32) (v29 : Vec Ideal S64x32 .f32) (v32 : Vec Ideal S1x32 .f32)
    (v38 : Vec Ideal S32x2 .f32) (v41 : Vec Ideal S1x2 .f32) :
    k3_pay3 v25 v29 v32 v38 v41
      = quotTwice (logitsVec v25 v29 v32 v38 v41) reduces_S1x2_S1 shapeCasts_S1_S1x1 broadcasts_S1x1_S1x2 := rfl

/-- The logits row read at class q: the second dense layer on the hidden units of the pooled row's mean. -/
theorem logitsVec_apply (v25 : Vec Ideal S1x64 .f32) (v29 : Vec Ideal S64x32 .f32) (v32 : Vec Ideal S1x32 .f32)
    (v38 : Vec Ideal S32x2 .f32) (v41 : Vec Ideal S1x2 .f32) (q : Fin 2) :
    logitsVec v25 v29 v32 v38 v41 (ix2 (0 : Fin 1) q)
      = logits (fun f => v25 (ix2 (0 : Fin 1) f)) v29 (fun j => v32 (ix2 (0 : Fin 1) j)) v38
          (fun p => v41 (ix2 (0 : Fin 1) p)) (0 : Fin 1) q := by
  unfold logitsVec logits
  simp only [shapeCast_self]
  rw [addf_apply, matmul_zero_at dot_S1x32_S32x2_S1x2_1_0_0_1_n_n rfl]
  refine congrArg (fun z => z + v41 (ix2 (0 : Fin 1) q)) ?_
  refine Finset.sum_congr rfl fun j _ => ?_
  rw [truncf_apply, truncf_apply]
  refine congrArg (fun z => z * v38 (ix2 j q)) ?_
  unfold hidden
  rw [maximumf_apply, addf_apply, matmul_zero_at dot_S1x64_S64x32_S1x32_1_0_0_1_n_n rfl, broadcast_apply]
  refine congrArg (fun z => max (z + v32 (ix2 (0 : Fin 1) j)) zeroW) ?_
  refine Finset.sum_congr rfl fun f _ => ?_
  rw [truncf_apply, truncf_apply, mulf_apply, broadcast_apply, inv_nodes]

/-- The last point's stored block is the class probabilities of the pooled row. -/
theorem k3_pay3_apply (v25 : Vec Ideal S1x64 .f32) (v29 : Vec Ideal S64x32 .f32) (v32 : Vec Ideal S1x32 .f32)
    (v38 : Vec Ideal S32x2 .f32) (v41 : Vec Ideal S1x2 .f32) :
    k3_pay3 v25 v29 v32 v38 v41
      = classify (fun f => v25 (ix2 (0 : Fin 1) f)) v29 (fun j => v32 (ix2 (0 : Fin 1) j)) v38
          (fun q => v41 (ix2 (0 : Fin 1) q)) := by
  rw [k3_pay3_eq_quot]
  funext i
  obtain ⟨u, q, rfl⟩ : ∃ (u : Fin 1) (q : Fin 2), i = ix2 u q := ⟨i 0, i 1, eq_ix2 i⟩
  obtain rfl : u = 0 := Subsingleton.elim u 0
  rw [classify_apply, quotTwice_apply]
  have hs : mat (logitsVec v25 v29 v32 v38 v41)
      = logits (fun f => v25 (ix2 (0 : Fin 1) f)) v29 (fun j => v32 (ix2 (0 : Fin 1) j)) v38
          (fun p => v41 (ix2 (0 : Fin 1) p)) := by
    funext r p
    obtain rfl : r = 0 := Subsingleton.elim r 0
    exact logitsVec_apply v25 v29 v32 v38 v41 p
  rw [hs]

end Cert.KernelIdeal.Hand

end
-- ==== Proof.LibBlockSum.lean ====
/-
  Sums over array indices, re-indexed through coordinates.

  A rank-3 (rank-4) index set is the product of its coordinate ranges, so a sum over it is the iterated sum over the
  coordinates; and an axis of extent `T * B` cut into `T` blocks of `B` is summed block by block. Together these turn
  "the total over a whole array" into "the total, over the blocks that tile its leading axis, of each block's total" — the
  equation between a reference's one reduction over an array and a kernel's accumulation over a grid of row blocks.
-/
import Idealize.ShloMosaic.Lib.ValueIdx

noncomputable section

open scoped BigOperators

namespace Idealize.ShloMosaic.ValueIdx

open Idealize.ShloMosaic

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- Row `b` of block `t`, of `T` blocks of `B` rows: row `t * B + b` of the whole. -/
def blockRow {T B : Nat} (t : Fin T) (b : Fin B) : Fin (T * B) :=
  ⟨t.val * B + b.val, by
    have ht := t.isLt; have hb := b.isLt
    calc t.val * B + b.val < t.val * B + B := by omega
      _ = (t.val + 1) * B := by ring
      _ ≤ T * B := Nat.mul_le_mul_right B ht⟩

theorem blockRow_val {T B : Nat} (t : Fin T) (b : Fin B) : (blockRow t b).val = t.val * B + b.val := rfl

/-- The rows of an axis of extent `T * B` are the rows of its `T` blocks: a bijection. -/
def blockRowEquiv (T B : Nat) : Fin T × Fin B ≃ Fin (T * B) where
  toFun p := blockRow p.1 p.2
  invFun r := (⟨r.val / B, by
      have hr := r.isLt
      rcases Nat.eq_zero_or_pos B with hB | hB
      · subst hB; simp at hr
      · exact (Nat.div_lt_iff_lt_mul hB).mpr hr⟩,
    ⟨r.val % B, by
      have hr := r.isLt
      rcases Nat.eq_zero_or_pos B with hB | hB
      · subst hB; simp at hr
      · exact Nat.mod_lt _ hB⟩)
  left_inv p := by
    obtain ⟨t, b⟩ := p
    have hb := b.isLt
    have hB : 0 < B := by omega
    refine Prod.ext (Fin.ext ?_) (Fin.ext ?_)
    · show (t.val * B + b.val) / B = t.val
      rw [Nat.add_comm, Nat.add_mul_div_right _ _ hB, Nat.div_eq_of_lt hb, Nat.zero_add]
    · show (t.val * B + b.val) % B = b.val
      rw [Nat.add_comm, Nat.add_mul_mod_self_right, Nat.mod_eq_of_lt hb]
  right_inv r := by
    apply Fin.ext
    show r.val / B * B + r.val % B = r.val
    rw [Nat.mul_comm]; exact Nat.div_add_mod r.val B

/-- A sum over an axis of extent `T * B` is the sum over its `T` blocks of the sum over each block's `B` rows. -/
theorem sum_blockRows {M : Type*} [AddCommMonoid M] (T B : Nat) (f : Fin (T * B) → M) :
    ∑ r, f r = ∑ t : Fin T, ∑ b : Fin B, f (blockRow t b) := by
  rw [← Equiv.sum_comp (blockRowEquiv T B) f, Fintype.sum_prod_type]
  rfl

end Idealize.ShloMosaic.ValueIdx

end
-- ==== Proof.KernelIdealValue3.lean ====
/-
  Region 3, the closed form: the class probabilities the last region leaves in its output window, as ONE function of its
  seven operand arrays.

  The grid has 20 points; point t's blocks are rows 5000·t … 5000·t + 4999 of the aggregated features and of the
  normaliser column, and the whole of the five small arrays. Every point adds to the scratch row, feature by feature,
  the sum over its 5000 rows of the finished activation  max (s[r] · agg[r, f] + b[f]) 0 ; the first point starts the row
  at zero. After point n the row therefore holds the sum over the rows of blocks 0 … n, and after the last point the sum
  over all 100000 rows: the 20 blocks of 5000 rows tile them. The last point then stores the classifier of that pooled
  row, and that store is the one block written back to the output array.
-/
import proofs.«156777_j82712480186688_2_alg».proof.Proof.KernelIdealRegion3
import proofs.«156777_j82712480186688_2_alg».proof.Proof.KernelIdealValue3Pieces
import proofs.«156777_j82712480186688_2_alg».proof.Proof.KernelIdealValue3Pay
import proofs.«156777_j82712480186688_2_alg».proof.Proof.KernelIdealTailSpec
import proofs.«156777_j82712480186688_2_alg».proof.Proof.LibBlockSum
import Idealize.ShloMosaic.Lib.Pipeline.Value

noncomputable section

open scoped BigOperators

namespace Cert.KernelIdeal.Hand

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The blocks read at an entry -/

/-- The block indices of the seven input windows at every grid point: the two row-blocked windows sit at block row t,
    the five small arrays at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0 :=
  (by decide +kernel : ∀ t : Fin grid3.N, _)

/-- Row r of block t, of the 20 blocks of 5000 rows: row 5000·t + r of the whole. -/
def row3 (t : Fin 20) (r : Fin 5000) : Fin 100000 := ⟨t.val * 5000 + r.val, by have := t.isLt; have := r.isLt; omega⟩

/-- A sum over the 100000 rows is the sum over the 20 blocks of the sum over each block's 5000 rows. -/
theorem sum_rows3 (g : Fin 100000 → EReal) : ∑ x : Fin 100000, g x = ∑ t : Fin 20, ∑ r : Fin 5000, g (row3 t r) :=
  sum_blockRows 20 5000 g

/-- The aggregated block at point t is rows 5000·t … of the aggregated array. -/
theorem blk3_0 (c : Dev nD) (t : Fin cfg3.N) (ht : t.val < 20) (r : Fin 5000) (f : Fin 64) :
    (iblk3 V c 0 t : S5000x64.Idx → EReal) (ix2 r f) = (V c main_v49 : S100000x64.Idx → EReal) (ix2 (row3 ⟨t.val, ht⟩ r) f) := by
  obtain ⟨e00, e01, -⟩ := idx_facts3 t
  unfold iblk3
  rw [View.read_apply]
  refine congrArg (V c main_v49 : S100000x64.Idx → EReal) ?_
  funext a; apply Fin.ext
  match a with
  | ⟨0, _⟩ => show win3_0.index t (0 : Fin 2) * 5000 + 1 * r.val = t.val * 5000 + r.val; rw [e00]; omega
  | ⟨1, _⟩ => show win3_0.index t (1 : Fin 2) * 64 + 1 * f.val = f.val; rw [e01]; omega

/-- The normaliser block at point t is rows 5000·t … of the normaliser column. -/
theorem blk3_1 (c : Dev nD) (t : Fin cfg3.N) (ht : t.val < 20) (r : Fin 5000) :
    (iblk3 V c 1 t : S5000x1.Idx → EReal) (ix2 r (0 : Fin 1))
      = (V c main_v14 : S100000x1.Idx → EReal) (ix2 (row3 ⟨t.val, ht⟩ r) (0 : Fin 1)) := by
  obtain ⟨-, -, e10, e11, -⟩ := idx_facts3 t
  unfold iblk3
  rw [View.read_apply]
  refine congrArg (V c main_v14 : S100000x1.Idx → EReal) ?_
  funext a; apply Fin.ext
  match a with
  | ⟨0, _⟩ => show win3_1.index t (0 : Fin 2) * 5000 + 1 * r.val = t.val * 5000 + r.val; rw [e10]; omega
  | ⟨1, _⟩ => show win3_1.index t (1 : Fin 2) * 1 + 1 * 0 = 0; rw [e11]

/-- The bias row's block is the whole row at every point. -/
theorem blk3_2 (c : Dev nD) (t : Fin cfg3.N) : (iblk3 V c 2 t : S1x64.Idx → EReal) = (V c main_v50 : S1x64.Idx → EReal) := by
  obtain ⟨-, -, -, -, e0, e1, -⟩ := idx_facts3 t
  funext j
  unfold iblk3
  rw [View.read_apply]
  refine congrArg (V c main_v50 : S1x64.Idx → EReal) ?_
  funext a; apply Fin.ext
  match a with
  | ⟨0, _⟩ => show win3_2.index t (0 : Fin 2) * 1 + 1 * (j 0).val = (j 0).val; rw [e0]; omega
  | ⟨1, _⟩ => show win3_2.index t (1 : Fin 2) * 64 + 1 * (j 1).val = (j 1).val; rw [e1]; omega

/-- The first classifier weights' block is the whole matrix at every point. -/
theorem blk3_3 (c : Dev nD) (t : Fin cfg3.N) : (iblk3 V c 3 t : S64x32.Idx → EReal) = (V c main_arg8 : S64x32.Idx → EReal) := by
  obtain ⟨-, -, -, -, -, -, e0, e1, -⟩ := idx_facts3 t
  funext j
  unfold iblk3
  rw [View.read_apply]
  refine congrArg (V c main_arg8 : S64x32.Idx → EReal) ?_
  funext a; apply Fin.ext
  match a with
  | ⟨0, _⟩ => show win3_3.index t (0 : Fin 2) * 64 + 1 * (j 0).val = (j 0).val; rw [e0]; omega
  | ⟨1, _⟩ => show win3_3.index t (1 : Fin 2) * 32 + 1 * (j 1).val = (j 1).val; rw [e1]; omega

/-- The first classifier bias row's block is the whole row at every point. -/
theorem blk3_4 (c : Dev nD) (t : Fin cfg3.N) : (iblk3 V c 4 t : S1x32.Idx → EReal) = (V c main_v51 : S1x32.Idx → EReal) := by
  obtain ⟨-, -, -, -, -, -, -, -, e0, e1, -⟩ := idx_facts3 t
  funext j
  unfold iblk3
  rw [View.read_apply]
  refine congrArg (V c main_v51 : S1x32.Idx → EReal) ?_
  funext a; apply Fin.ext
  match a with
  | ⟨0, _⟩ => show win3_4.index t (0 : Fin 2) * 1 + 1 * (j 0).val = (j 0).val; rw [e0]; omega
  | ⟨1, _⟩ => show win3_4.index t (1 : Fin 2) * 32 + 1 * (j 1).val = (j 1).val; rw [e1]; omega

/-- The second classifier weights' block is the whole matrix at every point. -/
theorem blk3_5 (c : Dev nD) (t : Fin cfg3.N) : (iblk3 V c 5 t : S32x2.Idx → EReal) = (V c main_arg10 : S32x2.Idx → EReal) := by
  obtain ⟨-, -, -, -, -, -, -, -, -, -, e0, e1, -⟩ := idx_facts3 t
  funext j
  unfold iblk3
  rw [View.read_apply]
  refine congrArg (V c main_arg10 : S32x2.Idx → EReal) ?_
  funext a; apply Fin.ext
  match a with
  | ⟨0, _⟩ => show win3_5.index t (0 : Fin 2) * 32 + 1 * (j 0).val = (j 0).val; rw [e0]; omega
  | ⟨1, _⟩ => show win3_5.index t (1 : Fin 2) * 2 + 1 * (j 1).val = (j 1).val; rw [e1]; omega

/-- The second classifier bias row's block is the whole row at every point. -/
theorem blk3_6 (c : Dev nD) (t : Fin cfg3.N) : (iblk3 V c 6 t : S1x2.Idx → EReal) = (V c main_v52 : S1x2.Idx → EReal) := by
  obtain ⟨-, -, -, -, -, -, -, -, -, -, -, -, e0, e1⟩ := idx_facts3 t
  funext j
  unfold iblk3
  rw [View.read_apply]
  refine congrArg (V c main_v52 : S1x2.Idx → EReal) ?_
  funext a; apply Fin.ext
  match a with
  | ⟨0, _⟩ => show win3_6.index t (0 : Fin 2) * 1 + 1 * (j 0).val = (j 0).val; rw [e0]; omega
  | ⟨1, _⟩ => show win3_6.index t (1 : Fin 2) * 2 + 1 * (j 1).val = (j 1).val; rw [e1]; omega

/-! ## The scratch row point by point -/

/-- What block t adds to feature f of the pooled row: the sum over its 5000 rows of the finished activation. -/
def blockPool3 (c : Dev nD) (t : Fin 20) (f : Fin 64) : EReal :=
  ∑ r : Fin 5000, act64 (V c main_v49) (V c main_v14) (V c main_v50) (row3 t r) f

/-- The same at a natural number, zero past the grid. -/
def blockPoolN3 (c : Dev nD) (n : ℕ) (f : Fin 64) : EReal :=
  if h : n < 20 then blockPool3 V c ⟨n, h⟩ f else 0

/-- One point's update of the scratch row at feature f: what the row held plus the block's pooled activation. -/
theorem step3 (c : Dev nD) (t : Fin cfg3.N) (xs : Vec Ideal S1x64 .f32) (f : Fin 64) :
    k3_pay2 (iblk3 V c 1 t) (iblk3 V c 0 t) (iblk3 V c 2 t) xs (ix2 (0 : Fin 1) f)
      = xs (ix2 (0 : Fin 1) f) + blockPoolN3 V c t.val f := by
  have ht : t.val < 20 := t.isLt
  rw [k3_pay2_apply]
  congr 1
  unfold blockPoolN3
  rw [dif_pos ht]
  unfold blockPool3
  refine Finset.sum_congr rfl fun r _ => ?_
  rw [blk3_1 V c t ht r, blk3_0 V c t ht r f, blk3_2 V c t]
  rfl

/-- After point n the scratch row holds, at feature f, the pooled activation of blocks 0 … n. -/
theorem acc3_entry (c : Dev nD) (f : Fin 64) : ∀ (n : ℕ) (hn : n < cfg3.N),
    acc3 V c n hn (ix2 (0 : Fin 1) f) = ∑ s ∈ Finset.range (n + 1), blockPoolN3 V c s f
  | 0, hn => by
    refine (congrFun (acc3_A V c ⟨0, hn⟩ rfl (by show ¬ (0 : ℕ) = 19; decide)) (ix2 (0 : Fin 1) f)).trans ?_
    rw [sout3_A_eq, step3, k3_pay1_apply, Finset.sum_range_one]
    show zeroW + blockPoolN3 V c 0 f = blockPoolN3 V c 0 f
    rw [show zeroW = 0 from Ideal.ofBits_zero_f32, zero_add]
  | n + 1, hn => by
    have ih := acc3_entry c f n (Nat.lt_of_succ_lt hn)
    by_cases h19 : n + 1 = 19
    · refine (congrFun (acc3_C V c ⟨n + 1, hn⟩ (Nat.succ_ne_zero n) h19) (ix2 (0 : Fin 1) f)).trans ?_
      rw [sout3_C_eq, step3, Finset.sum_range_succ]
      show acc3 V c n _ (ix2 (0 : Fin 1) f) + blockPoolN3 V c (n + 1) f = _
      rw [ih]
    · refine (congrFun (acc3_B V c ⟨n + 1, hn⟩ (Nat.succ_ne_zero n) h19) (ix2 (0 : Fin 1) f)).trans ?_
      rw [sout3_B_eq, step3, Finset.sum_range_succ]
      show acc3 V c n _ (ix2 (0 : Fin 1) f) + blockPoolN3 V c (n + 1) f = _
      rw [ih]

/-- The 20 blocks' pooled activations add up to the sum over all 100000 rows. -/
theorem pooled_sum3 (c : Dev nD) (f : Fin 64) :
    ∑ s ∈ Finset.range 20, blockPoolN3 V c s f = ∑ x : Fin 100000, act64 (V c main_v49) (V c main_v14) (V c main_v50) x f := by
  rw [Finset.sum_range, sum_rows3]
  refine Finset.sum_congr rfl fun t _ => ?_
  unfold blockPoolN3
  rw [dif_pos t.isLt]
  rfl

/-! ## The stored block, and the array -/

/-- What the last point stores: the classifier of the row pooled over all nodes. -/
theorem out3_7_closed (c : Dev nD) :
    out3_7 (F := Ideal) V c
      = classify (fun f => ∑ x : Fin 100000, act64 (V c main_v49) (V c main_v14) (V c main_v50) x f) (V c main_arg8)
          (fun j => (V c main_v51 : S1x32.Idx → EReal) (ix2 (0 : Fin 1) j)) (V c main_arg10)
          (fun q => (V c main_v52 : S1x2.Idx → EReal) (ix2 (0 : Fin 1) q)) := by
  unfold out3_7
  rw [out3_C_7_eq, k3_pay3_apply, blk3_3 V c t19, blk3_4 V c t19, blk3_5 V c t19, blk3_6 V c t19]
  refine congrArg (fun p => classify p (V c main_arg8) _ (V c main_arg10) _) (funext fun f => ?_)
  rw [step3, acc3_entry V c f 18]
  show (∑ s ∈ Finset.range 19, blockPoolN3 V c s f) + blockPoolN3 V c 19 f = _
  rw [← Finset.sum_range_succ]
  exact pooled_sum3 V c f

/-- The array region 3 leaves in its output window. -/
theorem value3 (c : Dev nD) :
    (dat3 (F := Ideal) V c).arrAt 7 cfg3.N
      = classify (fun f => ∑ r : Fin 100000, act64 (V c main_v49) (V c main_v14) (V c main_v50) r f) (V c main_arg8)
          (fun j => (V c main_v51 : S1x32.Idx → EReal) (ix2 (0 : Fin 1) j)) (V c main_arg10)
          (fun q => (V c main_v52 : S1x2.Idx → EReal) (ix2 (0 : Fin 1) q)) :=
  (final3 V c).trans (out3_7_closed V c)

end Cert.KernelIdeal.Hand

end
-- ==== Proof.KernelIdealChain.lean ====
/-
  The idealized kernel's result buffer when @main returns, as ONE function of @main's twelve arguments.

  The last region leaves in its output array the classifier on the pooled row of its entry contents; those contents are, buffer
  by buffer, the functions of the arguments the earlier segments compute. Composed, the result buffer is  kernelOut  of the
  arguments: three graph-convolution layers normalised at the nodes, the sum over all nodes, the mean, two dense layers and
  the softmax of the two logits. The composition is stated first with the last region's own value as a hypothesis at the region's
  entry contents, then with that value supplied.
-/
import proofs.«156777_j82712480186688_2_alg».proof.Proof.KernelIdealChainA
import proofs.«156777_j82712480186688_2_alg».proof.Proof.KernelIdealRunBounds3
import proofs.«156777_j82712480186688_2_alg».proof.Proof.KernelIdealValue3

noncomputable section

namespace Cert.KernelIdeal.Hand

open Cert.KernelIdeal Cert.KernelIdeal.Gen Cert.KernelIdeal.GenP
open Idealize.ShloMosaic Idealize.ShloMosaic.ValueIdx Idealize.ShloMosaic.TcCoe Idealize.SL.Sem
open Idealize.ShloMosaic.Pipeline (Dat)

/-- If the last region leaves the classifier on the pooled row of its entry contents, the result buffer at @main's return is
    the kernel's function of the launch contents of the twelve arguments. -/
theorem kernel_value_of (m : (ℓ : Loc nD τ sig) → Buf (Elt Ideal) ℓ) (ρ : Dev nD → PrngReg) (c : Dev nD)
    (h3 : (dat3 (F := Ideal) (V7 m ρ) c).arrAt 7 cfg3.N
      = classify (fun f => ∑ r : Fin 100000, act64 (V7 m ρ c main_v49) (V7 m ρ c main_v14) (V7 m ρ c main_v50) r f)
          (V7 m ρ c main_arg8) (fun j => V7 m ρ c main_v51 (ix2 (0 : Fin 1) j)) (V7 m ρ c main_arg10)
          (fun q => V7 m ρ c main_v52 (ix2 (0 : Fin 1) q))) :
    W8 m ρ c (Proc.devRef .tc main_v53)
      = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11)) :=
  (W8_main_v53 m ρ c).trans (h3.trans (entry3_value m ρ c))

/-- The result buffer at @main's return is the kernel's function of the launch contents of the twelve arguments. -/
theorem kernel_value (m : (ℓ : Loc nD τ sig) → Buf (Elt Ideal) ℓ) (ρ : Dev nD → PrngReg) (c : Dev nD) :
    W8 m ρ c (Proc.devRef .tc main_v53)
      = kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11)) :=
  kernel_value_of m ρ c (value3 (V7 m ρ) c)

end Cert.KernelIdeal.Hand

end
-- ==== Proof.BridgeBase.lean ====
/-
  Small facts the comparison of the two programs rests on.
  * The two programs build the edge lists, the columns the gathers and scatters read, and the normaliser by the same host lines:
    the kernel program's functions ARE the reference's stages (by definition).
  * The normaliser  s = 1/√(max(deg, 1))  is a nonnegative real at every node:  max(deg, 1) ≥ 1 , and the reciprocal square root of
    an extended real ≥ 1 is 0 at +∞ and a nonnegative real otherwise.
  * The column a gather of  s  at the destinations reads (negative numbers shifted by the number of nodes) agrees with the raw
    destination column wherever that one is in range: there the number is not negative, so nothing is shifted.
  * A bias vector laid out as a row, and the normaliser vector laid out as a column, hold the vector's entries.
-/
import proofs.«156777_j82712480186688_2_alg».proof.Proof.KernelIdealOut
import proofs.«156777_j82712480186688_2_alg».proof.Proof.Gen.ReferenceIdeal.Read
import proofs.«156777_j82712480186688_2_alg».proof.Proof.LibKeepdims
import Idealize.ShloMosaic.Lib.ValueLayout
import Idealize.ShloMosaic.Lib.Pipeline.Value

noncomputable section

namespace Cert.KernelIdeal.Hand

open Idealize.ShloMosaic Idealize.ShloMosaic.ValueIdx
open Cert.KernelIdeal Cert.KernelIdeal.Gen Cert.KernelIdeal.GenP
open Cert.ReferenceIdeal.Read

/-! ## The reciprocal square root of an extended real that is at least one -/

theorem rsqrt_of_one_le {x : EReal} (hx : 1 ≤ x) : 0 ≤ Ideal.rsqrt x ∧ Ideal.rsqrt x ≠ ⊤ := by
  induction x using EReal.rec with
  | bot => exact absurd (le_bot_iff.mp hx) (by simpa using EReal.coe_ne_bot (1 : ℝ))
  | top => simp
  | coe r =>
    have hr : (1 : ℝ) ≤ r := by exact_mod_cast hx
    rw [Ideal.rsqrt_coe, if_neg (by linarith), if_neg (by linarith)]
    exact ⟨by exact_mod_cast inv_nonneg.mpr (Real.sqrt_nonneg r), EReal.coe_ne_top _⟩

/-- The f32 word of 1.0 is the number one. -/
theorem one_word : Ideal.ofBits .f32 0x3F800000#32 = 1 := by
  simp [Ideal.ofBits, Ideal.ieee]
  rw [← EReal.coe_mul, ← EReal.coe_one]
  congr 1
  norm_num

section
variable (x1 : (⟨S2x1600000, .i32⟩ : BufTy).Contents (Elt Ideal))

/-! ## The shared host quantities are the reference's stages -/

theorem norm_is : normVec (F := Ideal) (dstList x1) = val_main_v13 (F := Ideal) x1 := rfl
theorem srcCol_is : wrapCol (F := Ideal) (srcList x1) = val_main_v35 (F := Ideal) x1 := rfl
theorem dstCol_is : rawCol (F := Ideal) (dstList x1) = val_main_v41 (F := Ideal) x1 := rfl
theorem srcCol19 : val_main_v19 (F := Ideal) x1 = val_main_v35 (F := Ideal) x1 := rfl
theorem srcCol53 : val_main_v53 (F := Ideal) x1 = val_main_v35 (F := Ideal) x1 := rfl
theorem srcCol71 : val_main_v71 (F := Ideal) x1 = val_main_v35 (F := Ideal) x1 := rfl
theorem dstCol59 : val_main_v59 (F := Ideal) x1 = val_main_v41 (F := Ideal) x1 := rfl
theorem dstCol77 : val_main_v77 (F := Ideal) x1 = val_main_v41 (F := Ideal) x1 := rfl

/-! ## The normaliser is a nonnegative real -/

theorem norm_nonneg (i : S100000.Idx) :
    0 ≤ val_main_v13 (F := Ideal) x1 i ∧ val_main_v13 (F := Ideal) x1 i ≠ ⊤ := by
  rw [val_main_v13_apply, val_main_v12_apply, val_main_v11_apply, val_main_cst_1_apply]
  simp only [Ideal.hostUnary_rsqrt_def, Ideal.maximumf_def, Ideal.ofBits_def, one_word]
  exact rsqrt_of_one_le (le_max_right _ _)

/-! ## The wrapped destination column agrees with the raw one in range -/

theorem idx26 (e : Fin 1700000) : idx_main_v26 (ix2 e (0 : Fin 1)) = ix1 e :=
  funext fun a => match a with | ⟨0, _⟩ => rfl
theorem idx41 (e : Fin 1700000) : idx_main_v41 (ix2 e (0 : Fin 1)) = ix1 e :=
  funext fun a => match a with | ⟨0, _⟩ => rfl

theorem dstWrap_agrees (e : Fin 1700000)
    (h0 : 0 ≤ (val_main_v41 (F := Ideal) x1 (ix2 e (0 : Fin 1))).toInt)
    (_h1 : (val_main_v41 (F := Ideal) x1 (ix2 e (0 : Fin 1))).toInt < (100000 : ℤ)) :
    val_main_v26 (F := Ideal) x1 (ix2 e (0 : Fin 1)) = val_main_v41 (F := Ideal) x1 (ix2 e (0 : Fin 1)) := by
  rw [val_main_v41_apply, idx41] at h0 ⊢
  rw [val_main_v26_apply, idx26, val_main_v25_apply, val_main_v22_apply, val_main_v21_apply, val_main_c_3_apply]
  generalize val_main_v6 (F := Ideal) x1 (ix1 e) = d at h0 ⊢
  have hs : BitVec.slt d 0#32 = false := by
    unfold BitVec.slt
    exact decide_eq_false (by simpa using h0)
  simp only [IntOp.cmpi, hs, Scalar.select]
  rfl

end

/-! ## Layouts read at an index -/

theorem normCol_apply (dst : (⟨S1700000, .i32⟩ : BufTy).Contents (Elt Ideal)) (r : Fin 100000) :
    normCol (F := Ideal) dst (ix2 r (0 : Fin 1)) = normVec (F := Ideal) dst (ix1 r) :=
  Cert.LibKeepdims.shapeCast_a_a1_apply _ shapeCasts_S100000_S100000x1 r 0

theorem row128_apply (b : (⟨S128, .f32⟩ : BufTy).Contents (Elt Ideal)) (k : Fin 128) :
    row128 b (ix2 (0 : Fin 1) k) = b (ix1 k) := ValueIdx.shapeCast_a_1a_apply _ shapeCasts_S128_S1x128 0 k
theorem row64_apply (b : (⟨S64, .f32⟩ : BufTy).Contents (Elt Ideal)) (k : Fin 64) :
    row64 b (ix2 (0 : Fin 1) k) = b (ix1 k) := ValueIdx.shapeCast_a_1a_apply _ shapeCasts_S64_S1x64 0 k
theorem row32_apply (b : (⟨S32, .f32⟩ : BufTy).Contents (Elt Ideal)) (k : Fin 32) :
    row32 b (ix2 (0 : Fin 1) k) = b (ix1 k) := ValueIdx.shapeCast_a_1a_apply _ shapeCasts_S32_S1x32 0 k
theorem row2_apply (b : (⟨S2, .f32⟩ : BufTy).Contents (Elt Ideal)) (k : Fin 2) :
    row2 b (ix2 (0 : Fin 1) k) = b (ix1 k) := ValueIdx.shapeCast_a_1a_apply _ shapeCasts_S2_S1x2 0 k

end Cert.KernelIdeal.Hand

end
-- ==== Proof.LibHostRowFold.lean ====
/-
  A host reduction over the last axis of a matrix, read at a row.

  A one-operand reduction of an `[a, b]` matrix over its last axis with a commutative and associative body `op`
  (a maximum, a minimum) holds, at row `i`, the fold of `op` from the initial value over that row's entries
  `(i, f)`, `f < b`. Stated for any extents, any element type and any such body.
-/
import Idealize.ShloMosaic.Lib.ValueIdx
import Idealize.ShloMosaic.PureOps.Reduce

noncomputable section

namespace Cert.LibHostRowFold

open Idealize.ShloMosaic Idealize.ShloMosaic.ValueIdx

/-- The host's reduce over the last axis of an `[a, b]` matrix reads, at row `i`, the fold of the body from the
    initial value over the row's entries. -/
theorem hostReduce_lastAxis_apply {α : Type} {a b : ℕ} {u : Shape} (op : α → α → α) [Std.Commutative op] [Std.Associative op]
    (x : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce op x init h' hu (ix1 i)
      = (Finset.univ : Finset (Fin b)).fold op (init (Shape.Idx.first hu)) (fun f : Fin b => x (ix2 i f)) := by
  refine (Host.reduce_eq_fold_single op x init h' h hu (ix1 i)).trans ?_
  refine congrArg (fun g => (Finset.univ : Finset (Fin b)).fold op (init (Shape.Idx.first hu)) g) ?_
  funext f
  exact congrArg x (funext fun d => Fin.ext (by
    match d with
    | ⟨0, _⟩ => rfl
    | ⟨1, _⟩ => rfl))

end Cert.LibHostRowFold

end
-- ==== Proof.RefSideLayers.lean ====
/-
  The reference's three graph-convolution layers read one host operation at a time, at the extended reals: each product with the layer
  weights as a sum, each activation as the aggregated entry plus the bias with positive part, each per-edge message as the gathered
  row times the edge's weight, and the pooled row as a sum over the nodes.
-/
import proofs.«156777_j82712480186688_2_alg».proof.Proof.Gen.ReferenceIdeal.Run
import proofs.«156777_j82712480186688_2_alg».proof.Proof.Gen.ReferenceIdeal.Read
import proofs.«156777_j82712480186688_2_alg».proof.Proof.KernelIdealTailSpec
import proofs.«156777_j82712480186688_2_alg».proof.Proof.LibHostRowFold

noncomputable section

namespace Cert.ReferenceIdeal.RefValue

open Cert.ReferenceIdeal Cert.ReferenceIdeal.Read Cert.KernelIdeal.Hand Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))
  (x8 : (⟨S64x32, .f32⟩ : BufTy).Contents (Elt Ideal)) (x9 : (⟨S32, .f32⟩ : BufTy).Contents (Elt Ideal))
  (x10 : (⟨S32x2, .f32⟩ : BufTy).Contents (Elt Ideal)) (x11 : (⟨S2, .f32⟩ : BufTy).Contents (Elt Ideal))

/-! ## The three products with the layer weights, entry by entry -/

/-- Entry (r, e) of the first layer's product: row r of the node features against column e of the weights. -/
theorem dot1_apply (r : Fin 100000) (e : Fin 128) :
    val_main_v29 (F := Ideal) x0 x2 (ix2 r e) = ∑ k : Fin 64, x0 (ix2 r k) * x2 (ix2 k e) := by
  rw [val_main_v29_apply]
  refine Finset.sum_congr rfl fun k _ => ?_
  have el : lidx_main_v29 (ix2 r e) k = ix2 r k := funext fun a => Fin.ext (by match a with | ⟨0, _⟩ => rfl | ⟨1, _⟩ => rfl)
  have er : ridx_main_v29 (ix2 r e) k = ix2 k e := funext fun a => Fin.ext (by match a with | ⟨0, _⟩ => rfl | ⟨1, _⟩ => rfl)
  rw [el, er]

/-- Entry (r, e) of the second layer's product: row r of the first layer's activation against column e of the weights. -/
theorem dot2_apply (r : Fin 100000) (e : Fin 128) :
    val_main_v47 (F := Ideal) x0 x1 x2 x3 x4 (ix2 r e) = ∑ k : Fin 128, val_main_v46 (F := Ideal) x0 x1 x2 x3 (ix2 r k) * x4 (ix2 k e) := by
  rw [val_main_v47_apply]
  refine Finset.sum_congr rfl fun k _ => ?_
  have el : lidx_main_v47 (ix2 r e) k = ix2 r k := funext fun a => Fin.ext (by match a with | ⟨0, _⟩ => rfl | ⟨1, _⟩ => rfl)
  have er : ridx_main_v47 (ix2 r e) k = ix2 k e := funext fun a => Fin.ext (by match a with | ⟨0, _⟩ => rfl | ⟨1, _⟩ => rfl)
  rw [el, er]

/-- Entry (r, e) of the third layer's product: row r of the second layer's activation against column e of the weights. -/
theorem dot3_apply (r : Fin 100000) (e : Fin 64) :
    val_main_v65 (F := Ideal) x0 x1 x2 x3 x4 x5 x6 (ix2 r e) = ∑ k : Fin 128, val_main_v64 (F := Ideal) x0 x1 x2 x3 x4 x5 (ix2 r k) * x6 (ix2 k e) := by
  rw [val_main_v65_apply]
  refine Finset.sum_congr rfl fun k _ => ?_
  have el : lidx_main_v65 (ix2 r e) k = ix2 r k := funext fun a => Fin.ext (by match a with | ⟨0, _⟩ => rfl | ⟨1, _⟩ => rfl)
  have er : ridx_main_v65 (ix2 r e) k = ix2 k e := funext fun a => Fin.ext (by match a with | ⟨0, _⟩ => rfl | ⟨1, _⟩ => rfl)
  rw [el, er]

/-! ## Each layer's activation: the aggregated entry plus the bias, positive part -/

theorem act1_apply (r : Fin 100000) (k : Fin 128) :
    val_main_v46 (F := Ideal) x0 x1 x2 x3 (ix2 r k) = max (val_main_v42 (F := Ideal) x0 x1 x2 (ix2 r k) + x3 (ix1 k)) zeroW := by
  rw [val_main_v46_apply, val_main_v45_apply, val_main_v44_apply, val_main_v43_apply, val_main_call0_v0_apply, val_main_call0_cst_apply]
  have e : idx_main_v43 (idx_main_v44 (ix2 r k)) = ix1 k := funext fun a => Fin.ext (by match a with | ⟨0, _⟩ => rfl)
  rw [e]; rfl

theorem act2_apply (r : Fin 100000) (k : Fin 128) :
    val_main_v64 (F := Ideal) x0 x1 x2 x3 x4 x5 (ix2 r k) = max (val_main_v60 (F := Ideal) x0 x1 x2 x3 x4 (ix2 r k) + x5 (ix1 k)) zeroW := by
  rw [val_main_v64_apply, val_main_v63_apply, val_main_v62_apply, val_main_v61_apply, val_main_call1_v0_apply, val_main_call1_cst_apply]
  have e : idx_main_v61 (idx_main_v62 (ix2 r k)) = ix1 k := funext fun a => Fin.ext (by match a with | ⟨0, _⟩ => rfl)
  rw [e]; rfl

theorem act3_apply (r : Fin 100000) (k : Fin 64) :
    val_main_v82 (F := Ideal) x0 x1 x2 x3 x4 x5 x6 x7 (ix2 r k) = max (val_main_v78 (F := Ideal) x0 x1 x2 x3 x4 x5 x6 (ix2 r k) + x7 (ix1 k)) zeroW := by
  rw [val_main_v82_apply, val_main_v81_apply, val_main_v80_apply, val_main_v79_apply, val_main_call2_v0_apply, val_main_call2_cst_apply]
  have e : idx_main_v79 (idx_main_v80 (ix2 r k)) = ix1 k := funext fun a => Fin.ext (by match a with | ⟨0, _⟩ => rfl)
  rw [e]; rfl

/-! ## The pooled row: each feature summed over all the nodes, from the zero word -/

theorem pooled_apply (f : Fin 64) :
    val_main_v83 (F := Ideal) x0 x1 x2 x3 x4 x5 x6 x7 (ix1 f) = zeroW + ∑ r : Fin 100000, val_main_v82 (F := Ideal) x0 x1 x2 x3 x4 x5 x6 x7 (ix2 r f) := by
  rw [val_main_v83_apply]
  refine congrArg (zeroW + ·) (Finset.sum_congr rfl fun r _ => ?_)
  exact congrArg _ (funext fun a => Fin.ext (by match a with | ⟨0, _⟩ => rfl | ⟨1, _⟩ => rfl))

/-! ## The per-edge messages -/

/-- Layer 1's message on edge slot j 0, feature j 1: the source node's row of the layer's product, times the edge's weight — the
    normaliser gathered at the edge's source times the normaliser gathered at its destination. -/
theorem msg1_eq :
    val_main_v39 (F := Ideal) x0 x1 x2 = fun j => Host.gather gather_S100000x128_S1700000x1_S1700000x128_1_0_n_n_0_1_1128 (val_main_v29 (F := Ideal) x0 x2) (val_main_v35 (F := Ideal) x1) j
      * (Host.gather gather_S100000_S1700000x1_S1700000_n_0_n_n_0_1_1 (val_main_v13 (F := Ideal) x1) (val_main_v19 (F := Ideal) x1) (ix1 (j 0))
        * Host.gather gather_S100000_S1700000x1_S1700000_n_0_n_n_0_1_1 (val_main_v13 (F := Ideal) x1) (val_main_v26 (F := Ideal) x1) (ix1 (j 0))) := by
  funext j
  rw [val_main_v39_apply, val_main_v38_apply, val_main_v37_apply, val_main_v28_apply]
  have e : idx_main_v37 (idx_main_v38 j) = ix1 (j 0) := funext fun a => Fin.ext (by match a with | ⟨0, _⟩ => rfl)
  rw [e]
  rfl

/-- Layer 2's message on edge slot j 0, feature j 1: the source node's row of the layer's product, times the edge's weight — the
    normaliser gathered at the edge's source times the normaliser gathered at its destination. -/
theorem msg2_eq :
    val_main_v57 (F := Ideal) x0 x1 x2 x3 x4 = fun j => Host.gather gather_S100000x128_S1700000x1_S1700000x128_1_0_n_n_0_1_1128 (val_main_v47 (F := Ideal) x0 x1 x2 x3 x4) (val_main_v53 (F := Ideal) x1) j
      * (Host.gather gather_S100000_S1700000x1_S1700000_n_0_n_n_0_1_1 (val_main_v13 (F := Ideal) x1) (val_main_v19 (F := Ideal) x1) (ix1 (j 0))
        * Host.gather gather_S100000_S1700000x1_S1700000_n_0_n_n_0_1_1 (val_main_v13 (F := Ideal) x1) (val_main_v26 (F := Ideal) x1) (ix1 (j 0))) := by
  funext j
  rw [val_main_v57_apply, val_main_v56_apply, val_main_v55_apply, val_main_v28_apply]
  have e : idx_main_v55 (idx_main_v56 j) = ix1 (j 0) := funext fun a => Fin.ext (by match a with | ⟨0, _⟩ => rfl)
  rw [e]
  rfl

/-- Layer 3's message on edge slot j 0, feature j 1: the source node's row of the layer's product, times the edge's weight — the
    normaliser gathered at the edge's source times the normaliser gathered at its destination. -/
theorem msg3_eq :
    val_main_v75 (F := Ideal) x0 x1 x2 x3 x4 x5 x6 = fun j => Host.gather gather_S100000x64_S1700000x1_S1700000x64_1_0_n_n_0_1_164 (val_main_v65 (F := Ideal) x0 x1 x2 x3 x4 x5 x6) (val_main_v71 (F := Ideal) x1) j
      * (Host.gather gather_S100000_S1700000x1_S1700000_n_0_n_n_0_1_1 (val_main_v13 (F := Ideal) x1) (val_main_v19 (F := Ideal) x1) (ix1 (j 0))
        * Host.gather gather_S100000_S1700000x1_S1700000_n_0_n_n_0_1_1 (val_main_v13 (F := Ideal) x1) (val_main_v26 (F := Ideal) x1) (ix1 (j 0))) := by
  funext j
  rw [val_main_v75_apply, val_main_v74_apply, val_main_v73_apply, val_main_v28_apply]
  have e : idx_main_v73 (idx_main_v74 j) = ix1 (j 0) := funext fun a => Fin.ext (by match a with | ⟨0, _⟩ => rfl)
  rw [e]
  rfl

end Cert.ReferenceIdeal.RefValue

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibScaledAggregate.lean ====
/-
  GENERAL LEMMA: a per-node scaling of a message-passing layer's aggregation MOVES ONTO THE EDGES.

  In a layer over a graph with N nodes and E edges, features of width C, every edge e carries the row of its source
  node  src e  to its destination node  dst e, where the rows that arrive are added up: a row gather  H[src]  followed
  by an accumulating row scatter, from zero, through the column  dst. Let  s : [N]  be a per-node factor. Scaling the
  rows per SOURCE node before they travel and the sum per DESTINATION node after it,

      s p · Σ_{e : dst e = p}  H[src e, q] · s[src e],

  is the same as scattering the unscaled rows, each multiplied by its edge's weight  s[src e] · s[dst e]:

      Σ_{e : dst e = p}  H[src e, q] · (s[src e] · s[dst e]).

  Here  s[dst e]  is itself gathered, through a second column  dwrap  that agrees with the scatter's column  dcol
  wherever the scatter's index is in range [0, N) — which is every edge that contributes: a scatter index is not
  clamped, an update whose row leaves the operand is dropped, so for a contributing edge  dcol e = p  exactly, the
  gather of  s  at  dwrap e = dcol e  is not clamped either, and it reads  s p.

  On the extended reals this needs only that every  s i  is a nonnegative real: such a factor distributes over any
  finite sum, infinite terms included (by induction on the sum, from the two-term law); multiplication there is
  commutative and associative. No finiteness of  H  is assumed. Any extents N, E, C, any index width w.
-/
import proofs.«156777_j82712480186688_2_alg».proof.Proof.LibEdgeReads

noncomputable section

namespace Cert.LibScaledAggregate

open Idealize.ShloMosaic Idealize.ShloMosaic.ValueIdx Cert.LibEdgeReads
open scoped BigOperators

/-- A nonnegative real factor distributes over any finite sum of extended reals (infinite terms included). -/
theorem mul_sum_of_nonneg_of_ne_top {ι : Type} (c : EReal) (hc : 0 ≤ c) (hc' : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top hc hc', ih]

/-- SCALING OUT OF THE AGGREGATION: the destination's factor times the scattered sum of source-scaled gathered rows is
    the scattered sum of the gathered rows each times its edge weight `s[src e] · s[dwrap e]`, for a nonnegative real
    factor `s` and a column `dwrap` that agrees with the scatter's column wherever that one is in range. -/
theorem aggregate_scale_out {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : (⟨2, ![N, C]⟩ : Shape).Idx → EReal) (s : (⟨1, ![N]⟩ : Shape).Idx → EReal)
    (hs : ∀ i, 0 ≤ s i ∧ s i ≠ ⊤)
    (z z' : (⟨2, ![N, C]⟩ : Shape).Idx → EReal) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Ideal.hostScatterAdd dS z dcol (Host.gather dG (fun i => H i * s (ix1 (i 0))) src) (ix2 p q)
      = Ideal.hostScatterAdd dS' z' dcol (fun j => Host.gather dG' H src j
          * (Host.gather dg s src (ix1 (j 0)) * Host.gather dg s dwrap (ix1 (j 0)))) (ix2 p q) := by
  subst hS hS' hG hG' hg
  -- both sides: zero plus the sum over the updates that land on (p, q); the factor goes inside the sum
  unfold Ideal.hostScatterAdd
  rw [hz, hz', zero_add, zero_add, mul_sum_of_nonneg_of_ne_top _ (hs _).1 (hs _).2]
  refine Finset.sum_congr rfl ?_
  intro j hj
  -- an update that lands on row p has scatter index exactly p: in range, so the second column agrees there
  obtain ⟨hrow, -⟩ := scatter_rows_lands wfS _ rfl dcol j (ix2 p q) (Finset.mem_filter.mp hj).2
  have hrow' : (dcol (ix2 (j 0) (0 : Fin 1))).toInt = (p.val : ℤ) := hrow
  have hp := p.isLt
  have hw := hwrap (j 0) (by rw [hrow']; omega) (by rw [hrow']; omega)
  -- the two row gathers and the two element gathers, read at the update's index
  have g1 := (congrArg (Host.gather (rowGatherDims N E C wfG) (fun i => H i * s (ix1 (i 0))) src) (eq_ix2 j)).trans
    (gather_rows_apply hN wfG _ rfl (fun i => H i * s (ix1 (i 0))) src (j 0) (j 1))
  have g2 := (congrArg (Host.gather (rowGatherDims N E C wfG') H src) (eq_ix2 j)).trans
    (gather_rows_apply hN wfG' _ rfl H src (j 0) (j 1))
  have g3 := gather_elts_apply hN wfg _ rfl s src (j 0)
  have g4 := gather_elts_apply hN wfg _ rfl s dwrap (j 0)
  -- the clamped row of the second column is p itself
  have hrowp : (⟨min (dwrap (ix2 (j 0) (0 : Fin 1))).toInt.toNat (N - 1), by omega⟩ : Fin N) = p := by
    refine Fin.ext ?_
    show min (dwrap (ix2 (j 0) (0 : Fin 1))).toInt.toNat (N - 1) = p.val
    rw [hw, hrow']
    omega
  rw [hrowp] at g4
  beta_reduce
  rw [g1, g2, g3, g4]
  show s (ix1 p) * (H _ * s _) = H _ * (s _ * s (ix1 p))
  rw [mul_comm (s (ix1 p)), mul_assoc]
  rfl

end Cert.LibScaledAggregate

end
-- ==== Proof.LibHostAggregate.lean ====
/-
  GENERAL LEMMA: a per-node scaling of a message-passing layer's aggregation moves onto the edges, with both
  aggregations spelt as the host's accumulating scatter `Host.scatterAdd`.

  In a layer over a graph with N nodes and E edges, features of width C, a row gather `H[src]` is followed by an
  accumulating row scatter, from zero, through the destination column. For a per-node factor `s` that is a nonnegative
  real,

      s p · Σ_{e : dst e = p}  (H · s)[src e, q]   =   Σ_{e : dst e = p}  H[src e, q] · (s[src e] · s[dst e]),

  where the right side gathers `s` at the destinations through a second column that agrees with the scatter's wherever
  that one is in range [0, N). This is LibScaledAggregate's `aggregate_scale_out` with the two sums written as a
  printed host program writes them, `Host.scatterAdd d x idx upd`, and not as the extended reals' `Ideal.hostScatterAdd`.
  The two spellings are the same function by definition; the point of stating the law in this one, over VARIABLE
  extents N, E, C and index width w, is that it then applies to a program's scatter at literal extents by matching
  the statement as written, with nothing to unfold at those extents.
-/
import proofs.«156777_j82712480186688_2_alg».proof.Proof.LibScaledAggregate

noncomputable section

namespace Cert.LibHostAggregate

open Idealize.ShloMosaic Idealize.ShloMosaic.ValueIdx Cert.LibEdgeReads Cert.LibScaledAggregate

/-- The aggregation law with both aggregations spelt as the host's accumulating scatter: the destination's factor
    times the scattered sum of source-scaled gathered rows is the scattered sum of the gathered rows each times its
    edge's weight, for a nonnegative real per-node factor and a second destination column that agrees with the
    scatter's wherever that one is in range. -/
theorem layer_law {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : FVec Ideal ⟨2, ![N, C]⟩ .f32) (s : FVec Ideal ⟨1, ![N]⟩ .f32)
    (hs : ∀ i, 0 ≤ s i ∧ s i ≠ ⊤)
    (z z' : FVec Ideal ⟨2, ![N, C]⟩ .f32) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Host.scatterAdd (F := Ideal) dS z dcol (Host.gather dG (fun i => H i * s (ix1 (i 0))) src) (ix2 p q)
      = Host.scatterAdd (F := Ideal) dS' z' dcol (fun j => Host.gather dG' H src j
          * (Host.gather dg s src (ix1 (j 0)) * Host.gather dg s dwrap (ix1 (j 0)))) (ix2 p q) :=
  aggregate_scale_out hN wfS wfS' wfG wfG' wfg dS dS' hS hS' dG dG' hG hG' dg hg H s hs z z' hz hz' src dcol dwrap hwrap p q

end Cert.LibHostAggregate

end
-- ==== Proof.BridgeLayers.lean ====
/-
  The three layers compared. For a node array  H  the kernel program aggregates the rows of  H ⊙ s  and scales the sum by  s  again;
  the reference aggregates the rows of  H  each times its edge's weight  s[src] · s[dst] . For a nonnegative real  s  the two
  agree entry by entry (the normaliser moves from the nodes onto the edges: the general law of LibHostAggregate), so after the bias
  and the positive part both programs hold the same activations, layer after layer, and the same pooled row at the end.
-/
import proofs.«156777_j82712480186688_2_alg».proof.Proof.BridgeBase
import proofs.«156777_j82712480186688_2_alg».proof.Proof.RefSideLayers
import proofs.«156777_j82712480186688_2_alg».proof.Proof.LibHostAggregate

noncomputable section

namespace Cert.KernelIdeal.Hand

open Idealize.ShloMosaic Idealize.ShloMosaic.ValueIdx
open Cert.KernelIdeal Cert.KernelIdeal.Gen Cert.KernelIdeal.GenP
open Cert.ReferenceIdeal.Read Cert.ReferenceIdeal.RefValue

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))

/-- The zero array both aggregations start from holds zero everywhere. -/
theorem zero128 (i : S100000x128.Idx) : val_main_v40 (F := Ideal) i = 0 := by
  rw [val_main_v40_apply, val_main_cst_7_apply]; exact Ideal.ofBits_zero_f32
theorem zero128' (i : S100000x128.Idx) : val_main_v58 (F := Ideal) i = 0 := by
  rw [val_main_v58_apply, val_main_cst_10_apply]; exact Ideal.ofBits_zero_f32
theorem zero64 (i : S100000x64.Idx) : val_main_v76 (F := Ideal) i = 0 := by
  rw [val_main_v76_apply, val_main_cst_13_apply]; exact Ideal.ofBits_zero_f32

/-- The aggregation of the kernel program, over the reference's columns and zero array. -/
theorem aggregate128_is (h : FVec Ideal S100000x128 .f32) :
    aggregate128 (F := Ideal) h (srcList x1) (dstList x1)
      = Host.scatterAdd (F := Ideal) (φ := .f32) Cert.KernelIdeal.scatter_S100000x128_S1700000x1_S1700000x128_1_0_0_1 (val_main_v40 (F := Ideal)) (val_main_v41 (F := Ideal) x1)
          (Host.gather Cert.KernelIdeal.gather_S100000x128_S1700000x1_S1700000x128_1_0_n_n_0_1_1128 h (val_main_v35 (F := Ideal) x1)) := rfl
theorem aggregate64_is (h : FVec Ideal S100000x64 .f32) :
    aggregate64 (F := Ideal) h (srcList x1) (dstList x1)
      = Host.scatterAdd (F := Ideal) (φ := .f32) Cert.KernelIdeal.scatter_S100000x64_S1700000x1_S1700000x64_1_0_0_1 (val_main_v76 (F := Ideal)) (val_main_v41 (F := Ideal) x1)
          (Host.gather Cert.KernelIdeal.gather_S100000x64_S1700000x1_S1700000x64_1_0_n_n_0_1_164 h (val_main_v35 (F := Ideal) x1)) := rfl

/-- THE LAYER LAW at 128 features: the node's normaliser times the aggregated, source-scaled rows of  H  is the aggregation of the
    rows of  H  each times its edge's weight. -/
theorem law128 (H : FVec Ideal S100000x128 .f32) (zR : FVec Ideal S100000x128 .f32)
    (hzR : ∀ i, zR i = 0) (srcR dcolR : IVec S1700000x1 32)
    (hsrc : srcR = val_main_v35 (F := Ideal) x1) (hdcol : dcolR = val_main_v41 (F := Ideal) x1) (p : Fin 100000) (q : Fin 128) :
    val_main_v13 (F := Ideal) x1 (ix1 p)
        * aggregate128 (F := Ideal) (fun i => H i * val_main_v13 (F := Ideal) x1 (ix1 (i 0))) (srcList x1) (dstList x1) (ix2 p q)
      = Host.scatterAdd (F := Ideal) (φ := .f32) Cert.ReferenceIdeal.scatter_S100000x128_S1700000x1_S1700000x128_1_0_0_1 zR dcolR
          (fun j => Host.gather Cert.ReferenceIdeal.gather_S100000x128_S1700000x1_S1700000x128_1_0_n_n_0_1_1128 H srcR j
            * (Host.gather Cert.ReferenceIdeal.gather_S100000_S1700000x1_S1700000_n_0_n_n_0_1_1 (val_main_v13 (F := Ideal) x1) (val_main_v19 (F := Ideal) x1) (ix1 (j 0))
              * Host.gather Cert.ReferenceIdeal.gather_S100000_S1700000x1_S1700000_n_0_n_n_0_1_1 (val_main_v13 (F := Ideal) x1) (val_main_v26 (F := Ideal) x1) (ix1 (j 0)))) (ix2 p q) := by
  subst hsrc hdcol
  rw [aggregate128_is, srcCol19]
  exact Cert.LibHostAggregate.layer_law (N := 100000) (E := 1700000) (C := 128) (w := 32) (by norm_num)
    Cert.KernelIdeal.scatter_S100000x128_S1700000x1_S1700000x128_1_0_0_1.wf Cert.ReferenceIdeal.scatter_S100000x128_S1700000x1_S1700000x128_1_0_0_1.wf
    Cert.KernelIdeal.gather_S100000x128_S1700000x1_S1700000x128_1_0_n_n_0_1_1128.wf Cert.ReferenceIdeal.gather_S100000x128_S1700000x1_S1700000x128_1_0_n_n_0_1_1128.wf
    Cert.ReferenceIdeal.gather_S100000_S1700000x1_S1700000_n_0_n_n_0_1_1.wf
    _ _ rfl rfl _ _ rfl rfl _ rfl H (val_main_v13 (F := Ideal) x1) (norm_nonneg x1) _ _ zero128 hzR
    (val_main_v35 (F := Ideal) x1) (val_main_v41 (F := Ideal) x1) (val_main_v26 (F := Ideal) x1) (dstWrap_agrees x1) p q

/-- The same at 64 features. -/
theorem law64 (H : FVec Ideal S100000x64 .f32) (zR : FVec Ideal S100000x64 .f32)
    (hzR : ∀ i, zR i = 0) (srcR dcolR : IVec S1700000x1 32)
    (hsrc : srcR = val_main_v35 (F := Ideal) x1) (hdcol : dcolR = val_main_v41 (F := Ideal) x1) (p : Fin 100000) (q : Fin 64) :
    val_main_v13 (F := Ideal) x1 (ix1 p)
        * aggregate64 (F := Ideal) (fun i => H i * val_main_v13 (F := Ideal) x1 (ix1 (i 0))) (srcList x1) (dstList x1) (ix2 p q)
      = Host.scatterAdd (F := Ideal) (φ := .f32) Cert.ReferenceIdeal.scatter_S100000x64_S1700000x1_S1700000x64_1_0_0_1 zR dcolR
          (fun j => Host.gather Cert.ReferenceIdeal.gather_S100000x64_S1700000x1_S1700000x64_1_0_n_n_0_1_164 H srcR j
            * (Host.gather Cert.ReferenceIdeal.gather_S100000_S1700000x1_S1700000_n_0_n_n_0_1_1 (val_main_v13 (F := Ideal) x1) (val_main_v19 (F := Ideal) x1) (ix1 (j 0))
              * Host.gather Cert.ReferenceIdeal.gather_S100000_S1700000x1_S1700000_n_0_n_n_0_1_1 (val_main_v13 (F := Ideal) x1) (val_main_v26 (F := Ideal) x1) (ix1 (j 0)))) (ix2 p q) := by
  subst hsrc hdcol
  rw [aggregate64_is, srcCol19]
  exact Cert.LibHostAggregate.layer_law (N := 100000) (E := 1700000) (C := 64) (w := 32) (by norm_num)
    Cert.KernelIdeal.scatter_S100000x64_S1700000x1_S1700000x64_1_0_0_1.wf Cert.ReferenceIdeal.scatter_S100000x64_S1700000x1_S1700000x64_1_0_0_1.wf
    Cert.KernelIdeal.gather_S100000x64_S1700000x1_S1700000x64_1_0_n_n_0_1_164.wf Cert.ReferenceIdeal.gather_S100000x64_S1700000x1_S1700000x64_1_0_n_n_0_1_164.wf
    Cert.ReferenceIdeal.gather_S100000_S1700000x1_S1700000_n_0_n_n_0_1_1.wf
    _ _ rfl rfl _ _ rfl rfl _ rfl H (val_main_v13 (F := Ideal) x1) (norm_nonneg x1) _ _ zero64 hzR
    (val_main_v35 (F := Ideal) x1) (val_main_v41 (F := Ideal) x1) (val_main_v26 (F := Ideal) x1) (dstWrap_agrees x1) p q

/-! ## Layer 1 -/

/-- Layer 1's rows as the kernel scales them: the reference's product  x · W₁ , each row times its node's normaliser. -/
theorem hs1_form : hs1 x0 x1 x2 = fun i => val_main_v29 (F := Ideal) x0 x2 i * val_main_v13 (F := Ideal) x1 (ix1 (i 0)) := by
  funext i
  obtain ⟨r, e, rfl⟩ : ∃ (r : Fin 100000) (e : Fin 128), i = ix2 r e := ⟨i 0, i 1, eq_ix2 i⟩
  unfold hs1
  rw [rowsScaled_apply, normCol_apply, norm_is, dot1_apply]

/-- The node's normaliser times the kernel's aggregate is the reference's aggregate of weighted messages. -/
theorem layer1 (p : Fin 100000) (q : Fin 128) :
    val_main_v13 (F := Ideal) x1 (ix1 p) * ag1 x0 x1 x2 (ix2 p q) = val_main_v42 (F := Ideal) x0 x1 x2 (ix2 p q) := by
  unfold ag1
  rw [hs1_form, law128 x1 (val_main_v29 (F := Ideal) x0 x2) (val_main_v40 (F := Ideal)) zero128 (val_main_v35 (F := Ideal) x1) (val_main_v41 (F := Ideal) x1) rfl rfl p q]
  unfold val_main_v42
  rw [msg1_eq]

/-- After the bias and the positive part the two programs hold the same activations. -/
theorem act1_is (r : Fin 100000) (k : Fin 128) :
    act128 (ag1 x0 x1 x2) (normCol (dstList x1)) (row128 x3) r k = val_main_v46 (F := Ideal) x0 x1 x2 x3 (ix2 r k) := by
  unfold act128
  rw [normCol_apply, norm_is, layer1, row128_apply, act1_apply]

/-! ## Layer 2 -/

theorem hs2_form : hs2 x0 x1 x2 x3 x4 = fun i => val_main_v47 (F := Ideal) x0 x1 x2 x3 x4 i * val_main_v13 (F := Ideal) x1 (ix1 (i 0)) := by
  funext i
  obtain ⟨r, e, rfl⟩ : ∃ (r : Fin 100000) (e : Fin 128), i = ix2 r e := ⟨i 0, i 1, eq_ix2 i⟩
  unfold hs2
  rw [layerStep128_apply, normCol_apply, norm_is, dot2_apply]
  simp only [act1_is]

theorem layer2 (p : Fin 100000) (q : Fin 128) :
    val_main_v13 (F := Ideal) x1 (ix1 p) * ag2 x0 x1 x2 x3 x4 (ix2 p q) = val_main_v60 (F := Ideal) x0 x1 x2 x3 x4 (ix2 p q) := by
  unfold ag2
  rw [hs2_form, law128 x1 (val_main_v47 (F := Ideal) x0 x1 x2 x3 x4) (val_main_v58 (F := Ideal)) zero128' (val_main_v53 (F := Ideal) x1) (val_main_v59 (F := Ideal) x1) (srcCol53 x1) (dstCol59 x1) p q]
  unfold val_main_v60
  rw [msg2_eq]

theorem act2_is (r : Fin 100000) (k : Fin 128) :
    act128 (ag2 x0 x1 x2 x3 x4) (normCol (dstList x1)) (row128 x5) r k = val_main_v64 (F := Ideal) x0 x1 x2 x3 x4 x5 (ix2 r k) := by
  unfold act128
  rw [normCol_apply, norm_is, layer2, row128_apply, act2_apply]

/-! ## Layer 3 -/

theorem hs3_form : hs3 x0 x1 x2 x3 x4 x5 x6 = fun i => val_main_v65 (F := Ideal) x0 x1 x2 x3 x4 x5 x6 i * val_main_v13 (F := Ideal) x1 (ix1 (i 0)) := by
  funext i
  obtain ⟨r, e, rfl⟩ : ∃ (r : Fin 100000) (e : Fin 64), i = ix2 r e := ⟨i 0, i 1, eq_ix2 i⟩
  unfold hs3
  rw [layerStep64_apply, normCol_apply, norm_is, dot3_apply]
  simp only [act2_is]

theorem layer3 (p : Fin 100000) (q : Fin 64) :
    val_main_v13 (F := Ideal) x1 (ix1 p) * ag3 x0 x1 x2 x3 x4 x5 x6 (ix2 p q) = val_main_v78 (F := Ideal) x0 x1 x2 x3 x4 x5 x6 (ix2 p q) := by
  unfold ag3
  rw [hs3_form, law64 x1 (val_main_v65 (F := Ideal) x0 x1 x2 x3 x4 x5 x6) (val_main_v76 (F := Ideal)) zero64 (val_main_v71 (F := Ideal) x1) (val_main_v77 (F := Ideal) x1) (srcCol71 x1) (dstCol77 x1) p q]
  unfold val_main_v78
  rw [msg3_eq]

theorem act3_is (r : Fin 100000) (f : Fin 64) :
    act64 (ag3 x0 x1 x2 x3 x4 x5 x6) (normCol (dstList x1)) (row64 x7) r f = val_main_v82 (F := Ideal) x0 x1 x2 x3 x4 x5 x6 x7 (ix2 r f) := by
  unfold act64
  rw [normCol_apply, norm_is, layer3, row64_apply, act3_apply]

/-! ## The pooled row -/

/-- The kernel's pooled row is the reference's: the same activations summed over all nodes (the reference's sum starts at the zero word). -/
theorem pooled_is (f : Fin 64) :
    pooledK x0 x1 x2 x3 x4 x5 x6 x7 f = val_main_v83 (F := Ideal) x0 x1 x2 x3 x4 x5 x6 x7 (ix1 f) := by
  unfold pooledK
  rw [pooled_apply]
  simp only [act3_is]
  show _ = Ideal.ofBits .f32 0x00000000#32 + _
  rw [Ideal.ofBits_zero_f32, zero_add]

end Cert.KernelIdeal.Hand

end
-- ==== Proof.RefSideTail.lean ====
/-
  The reference's classifier read one host operation at a time, at the extended reals: the pooled row divided by the number of nodes,
  a dense layer with positive part, a second dense layer, and the softmax over the two classes — which is the specification's classifier
  of the pooled row.
-/
import proofs.«156777_j82712480186688_2_alg».proof.Proof.Gen.ReferenceIdeal.Run
import proofs.«156777_j82712480186688_2_alg».proof.Proof.Gen.ReferenceIdeal.Read
import proofs.«156777_j82712480186688_2_alg».proof.Proof.KernelIdealTailSpec
import proofs.«156777_j82712480186688_2_alg».proof.Proof.LibHostRowFold

noncomputable section

namespace Cert.ReferenceIdeal.RefValue

open Cert.ReferenceIdeal Cert.ReferenceIdeal.Read Cert.KernelIdeal.Hand Idealize.ShloMosaic Idealize.ShloMosaic.ValueIdx

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))
  (x6 : (⟨S128x64, .f32⟩ : BufTy).Contents (Elt Ideal)) (x7 : (⟨S64, .f32⟩ : BufTy).Contents (Elt Ideal))
  (x8 : (⟨S64x32, .f32⟩ : BufTy).Contents (Elt Ideal)) (x9 : (⟨S32, .f32⟩ : BufTy).Contents (Elt Ideal))
  (x10 : (⟨S32x2, .f32⟩ : BufTy).Contents (Elt Ideal)) (x11 : (⟨S2, .f32⟩ : BufTy).Contents (Elt Ideal))

open Cert.LibSoftmaxRows Cert.ReferenceIdeal.Gen

/-! ## The mean: the pooled row divided by the number of nodes -/

/-- The f32 word of 100000.0 is the real number 100000. -/
theorem ofBits_nodes : Ideal.ofBits .f32 0x47C35000#32 = ((100000 : ℝ) : EReal) := by
  simp [Ideal.ofBits, Ideal.ieee, -EReal.coe_mul]; norm_num

/-- Dividing by the number of nodes is multiplying by its reciprocal. -/
theorem mean_apply (f : Fin 64) :
    val_main_v86 (F := Ideal) x0 x1 x2 x3 x4 x5 x6 x7 (ix2 (0 : Fin 1) f) = val_main_v83 (F := Ideal) x0 x1 x2 x3 x4 x5 x6 x7 (ix1 f) * invNodes := by
  rw [val_main_v86_apply, val_main_v84_apply, val_main_v85_apply, val_main_cst_15_apply]
  have e : idx_main_v84 (ix2 (0 : Fin 1) f) = ix1 f := funext fun a => Fin.ext (by match a with | ⟨0, _⟩ => rfl)
  rw [e]
  show Ideal.div _ (Ideal.ofBits .f32 0x47C35000#32) = _
  rw [ofBits_nodes, Ideal.div_coe (by norm_num : (100000 : ℝ) ≠ 0)]

/-! ## The two dense layers -/

theorem hidden_apply (j : Fin 32) :
    val_main_v90 (F := Ideal) x0 x1 x2 x3 x4 x5 x6 x7 x8 x9 (ix2 (0 : Fin 1) j) = hidden (fun f => val_main_v83 (F := Ideal) x0 x1 x2 x3 x4 x5 x6 x7 (ix1 f)) x8 (fun j => x9 (ix1 j)) j := by
  rw [val_main_v90_apply, val_main_v89_apply, val_main_v87_apply, val_main_v88_apply, val_main_call3_v0_apply, val_main_call3_cst_apply]
  have e : idx_main_v88 (ix2 (0 : Fin 1) j) = ix1 j := funext fun a => Fin.ext (by match a with | ⟨0, _⟩ => rfl)
  rw [e]
  unfold Cert.KernelIdeal.Hand.hidden
  simp only [Ideal.maximumf_def, Ideal.addf_def, Ideal.ofBits_def]
  refine congrArg (fun s => max (s + x9 (ix1 j)) zeroW) (Finset.sum_congr rfl fun k _ => ?_)
  have el : lidx_main_v87 (ix2 (0 : Fin 1) j) k = ix2 (0 : Fin 1) k := funext fun a => Fin.ext (by match a with | ⟨0, _⟩ => rfl | ⟨1, _⟩ => rfl)
  have er : ridx_main_v87 (ix2 (0 : Fin 1) j) k = ix2 k j := funext fun a => Fin.ext (by match a with | ⟨0, _⟩ => rfl | ⟨1, _⟩ => rfl)
  rw [el, er, mean_apply]

theorem logits_apply (q : Fin 2) :
    val_main_v93 (F := Ideal) x0 x1 x2 x3 x4 x5 x6 x7 x8 x9 x10 x11 (ix2 (0 : Fin 1) q) = (logits (fun f => val_main_v83 (F := Ideal) x0 x1 x2 x3 x4 x5 x6 x7 (ix1 f)) x8 (fun j => x9 (ix1 j)) x10 (fun q => x11 (ix1 q))) (0 : Fin 1) q := by
  rw [val_main_v93_apply, val_main_v91_apply, val_main_v92_apply]
  have e : idx_main_v92 (ix2 (0 : Fin 1) q) = ix1 q := funext fun a => Fin.ext (by match a with | ⟨0, _⟩ => rfl)
  rw [e]
  unfold logits
  simp only [Ideal.addf_def]
  refine congrArg (fun s => s + x11 (ix1 q)) (Finset.sum_congr rfl fun k _ => ?_)
  have el : lidx_main_v91 (ix2 (0 : Fin 1) q) k = ix2 (0 : Fin 1) k := funext fun a => Fin.ext (by match a with | ⟨0, _⟩ => rfl | ⟨1, _⟩ => rfl)
  have er : ridx_main_v91 (ix2 (0 : Fin 1) q) k = ix2 k q := funext fun a => Fin.ext (by match a with | ⟨0, _⟩ => rfl | ⟨1, _⟩ => rfl)
  rw [el, er, hidden_apply]

/-! ## The softmax over the two classes -/

/-- The reference's row maximum: a maximum over the two logits from minus infinity, and once more against minus infinity, which
    changes nothing. -/
theorem rowMax_apply :
    val_main_v96 (F := Ideal) x0 x1 x2 x3 x4 x5 x6 x7 x8 x9 x10 x11 (ix1 (0 : Fin 1)) = rowMax (logits (fun f => val_main_v83 (F := Ideal) x0 x1 x2 x3 x4 x5 x6 x7 (ix1 f)) x8 (fun j => x9 (ix1 j)) x10 (fun q => x11 (ix1 q))) (0 : Fin 1) := by
  rw [val_main_v96_apply, val_main_v95_apply, val_main_cst_17_apply]
  have h94 : val_main_v94 (F := Ideal) x0 x1 x2 x3 x4 x5 x6 x7 x8 x9 x10 x11 (ix1 (0 : Fin 1))
      = (Finset.univ : Finset (Fin 2)).fold max negInf (fun c => (logits (fun f => val_main_v83 (F := Ideal) x0 x1 x2 x3 x4 x5 x6 x7 (ix1 f)) x8 (fun j => x9 (ix1 j)) x10 (fun q => x11 (ix1 q))) (0 : Fin 1) c) := by
    unfold val_main_v94
    rw [Cert.LibHostRowFold.hostReduce_lastAxis_apply (FloatOps.maximumf (F := Ideal) (φ := .f32)) _ _ reducesTo_S1x2_S1_d1 (by decide) h_S_ (0 : Fin 1)]
    exact congrArg (fun g => (Finset.univ : Finset (Fin 2)).fold max negInf g) (funext fun c => logits_apply x0 x1 x2 x3 x4 x5 x6 x7 x8 x9 x10 x11 c)
  rw [h94]
  exact max_fold_max negInf _

theorem expShift_apply (q : Fin 2) :
    val_main_v100 (F := Ideal) x0 x1 x2 x3 x4 x5 x6 x7 x8 x9 x10 x11 (ix2 (0 : Fin 1) q) = expShift (logits (fun f => val_main_v83 (F := Ideal) x0 x1 x2 x3 x4 x5 x6 x7 (ix1 f)) x8 (fun j => x9 (ix1 j)) x10 (fun q => x11 (ix1 q))) (0 : Fin 1) q := by
  rw [val_main_v100_apply, val_main_v99_apply, val_main_v98_apply, val_main_v97_apply, logits_apply]
  have e : idx_main_v97 (idx_main_v98 (ix2 (0 : Fin 1) q)) = ix1 (0 : Fin 1) := funext fun a => Fin.ext (by match a with | ⟨0, _⟩ => rfl)
  rw [e, rowMax_apply]
  unfold expShift
  simp only [Ideal.hostUnary_exp_def, Ideal.subf_def]

/-- THE TAIL: the reference's class probabilities are the classifier of the specification on the pooled row. -/
theorem tail_eq :
    val_main_v104 (F := Ideal) x0 x1 x2 x3 x4 x5 x6 x7 x8 x9 x10 x11 = classify (fun f => val_main_v83 (F := Ideal) x0 x1 x2 x3 x4 x5 x6 x7 (ix1 f)) x8 (fun j => x9 (ix1 j)) x10 (fun q => x11 (ix1 q)) := by
  funext i
  obtain ⟨a, q, rfl⟩ : ∃ (a : Fin 1) (q : Fin 2), i = ix2 a q := ⟨i 0, i 1, eq_ix2 i⟩
  obtain rfl : a = 0 := Subsingleton.elim _ _
  rw [classify_apply, val_main_v104_apply, val_main_v103_apply, val_main_v102_apply, val_main_v101_apply, expShift_apply]
  have e : idx_main_v102 (idx_main_v103 (ix2 (0 : Fin 1) q)) = ix1 (0 : Fin 1) := funext fun a => Fin.ext (by match a with | ⟨0, _⟩ => rfl)
  rw [e]
  unfold softmax
  show Ideal.div _ (Ideal.ofBits .f32 0x00000000#32 + _) = _
  rw [Ideal.ofBits_zero_f32, zero_add]
  refine congrArg (Ideal.div _) (Finset.sum_congr rfl fun k _ => ?_)
  have ek : idx_main_v101 (ix1 (0 : Fin 1)) k = ix2 (0 : Fin 1) k := funext fun a => Fin.ext (by match a with | ⟨0, _⟩ => rfl | ⟨1, _⟩ => rfl)
  rw [ek, expShift_apply]

end Cert.ReferenceIdeal.RefValue

end
-- ==== Proof.Bridge.lean ====
/-
  The two programs compute one function. The kernel's result is the classifier applied to its pooled row; the reference's last
  stage is the same classifier applied to the reference's pooled row (its division by the number of nodes is the product with the
  reciprocal, its softmax the same); the pooled rows agree (the three layers, compared one by one); the classifier's biases are
  the same vectors, read as rows on one side.
-/
import proofs.«156777_j82712480186688_2_alg».proof.Proof.BridgeLayers
import proofs.«156777_j82712480186688_2_alg».proof.Proof.RefSideTail

noncomputable section

namespace Cert.KernelIdeal.Hand

open Idealize.ShloMosaic Idealize.ShloMosaic.ValueIdx
open Cert.KernelIdeal Cert.KernelIdeal.Gen Cert.KernelIdeal.GenP
open Cert.ReferenceIdeal.Read Cert.ReferenceIdeal.RefValue

/-- The idealized kernel's result is the idealized reference's last stage, as functions of the twelve arguments. -/
theorem kernelOut_eq_reference
    (x0 : (⟨S100000x64, .f32⟩ : BufTy).Contents (Elt Ideal)) (x1 : (⟨S2x1600000, .i32⟩ : BufTy).Contents (Elt Ideal))
    (x2 : (⟨S64x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x64, .f32⟩ : BufTy).Contents (Elt Ideal)) (x7 : (⟨S64, .f32⟩ : BufTy).Contents (Elt Ideal))
    (x8 : (⟨S64x32, .f32⟩ : BufTy).Contents (Elt Ideal)) (x9 : (⟨S32, .f32⟩ : BufTy).Contents (Elt Ideal))
    (x10 : (⟨S32x2, .f32⟩ : BufTy).Contents (Elt Ideal)) (x11 : (⟨S2, .f32⟩ : BufTy).Contents (Elt Ideal)) :
    kernelOut x0 x1 x2 x3 x4 x5 x6 x7 x8 x9 x10 x11 = val_main_v104 (F := Ideal) x0 x1 x2 x3 x4 x5 x6 x7 x8 x9 x10 x11 := by
  have hp : pooledK x0 x1 x2 x3 x4 x5 x6 x7 = fun f => val_main_v83 (F := Ideal) x0 x1 x2 x3 x4 x5 x6 x7 (ix1 f) :=
    funext (pooled_is x0 x1 x2 x3 x4 x5 x6 x7)
  have h1 : (fun j : Fin 32 => row32 x9 (ix2 (0 : Fin 1) j)) = fun j => x9 (ix1 j) := funext (row32_apply x9)
  have h2 : (fun q : Fin 2 => row2 x11 (ix2 (0 : Fin 1) q)) = fun q => x11 (ix1 q) := funext (row2_apply x11)
  unfold kernelOut
  rw [hp, h1, h2, tail_eq]

end Cert.KernelIdeal.Hand

end
-- ==== Proof.RefSide.lean ====
/-
  The reference's result, read back from its run one host operation at a time (the generated run and read-at-an-index modules),
  stated over the same whole-array functions as the kernel's regions: the three layers and the pooled row, then the classifier.
-/
import proofs.«156777_j82712480186688_2_alg».proof.Proof.Gen.ReferenceIdeal.Run
import proofs.«156777_j82712480186688_2_alg».proof.Proof.Gen.ReferenceIdeal.Read
import proofs.«156777_j82712480186688_2_alg».proof.Proof.RefSideLayers
import proofs.«156777_j82712480186688_2_alg».proof.Proof.RefSideTail

noncomputable section

namespace Cert.ReferenceIdeal.RefValue

end Cert.ReferenceIdeal.RefValue

end
-- ==== Proof.lean ====
/-
  A three-layer graph-convolution network with a pooled two-class classifier, as a TPU program of four kernel regions among
  host lines, against its plain reference: the five claims.

  THE MATHEMATICS. With  src / dst  the edge lists (one self-loop per node appended),  deg  the number of list entries naming a node
  as destination and  s = 1/√(max(deg, 1)) , a layer is  out[v] = Σ_{e → v} h[src e] · (s[src e] · s[v]) + b ,  h = x · W . The
  reference weights every message on its edge. The kernel program applies  s  at the NODES: it scales the rows of  x · W  by  s
  before they are gathered, and scales the aggregated row by  s  again when it adds the bias and takes the positive part. On the
  extended reals a nonnegative REAL factor distributes over any finite sum, infinite terms included, and  s  is such a factor
  ( max(deg, 1) ≥ 1 , and the reciprocal square root of an extended real ≥ 1 is 0 at +∞ and a nonnegative real otherwise); the
  destination's factor is the same for every edge that lands on the node, an edge out of range is dropped by both programs. So
  layer by layer both programs hold the same activations; no finiteness of the inputs is used. The last region sums the third
  layer's activations over the nodes, twenty blocks of 5000 rows accumulated in a carried row, against the reference's one sum over
  100000 rows (a sum cut into blocks); its mean multiplies by the rational 1/100000 where the reference divides by 100000 (the
  named constant, which is what `preserves` states); the two dense layers and the softmax are the same functions on both sides.

  THE FRAMES. Each kernel region's body runs on whole staging blocks; regions 0–2 load, compute and store one block; region 3
  carries its accumulator row from point to point (the region's invariant names its contents after every point) and leaves its
  output block untouched until the last point. @main is eight segments — a host stretch and a region, four times — and every
  unscoped buffer is named at every boundary, so the arguments are read back unchanged at the end and the result's buffer holds the
  last region's output array. The reference has no kernel: its frame is its run with the result dropped.
-/
import proofs.«156777_j82712480186688_2_alg».proof.Defs
import proofs.«156777_j82712480186688_2_alg».proof.Proof.Gen.Kernel
import proofs.«156777_j82712480186688_2_alg».proof.Proof.Gen.KernelIdeal
import proofs.«156777_j82712480186688_2_alg».proof.Proof.Gen.ReferenceIdeal
import proofs.«156777_j82712480186688_2_alg».proof.Proof.Gen.Pre_finite_inputs
import proofs.«156777_j82712480186688_2_alg».proof.Proof.KernelRun
import proofs.«156777_j82712480186688_2_alg».proof.Proof.KernelIdealRun
import proofs.«156777_j82712480186688_2_alg».proof.Proof.KernelIdealChain
import proofs.«156777_j82712480186688_2_alg».proof.Proof.KernelIdealValue3
import proofs.«156777_j82712480186688_2_alg».proof.Proof.Bridge
import proofs.«156777_j82712480186688_2_alg».proof.Proof.RefSide
import Idealize.ShloMosaic.Adequacy
import Idealize.ShloMosaic.Init

noncomputable section

namespace Cert.Proof

open Idealize.ShloMosaic Idealize.ShloMosaic.TcCoe Idealize.SL.Sem

/-- The word-level program runs, faults nowhere and leaves its arguments unchanged. -/
theorem frame_kernel : Cert.frame_Kernel := fun m ρ _ => Cert.Kernel.Hand.frame m ρ

/-- So does the idealized program. -/
theorem frame_kernelIdeal : Cert.frame_KernelIdeal := fun m ρ _ => Cert.KernelIdeal.Hand.frame m ρ

/-- The reference has no kernel region: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the f32 word nearest to 1/100000 is read as the rational 1/100000. -/
theorem preserves : Cert.preserves_Kernel_KernelIdeal :=
  IdealRules.named_const.statement Cert.KernelIdeal.κ "inv_100000" .f32 0x3727C5AC#32 ((1 / 100000 : ℝ) : EReal) rfl

/-- From memories that agree on the arguments both idealized programs end with the same class probabilities: the kernel
    program's output buffer holds `kernelOut` of its arguments, the reference's its last stage of the same arguments, and the two
    are one function. -/
theorem algebraic : Cert.algebraic_KernelIdeal_ReferenceIdeal := by
  intro m ρ m' ρ' _ hagree
  refine ⟨fun c => Cert.KernelIdeal.Hand.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨
      (h c _ (Cert.KernelIdeal.Hand.mem_uc Cert.KernelIdeal.main_v53 (by decide))).trans
        (Cert.KernelIdeal.Hand.kernel_value_of m ρ c (Cert.KernelIdeal.Hand.value3 (Cert.KernelIdeal.Hand.V7 m ρ) c)),
      (h c _ (Cert.KernelIdeal.Hand.mem_uc Cert.KernelIdeal.main_arg0 (by decide))).trans (Cert.KernelIdeal.Hand.W8_main_arg0 m ρ c),
      (h c _ (Cert.KernelIdeal.Hand.mem_uc Cert.KernelIdeal.main_arg1 (by decide))).trans (Cert.KernelIdeal.Hand.W8_main_arg1 m ρ c),
      (h c _ (Cert.KernelIdeal.Hand.mem_uc Cert.KernelIdeal.main_arg2 (by decide))).trans (Cert.KernelIdeal.Hand.W8_main_arg2 m ρ c),
      (h c _ (Cert.KernelIdeal.Hand.mem_uc Cert.KernelIdeal.main_arg3 (by decide))).trans (Cert.KernelIdeal.Hand.W8_main_arg3 m ρ c),
      (h c _ (Cert.KernelIdeal.Hand.mem_uc Cert.KernelIdeal.main_arg4 (by decide))).trans (Cert.KernelIdeal.Hand.W8_main_arg4 m ρ c),
      (h c _ (Cert.KernelIdeal.Hand.mem_uc Cert.KernelIdeal.main_arg5 (by decide))).trans (Cert.KernelIdeal.Hand.W8_main_arg5 m ρ c),
      (h c _ (Cert.KernelIdeal.Hand.mem_uc Cert.KernelIdeal.main_arg6 (by decide))).trans (Cert.KernelIdeal.Hand.W8_main_arg6 m ρ c),
      (h c _ (Cert.KernelIdeal.Hand.mem_uc Cert.KernelIdeal.main_arg7 (by decide))).trans (Cert.KernelIdeal.Hand.W8_main_arg7 m ρ c),
      (h c _ (Cert.KernelIdeal.Hand.mem_uc Cert.KernelIdeal.main_arg8 (by decide))).trans (Cert.KernelIdeal.Hand.W8_main_arg8 m ρ c),
      (h c _ (Cert.KernelIdeal.Hand.mem_uc Cert.KernelIdeal.main_arg9 (by decide))).trans (Cert.KernelIdeal.Hand.W8_main_arg9 m ρ c),
      (h c _ (Cert.KernelIdeal.Hand.mem_uc Cert.KernelIdeal.main_arg10 (by decide))).trans (Cert.KernelIdeal.Hand.W8_main_arg10 m ρ c),
      (h c _ (Cert.KernelIdeal.Hand.mem_uc Cert.KernelIdeal.main_arg11 (by decide))).trans (Cert.KernelIdeal.Hand.W8_main_arg11 m ρ c)⟩)
      (Cert.KernelIdeal.Hand.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v104_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    exact (Cert.KernelIdeal.Hand.kernelOut_eq_reference _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
